-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4 : Shape := ⟨2, ![4096, 4]⟩
abbrev S64x1024x1024 : Shape := ⟨3, ![64, 1024, 1024]⟩
abbrev S64x1024x512 : Shape := ⟨3, ![64, 1024, 512]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4 : S_.BroadcastsInDim S4096x4 (![] : Fin 0 → Fin S4096x4.rank)
  reducesTo_S4096x4_S_d0_1 : S4096x4.ReducesTo [0, 1] S_
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S64x1024x512 : S_.BroadcastsInDim S64x1024x512 (![] : Fin 0 → Fin S64x1024x512.rank)
  reducesTo_S64x1024x512_S_d0_1_2 : S64x1024x512.ReducesTo [0, 1, 2] S_

variable [Facts]

def fn_part1 {F : FTy → Type} [FloatOps F] (main_v13 : IVec S_ 1) (main_v16 : IVec S64x1024x512 1) : IVec S_ 1 :=
  let main_c_5 : IVec S_ 1 := constantI S_ 1 1#1
  let main_v17 : IVec S_ 1 := (fun x v => Host.reduce IntOp.andi x v reducesTo_S64x1024x512_S_d0_1_2 h_S_) main_v16 main_c_5
  let main_v18 : IVec S_ 1 := andi main_v13 main_v17
  main_v18

def fn {F : FTy → Type} [FloatOps F] (main_arg0 : FVec F S4096x1024 .f32) (main_arg1 : IVec S4096x4 32) (main_arg2 : FVec F S4096x4 .f32) (main_arg3 : FVec F S64x1024x1024 .f32) (main_arg4 : FVec F S64x1024x512 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x4 .f32 := Host.absf main_arg2
  let main_cst_0 : FVec F S_ .f32 := constant S_ .f32 0x7F800000#32
  let main_v5 : FVec F S4096x4 .f32 := broadcastInDim S4096x4 ![] bcast_S_S4096x4 main_cst_0
  let main_v6 : IVec S4096x4 1 := cmpf .olt main_v4 main_v5
  let main_c_1 : IVec S_ 1 := constantI S_ 1 1#1
  let main_v7 : IVec S_ 1 := (fun x v => Host.reduce IntOp.andi x v reducesTo_S4096x4_S_d0_1 h_S_) main_v6 main_c_1
  let main_v8 : IVec S_ 1 := andi main_v3 main_v7
  let main_v9 : FVec F S64x1024x1024 .f32 := Host.absf main_arg3
  let main_cst_2 : FVec F S_ .f32 := constant S_ .f32 0x7F800000#32
  let main_v10 : FVec F S64x1024x1024 .f32 := broadcastInDim S64x1024x1024 ![] bcast_S_S64x1024x1024 main_cst_2
  let main_v11 : IVec S64x1024x1024 1 := cmpf .olt main_v9 main_v10
  let main_c_3 : IVec S_ 1 := constantI S_ 1 1#1
  let main_v12 : IVec S_ 1 := (fun x v => Host.reduce IntOp.andi x v reducesTo_S64x1024x1024_S_d0_1_2 h_S_) main_v11 main_c_3
  let main_v13 : IVec S_ 1 := andi main_v8 main_v12
  let main_v14 : FVec F S64x1024x512 .f32 := Host.absf main_arg4
  let main_cst_4 : FVec F S_ .f32 := constant S_ .f32 0x7F800000#32
  let main_v15 : FVec F S64x1024x512 .f32 := broadcastInDim S64x1024x512 ![] bcast_S_S64x1024x512 main_cst_4
  let main_v16 : IVec S64x1024x512 1 := cmpf .olt main_v14 main_v15
  fn_part1 (F := F) main_v13 main_v16
-- ==== Kernel.lean ====
abbrev S4096x1024 : Shape := ⟨2, ![4096, 1024]⟩
abbrev S4096x4 : Shape := ⟨2, ![4096, 4]⟩
abbrev S64x1024x1024 : Shape := ⟨3, ![64, 1024, 1024]⟩
abbrev S64x1024x512 : Shape := ⟨3, ![64, 1024, 512]⟩
abbrev S16384 : Shape := ⟨1, ![16384]⟩
abbrev S16384x1 : Shape := ⟨2, ![16384, 1]⟩
abbrev S64 : Shape := ⟨1, ![64]⟩
abbrev S1x64 : Shape := ⟨2, ![1, 64]⟩
abbrev S16384x64 : Shape := ⟨2, ![16384, 64]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S4096x1x1024 : Shape := ⟨3, ![4096, 1, 1024]⟩
abbrev S4096x4x1024 : Shape := ⟨3, ![4096, 4, 1024]⟩
abbrev S16384x1024 : Shape := ⟨2, ![16384, 1024]⟩
abbrev S64x513x1024 : Shape := ⟨3, ![64, 513, 1024]⟩
abbrev S16384x2 : Shape := ⟨2, ![16384, 2]⟩
abbrev S1x513x1024 : Shape := ⟨3, ![1, 513, 1024]⟩
abbrev S1x1024x1024 : Shape := ⟨3, ![1, 1024, 1024]⟩
abbrev S1x1024x512 : Shape := ⟨3, ![1, 1024, 512]⟩
abbrev S513x1024 : Shape := ⟨2, ![513, 1024]⟩
abbrev S1024x1024 : Shape := ⟨2, ![1024, 1024]⟩
abbrev S513x512 : Shape := ⟨2, ![513, 512]⟩
abbrev S1024x512 : Shape := ⟨2, ![1024, 512]⟩

abbrev nBuf : Space → Nat
  | .hbm => 103
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x4, .i32⟩
  | .hbm, ⟨2, _⟩ => ⟨S4096x4, .f32⟩
  | .hbm, ⟨3, _⟩ => ⟨S64x1024x1024, .f32⟩
  | .hbm, ⟨4, _⟩ => ⟨S64x1024x512, .f32⟩
  | .hbm, ⟨5, _⟩ => ⟨S16384, .i32⟩
  | .hbm, ⟨6, _⟩ => ⟨S16384x1, .i32⟩
  | .hbm, ⟨7, _⟩ => ⟨S64, .i32⟩
  | .hbm, ⟨8, _⟩ => ⟨S1x64, .i32⟩
  | .hbm, ⟨9, _⟩ => ⟨S16384x64, .i32⟩
  | .hbm, ⟨10, _⟩ => ⟨S16384x64, .i32⟩
  | .hbm, ⟨11, _⟩ => ⟨S16384x64, .i1⟩
  | .hbm, ⟨12, _⟩ => ⟨S16384x64, .i32⟩
  | .hbm, ⟨13, _⟩ => ⟨S_, .i32⟩
  | .hbm, ⟨14, _⟩ => ⟨S_, .i32⟩
  | .hbm, ⟨15, _⟩ => ⟨S16384x64, .i32⟩
  | .hbm, ⟨16, _⟩ => ⟨S16384x1, .i32⟩
  | .hbm, ⟨17, _⟩ => ⟨S_, .i32⟩
  | .hbm, ⟨18, _⟩ => ⟨S16384x1, .i32⟩
  | .hbm, ⟨19, _⟩ => ⟨S16384x1, .i1⟩
  | .hbm, ⟨20, _⟩ => ⟨S_, .i32⟩
  | .hbm, ⟨21, _⟩ => ⟨S16384x1, .i32⟩
  | .hbm, ⟨22, _⟩ => ⟨S16384x1, .i32⟩
  | .hbm, ⟨23, _⟩ => ⟨S16384x1, .i32⟩
  | .hbm, ⟨24, _⟩ => ⟨S16384x1x1, .i32⟩
  | .hbm, ⟨25, _⟩ => ⟨S1, .i32⟩
  | .hbm, ⟨26, _⟩ => ⟨S_, .i32⟩
  | .hbm, ⟨27, _⟩ => ⟨S16384x1x1, .i32⟩
  | .hbm, ⟨28, _⟩ => ⟨S16384x1x1, .i1⟩
  | .hbm, ⟨29, _⟩ => ⟨S1x1x1, .i32⟩
  | .hbm, ⟨30, _⟩ => ⟨S16384x1x1, .i32⟩
  | .hbm, ⟨31, _⟩ => ⟨S16384x1x1, .i1⟩
  | .hbm, ⟨32, _⟩ => ⟨S16384x1x1, .i1⟩
  | .hbm, ⟨33, _⟩ => ⟨S_, .i1⟩
  | .hbm, ⟨34, _⟩ => ⟨S16384x1, .i1⟩
  | .hbm, ⟨35, _⟩ => ⟨S16384x1, .i32⟩
  | .hbm, ⟨36, _⟩ => ⟨S_, .i32⟩
  | .hbm, ⟨37, _⟩ => ⟨S16384x1, .i32⟩
  | .hbm, ⟨38, _⟩ => ⟨S16384x1, .i32⟩
  | .hbm, ⟨39, _⟩ => ⟨S16384, .i32⟩
  | .hbm, ⟨40, _⟩ => ⟨S_, .i32⟩
  | .hbm, ⟨41, _⟩ => ⟨S16384, .i32⟩
  | .hbm, ⟨42, _⟩ => ⟨S16384, .i32⟩
  | .hbm, ⟨43, _⟩ => ⟨S_, .i32⟩
  | .hbm, ⟨44, _⟩ => ⟨S16384, .i32⟩
  | .hbm, ⟨45, _⟩ => ⟨S16384, .i1⟩
  | .hbm, ⟨46, _⟩ => ⟨S_, .i32⟩
  | .hbm, ⟨47, _⟩ => ⟨S_, .i32⟩
  | .hbm, ⟨48, _⟩ => ⟨S16384, .i32⟩
  | .hbm, ⟨49, _⟩ => ⟨S16384, .i32⟩
  | .hbm, ⟨50, _⟩ => ⟨S4096x1x1024, .f32⟩
  | .hbm, ⟨51, _⟩ => ⟨S4096x4x1024, .f32⟩
  | .hbm, ⟨52, _⟩ => ⟨S16384x1024, .f32⟩
  | .hbm, ⟨53, _⟩ => ⟨S16384x1024, .bf16⟩
  | .hbm, ⟨54, _⟩ => ⟨S_, .bf16⟩
  | .hbm, ⟨55, _⟩ => ⟨S64x513x1024, .bf16⟩
  | .hbm, ⟨56, _⟩ => ⟨S_, .i32⟩
  | .hbm, ⟨57, _⟩ => ⟨S16384, .i32⟩
  | .hbm, ⟨58, _⟩ => ⟨S16384, .i1⟩
  | .hbm, ⟨59, _⟩ => ⟨S_, .i32⟩
  | .hbm, ⟨60, _⟩ => ⟨S16384, .i32⟩
  | .hbm, ⟨61, _⟩ => ⟨S16384, .i32⟩
  | .hbm, ⟨62, _⟩ => ⟨S16384, .i32⟩
  | .hbm, ⟨63, _⟩ => ⟨S_, .i32⟩
  | .hbm, ⟨64, _⟩ => ⟨S16384, .i32⟩
  | .hbm, ⟨65, _⟩ => ⟨S16384, .i1⟩
  | .hbm, ⟨66, _⟩ => ⟨S_, .i32⟩
  | .hbm, ⟨67, _⟩ => ⟨S16384, .i32⟩
  | .hbm, ⟨68, _⟩ => ⟨S16384, .i32⟩
  | .hbm, ⟨69, _⟩ => ⟨S16384, .i32⟩
  | .hbm, ⟨70, _⟩ => ⟨S16384x1, .i32⟩
  | .hbm, ⟨71, _⟩ => ⟨S16384x1, .i32⟩
  | .hbm, ⟨72, _⟩ => ⟨S16384x2, .i32⟩
  | .hbm, ⟨73, _⟩ => ⟨S64x513x1024, .bf16⟩
  | .hbm, ⟨74, _⟩ => ⟨S64x513x1024, .bf16⟩
  | .hbm, ⟨75, _⟩ => ⟨S16384, .f32⟩
  | .hbm, ⟨76, _⟩ => ⟨S16384, .f32⟩
  | .hbm, ⟨77, _⟩ => ⟨S16384, .f32⟩
  | .hbm, ⟨78, _⟩ => ⟨S_, .i32⟩
  | .hbm, ⟨79, _⟩ => ⟨S16384, .i32⟩
  | .hbm, ⟨80, _⟩ => ⟨S16384, .i1⟩
  | .hbm, ⟨81, _⟩ => ⟨S_, .i32⟩
  | .hbm, ⟨82, _⟩ => ⟨S16384, .i32⟩
  | .hbm, ⟨83, _⟩ => ⟨S16384, .i32⟩
  | .hbm, ⟨84, _⟩ => ⟨S16384, .i32⟩
  | .hbm, ⟨85, _⟩ => ⟨S_, .i32⟩
  | .hbm, ⟨86, _⟩ => ⟨S16384, .i32⟩
  | .hbm, ⟨87, _⟩ => ⟨S16384, .i1⟩
  | .hbm, ⟨88, _⟩ => ⟨S_, .i32⟩
  | .hbm, ⟨89, _⟩ => ⟨S16384, .i32⟩
  | .hbm, ⟨90, _⟩ => ⟨S16384, .i32⟩
  | .hbm, ⟨91, _⟩ => ⟨S16384, .i32⟩
  | .hbm, ⟨92, _⟩ => ⟨S16384x1, .i32⟩
  | .hbm, ⟨93, _⟩ => ⟨S16384x1, .i32⟩
  | .hbm, ⟨94, _⟩ => ⟨S16384x2, .i32⟩
  | .hbm, ⟨95, _⟩ => ⟨S16384x1024, .bf16⟩
  | .hbm, ⟨96, _⟩ => ⟨S16384x1024, .f32⟩
  | .hbm, ⟨97, _⟩ => ⟨S16384x1, .f32⟩
  | .hbm, ⟨98, _⟩ => ⟨S16384x1024, .f32⟩
  | .hbm, ⟨99, _⟩ => ⟨S16384x1024, .f32⟩
  | .hbm, ⟨100, _⟩ => ⟨S4096x4x1024, .f32⟩
  | .hbm, ⟨101, _⟩ => ⟨S_, .f32⟩
  | .hbm, ⟨102, _⟩ => ⟨S4096x1024, .f32⟩
  | .local _ .vmem, ⟨0, _⟩ => ⟨S1x513x1024, .bf16⟩
  | .local _ .vmem, ⟨1, _⟩ => ⟨S1x513x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1024x512, .f32⟩
  | .local _ .vmem, ⟨5, _⟩ => ⟨S1x1024x512, .f32⟩
  | .local _ .vmem, ⟨6, _⟩ => ⟨S1x513x1024, .bf16⟩
  | .local _ .vmem, ⟨7, _⟩ => ⟨S1x513x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_call0_c : Ref sig .tc := ⟨.hbm, 13, rfl⟩
abbrev main_call0_call0_v0 : Ref sig .tc := ⟨.hbm, 14, rfl⟩
abbrev main_v8 : Ref sig .tc := ⟨.hbm, 15, rfl⟩
abbrev main_v9 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_c_4 : Ref sig .tc := ⟨.hbm, 36, rfl⟩
abbrev main_call1_v14 : Ref sig .tc := ⟨.hbm, 37, rfl⟩
abbrev main_v10 : Ref sig .tc := ⟨.hbm, 38, rfl⟩
abbrev main_v11 : Ref sig .tc := ⟨.hbm, 39, rfl⟩
abbrev main_c : Ref sig .tc := ⟨.hbm, 40, rfl⟩
abbrev main_v12 : Ref sig .tc := ⟨.hbm, 41, rfl⟩
abbrev main_v13 : Ref sig .tc := ⟨.hbm, 42, rfl⟩
abbrev main_c_0 : Ref sig .tc := ⟨.hbm, 43, rfl⟩
abbrev main_v14 : Ref sig .tc := ⟨.hbm, 44, rfl⟩
abbrev main_v15 : Ref sig .tc := ⟨.hbm, 45, rfl⟩
abbrev main_c_1 : Ref sig .tc := ⟨.hbm, 46, rfl⟩
abbrev main_call2_v0 : Ref sig .tc := ⟨.hbm, 47, rfl⟩
abbrev main_call2_v1 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst : Ref sig .tc := ⟨.hbm, 54, rfl⟩
abbrev main_v21 : Ref sig .tc := ⟨.hbm, 55, rfl⟩
abbrev main_c_2 : Ref sig .tc := ⟨.hbm, 56, rfl⟩
abbrev main_v22 : Ref sig .tc := ⟨.hbm, 57, rfl⟩
abbrev main_v23 : Ref sig .tc := ⟨.hbm, 58, rfl⟩
abbrev main_c_3 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_c_4 : Ref sig .tc := ⟨.hbm, 63, rfl⟩
abbrev main_v27 : Ref sig .tc := ⟨.hbm, 64, rfl⟩
abbrev main_v28 : Ref sig .tc := ⟨.hbm, 65, rfl⟩
abbrev main_c_5 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_c_6 : Ref sig .tc := ⟨.hbm, 78, rfl⟩
abbrev main_v40 : Ref sig .tc := ⟨.hbm, 79, rfl⟩
abbrev main_v41 : Ref sig .tc := ⟨.hbm, 80, rfl⟩
abbrev main_c_7 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_c_8 : Ref sig .tc := ⟨.hbm, 85, rfl⟩
abbrev main_v45 : Ref sig .tc := ⟨.hbm, 86, rfl⟩
abbrev main_v46 : Ref sig .tc := ⟨.hbm, 87, rfl⟩
abbrev main_c_9 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_10 : Ref sig .tc := ⟨.hbm, 101, rfl⟩
abbrev main_v59 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x513x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x513x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x4_S16384 : S4096x4.ShapeCasts S16384
  bcast_S16384_S16384x1_0 : S16384.BroadcastsInDim S16384x1 (![0] : Fin 1 → Fin S16384x1.rank)
  bcast_S64_S1x64_1 : S64.BroadcastsInDim S1x64 (![1] : Fin 1 → Fin S1x64.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  natLt_1_32 : 1 < 32
  bcast_S_S_ : S_.BroadcastsInDim S_ (![] : Fin 0 → Fin S_.rank)
  reduceWindows_S16384x64_S16384x64_w16384s1p16383_0_w1s1p0_0 : S16384x64.ReduceWindows (![16384, 1] : Fin 2 → Nat) ![1, 1] ![16383, 0] ![0, 0] S16384x64
  h_S_ : 0 < S_.numel
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  bcast_S_S16384 : S_.BroadcastsInDim S16384 (![] : Fin 0 → Fin S16384.rank)
  bcast_S4096x1024_S4096x1x1024_0_2 : S4096x1024.BroadcastsInDim S4096x1x1024 (![0, 2] : Fin 2 → Fin S4096x1x1024.rank)
  bcast_S4096x1x1024_S4096x4x1024_0_1_2 : S4096x1x1024.BroadcastsInDim S4096x4x1024 (![0, 1, 2] : Fin 3 → Fin S4096x4x1024.rank)
  shapeCasts_S4096x4x1024_S16384x1024 : S4096x4x1024.ShapeCasts S16384x1024
  bitsLt_bf16_f32 : FTy.bits .bf16 < FTy.bits .f32
  bcast_S_S64x513x1024 : S_.BroadcastsInDim S64x513x1024 (![] : Fin 0 → Fin S64x513x1024.rank)
  concatenates_S16384x1_S16384x1_S16384x2_d1 : Shape.Concatenates [S16384x1, S16384x1] S16384x2 1
  inb_S1x513x1024_S1x513x1024_0_0_0 : ∀ a, (![0, 0, 0] : Fin 3 → Nat) a + S1x513x1024.size a ≤ S1x513x1024.size a
  h_S1x513x1024 : 0 < S1x513x1024.numel
  shapeCasts_S1x513x1024_S513x1024 : S1x513x1024.ShapeCasts S513x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  slices_S513x1024_o0_0_S513x512 : S513x1024.Slices ![0, 0] S513x512
  slices_S513x1024_o0_512_S513x512 : S513x1024.Slices ![0, 512] S513x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S513x1024_S1x513x1024 : S513x1024.ShapeCasts S1x513x1024
  packedbf16_S1x513x1024_S1x513x1024_0_0_0 : (Rect.unit (s := S1x513x1024) ![0, 0, 0] S1x513x1024.size inb_S1x513x1024_S1x513x1024_0_0_0).PackedRows (EltTy.packing .bf16)
  bcast_S16384x1_S16384x1024_0_1 : S16384x1.BroadcastsInDim S16384x1024 (![0, 1] : Fin 2 → Fin S16384x1024.rank)
  shapeCasts_S16384x1024_S4096x4x1024 : S16384x1024.ShapeCasts S4096x4x1024
  reducesTo_S4096x4x1024_S4096x1024_d1 : S4096x4x1024.ReducesTo [1] S4096x1024
  gather_S16384x64_S16384x1x1_S16384x1_n_1_0_0_1_2_11_wf : GatherDims.WF S16384x64 S16384x1x1 S16384x1 [] [1] [0] [1] [0] 2 ![1, 1]
  scatter_S64x513x1024_S16384x2_S16384x1024_1_01_01_1_wf : ScatterDims.WF S64x513x1024 S16384x2 S16384x1024 [1] [0, 1] [0, 1] 1
  dot_S513x1024_S1024x1024_S513x1024_1_1_0_0_n_n_wf : DotDims.WF S513x1024 S1024x1024 S513x1024 [1] [1] [0] [0] [] []
  dot_S513x512_S1024x512_S513x1024_1_1_0_0_n_n_wf : DotDims.WF S513x512 S1024x512 S513x1024 [1] [1] [0] [0] [] []
  gather_S64x513x1024_S16384x2_S16384x1024_1_01_n_n_01_1_111024_wf : GatherDims.WF S64x513x1024 S16384x2 S16384x1024 [1] [0, 1] [] [0, 1] [] 1 ![1, 1, 1024]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x513x1024.size a ≤ S64x513x1024.size a
  hwx0_0 : ∀ i : grid0.Coords, EltTy.bits .bf16 = 32 ∨ (Rect.block (s := S64x513x1024) S1x513x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S64x1024x1024.size a
  hwx0_1 : ∀ i : grid0.Coords, EltTy.bits .f32 = 32 ∨ (Rect.block (s := S64x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S64x1024x512.size a
  hwx0_2 : ∀ i : grid0.Coords, EltTy.bits .f32 = 32 ∨ (Rect.block (s := S64x1024x512) S1x1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x513x1024.size a ≤ S64x513x1024.size a
  hwx0_3 : ∀ i : grid0.Coords, EltTy.bits .bf16 = 32 ∨ (Rect.block (s := S64x513x1024) S1x513x1024.size (cc0_transform_3 i) (hinb0_3 i)).WholeWords (EltTy.packing .bf16)

variable [Facts₀]

def gather_S16384x64_S16384x1x1_S16384x1_n_1_0_0_1_2_11 : GatherDims S16384x64 S16384x1x1 S16384x1 where
  offsetDims := []
  collapsedSliceDims := [1]
  operandBatchingDims := [0]
  startIndicesBatchingDims := [0]
  startIndexMap := [1]
  indexVectorDim := 2
  sliceSizes := ![1, 1]
  wf := gather_S16384x64_S16384x1x1_S16384x1_n_1_0_0_1_2_11_wf
def scatter_S64x513x1024_S16384x2_S16384x1024_1_01_01_1 : ScatterDims S64x513x1024 S16384x2 S16384x1024 where
  updateWindowDims := [1]
  insertedWindowDims := [0, 1]
  scatterDimsToOperandDims := [0, 1]
  indexVectorDim := 1
  wf := scatter_S64x513x1024_S16384x2_S16384x1024_1_01_01_1_wf
def dot_S513x1024_S1024x1024_S513x1024_1_1_0_0_n_n : DotDims S513x1024 S1024x1024 S513x1024 where
  lhsContracting := [1]
  rhsContracting := [1]
  lhsNonContracting := [0]
  rhsNonContracting := [0]
  lhsBatch := []
  rhsBatch := []
  wf := dot_S513x1024_S1024x1024_S513x1024_1_1_0_0_n_n_wf
def dot_S513x512_S1024x512_S513x1024_1_1_0_0_n_n : DotDims S513x512 S1024x512 S513x1024 where
  lhsContracting := [1]
  rhsContracting := [1]
  lhsNonContracting := [0]
  rhsNonContracting := [0]
  lhsBatch := []
  rhsBatch := []
  wf := dot_S513x512_S1024x512_S513x1024_1_1_0_0_n_n_wf
def gather_S64x513x1024_S16384x2_S16384x1024_1_01_n_n_01_1_111024 : GatherDims S64x513x1024 S16384x2 S16384x1024 where
  offsetDims := [1]
  collapsedSliceDims := [0, 1]
  operandBatchingDims := []
  startIndicesBatchingDims := []
  startIndexMap := [0, 1]
  indexVectorDim := 1
  sliceSizes := ![1, 1, 1024]
  wf := gather_S64x513x1024_S16384x2_S16384x1024_1_01_n_n_01_1_111024_wf

abbrev win0_0 : Pipeline.Window sig grid0 :=
  Pipeline.Window.ofSpec (Memref.whole main_v35) S1x513x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x513x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x4 : Shape := ⟨2, ![4096, 4]⟩
abbrev S64x1024x1024 : Shape := ⟨3, ![64, 1024, 1024]⟩
abbrev S64x1024x512 : Shape := ⟨3, ![64, 1024, 512]⟩
abbrev S16384 : Shape := ⟨1, ![16384]⟩
abbrev S4096 : Shape := ⟨1, ![4096]⟩
abbrev S16384x1 : Shape := ⟨2, ![16384, 1]⟩
abbrev S64 : Shape := ⟨1, ![64]⟩
abbrev S1x64 : Shape := ⟨2, ![1, 64]⟩
abbrev S16384x64 : Shape := ⟨2, ![16384, 64]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S16384x1024 : Shape := ⟨2, ![16384, 1024]⟩
abbrev S64x513x1024 : Shape := ⟨3, ![64, 513, 1024]⟩
abbrev S16384x2 : Shape := ⟨2, ![16384, 2]⟩
abbrev S64x513x512 : Shape := ⟨3, ![64, 513, 512]⟩

abbrev nBuf : Space → Nat
  | .hbm => 131
  | .vmem => 0
  | .smem => 0
  | _ => 0

abbrev hbmTy0_0 (i : Nat) : BufTy := match i % 128 with
  | 0 => ⟨S4096x1024, .f32⟩
  | 1 => ⟨S4096x4, .i32⟩
  | 2 => ⟨S4096x4, .f32⟩
  | 3 => ⟨S64x1024x1024, .f32⟩
  | 4 => ⟨S64x1024x512, .f32⟩
  | 5 => ⟨S16384, .i32⟩
  | 6 => ⟨S4096, .i32⟩
  | 7 => ⟨S4096x4, .i32⟩
  | 8 => ⟨S16384, .i32⟩
  | 9 => ⟨S16384x1, .i32⟩
  | 10 => ⟨S64, .i32⟩
  | 11 => ⟨S1x64, .i32⟩
  | 12 => ⟨S16384x64, .i32⟩
  | 13 => ⟨S16384x64, .i32⟩
  | 14 => ⟨S16384x64, .i1⟩
  | 15 => ⟨S16384x64, .i32⟩
  | 16 => ⟨S_, .i32⟩
  | 17 => ⟨S_, .i32⟩
  | 18 => ⟨S16384x64, .i32⟩
  | 19 => ⟨S16384x1, .i32⟩
  | 20 => ⟨S_, .i32⟩
  | 21 => ⟨S16384x1, .i32⟩
  | 22 => ⟨S16384x1, .i1⟩
  | 23 => ⟨S_, .i32⟩
  | 24 => ⟨S16384x1, .i32⟩
  | 25 => ⟨S16384x1, .i32⟩
  | 26 => ⟨S16384x1, .i32⟩
  | 27 => ⟨S16384x1x1, .i32⟩
  | 28 => ⟨S1, .i32⟩
  | 29 => ⟨S_, .i32⟩
  | 30 => ⟨S16384x1x1, .i32⟩
  | 31 => ⟨S16384x1x1, .i1⟩
  | 32 => ⟨S1x1x1, .i32⟩
  | 33 => ⟨S16384x1x1, .i32⟩
  | 34 => ⟨S16384x1x1, .i1⟩
  | 35 => ⟨S16384x1x1, .i1⟩
  | 36 => ⟨S_, .i1⟩
  | 37 => ⟨S16384x1, .i1⟩
  | 38 => ⟨S16384x1, .i32⟩
  | 39 => ⟨S_, .i32⟩
  | 40 => ⟨S16384x1, .i32⟩
  | 41 => ⟨S16384x1, .i32⟩
  | 42 => ⟨S16384, .i32⟩
  | 43 => ⟨S_, .i32⟩
  | 44 => ⟨S16384, .i32⟩
  | 45 => ⟨S16384, .i32⟩
  | 46 => ⟨S_, .i32⟩
  | 47 => ⟨S16384, .i32⟩
  | 48 => ⟨S16384, .i1⟩
  | 49 => ⟨S_, .i32⟩
  | 50 => ⟨S_, .i32⟩
  | 51 => ⟨S16384, .i32⟩
  | 52 => ⟨S16384, .i32⟩
  | 53 => ⟨S_, .i32⟩
  | 54 => ⟨S16384, .i32⟩
  | 55 => ⟨S16384, .i1⟩
  | 56 => ⟨S_, .i32⟩
  | 57 => ⟨S16384, .i32⟩
  | 58 => ⟨S16384, .i32⟩
  | 59 => ⟨S16384, .i32⟩
  | 60 => ⟨S16384x1, .i32⟩
  | 61 => ⟨S16384x1024, .f32⟩
  | 62 => ⟨S_, .f32⟩
  | 63 => ⟨S64x513x1024, .f32⟩
  | 64 => ⟨S_, .i32⟩
  | 65 => ⟨S16384, .i32⟩
  | 66 => ⟨S16384, .i1⟩
  | 67 => ⟨S_, .i32⟩
  | 68 => ⟨S16384, .i32⟩
  | 69 => ⟨S16384, .i32⟩
  | 70 => ⟨S16384, .i32⟩
  | 71 => ⟨S_, .i32⟩
  | 72 => ⟨S16384, .i32⟩
  | 73 => ⟨S16384, .i1⟩
  | 74 => ⟨S_, .i32⟩
  | 75 => ⟨S16384, .i32⟩
  | 76 => ⟨S16384, .i32⟩
  | 77 => ⟨S16384, .i32⟩
  | 78 => ⟨S16384x1, .i32⟩
  | 79 => ⟨S16384x1, .i32⟩
  | 80 => ⟨S16384x2, .i32⟩
  | 81 => ⟨S64x513x1024, .f32⟩
  | 82 => ⟨S64x513x1024, .f32⟩
  | 83 => ⟨S64x513x512, .f32⟩
  | 84 => ⟨S64x513x512, .f32⟩
  | 85 => ⟨S64x513x512, .f32⟩
  | 86 => ⟨S64x513x512, .f32⟩
  | 87 => ⟨S_, .f32⟩
  | 88 => ⟨S64x513x512, .f32⟩
  | 89 => ⟨S64x513x512, .f32⟩
  | 90 => ⟨S_, .f32⟩
  | 91 => ⟨S64x513x512, .f32⟩
  | 92 => ⟨S64x513x512, .f32⟩
  | 93 => ⟨S64x513x512, .f32⟩
  | 94 => ⟨S64x513x512, .f32⟩
  | 95 => ⟨S64x513x1024, .f32⟩
  | 96 => ⟨S16384, .f32⟩
  | 97 => ⟨S16384, .f32⟩
  | 98 => ⟨S16384, .f32⟩
  | 99 => ⟨S_, .i32⟩
  | 100 => ⟨S16384, .i32⟩
  | 101 => ⟨S16384, .i1⟩
  | 102 => ⟨S_, .i32⟩
  | 103 => ⟨S16384, .i32⟩
  | 104 => ⟨S16384, .i32⟩
  | 105 => ⟨S16384, .i32⟩
  | 106 => ⟨S_, .i32⟩
  | 107 => ⟨S16384, .i32⟩
  | 108 => ⟨S16384, .i1⟩
  | 109 => ⟨S_, .i32⟩
  | 110 => ⟨S16384, .i32⟩
  | 111 => ⟨S16384, .i32⟩
  | 112 => ⟨S16384, .i32⟩
  | 113 => ⟨S16384x1, .i32⟩
  | 114 => ⟨S16384x1, .i32⟩
  | 115 => ⟨S16384x2, .i32⟩
  | 116 => ⟨S16384x1024, .f32⟩
  | 117 => ⟨S16384x1, .f32⟩
  | 118 => ⟨S16384x1024, .f32⟩
  | 119 => ⟨S16384x1024, .f32⟩
  | 120 => ⟨S_, .f32⟩
  | 121 => ⟨S4096x1024, .f32⟩
  | 122 => ⟨S_, .i32⟩
  | 123 => ⟨S16384, .i32⟩
  | 124 => ⟨S16384, .i1⟩
  | 125 => ⟨S_, .i32⟩
  | 126 => ⟨S16384, .i32⟩
  | 127 => ⟨S16384, .i32⟩
  | _ => ⟨S4096x1024, .f32⟩

abbrev hbmTy0_1 (i : Nat) : BufTy := match i % 128 with
  | 0 => ⟨S16384, .i32⟩
  | 1 => ⟨S16384x1, .i32⟩
  | 2 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_c : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_c_4 : Ref sig .tc := ⟨.hbm, 39, rfl⟩
abbrev main_call1_v14 : Ref sig .tc := ⟨.hbm, 40, rfl⟩
abbrev main_v13 : Ref sig .tc := ⟨.hbm, 41, rfl⟩
abbrev main_v14 : Ref sig .tc := ⟨.hbm, 42, rfl⟩
abbrev main_c : Ref sig .tc := ⟨.hbm, 43, rfl⟩
abbrev main_v15 : Ref sig .tc := ⟨.hbm, 44, rfl⟩
abbrev main_v16 : Ref sig .tc := ⟨.hbm, 45, rfl⟩
abbrev main_c_0 : Ref sig .tc := ⟨.hbm, 46, rfl⟩
abbrev main_v17 : Ref sig .tc := ⟨.hbm, 47, rfl⟩
abbrev main_v18 : Ref sig .tc := ⟨.hbm, 48, rfl⟩
abbrev main_c_1 : Ref sig .tc := ⟨.hbm, 49, rfl⟩
abbrev main_call2_v0 : Ref sig .tc := ⟨.hbm, 50, rfl⟩
abbrev main_call2_v1 : Ref sig .tc := ⟨.hbm, 51, rfl⟩
abbrev main_v19 : Ref sig .tc := ⟨.hbm, 52, rfl⟩
abbrev main_c_2 : Ref sig .tc := ⟨.hbm, 53, rfl⟩
abbrev main_v20 : Ref sig .tc := ⟨.hbm, 54, rfl⟩
abbrev main_v21 : Ref sig .tc := ⟨.hbm, 55, rfl⟩
abbrev main_c_3 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst : Ref sig .tc := ⟨.hbm, 62, rfl⟩
abbrev main_v27 : Ref sig .tc := ⟨.hbm, 63, rfl⟩
abbrev main_c_4 : Ref sig .tc := ⟨.hbm, 64, rfl⟩
abbrev main_v28 : Ref sig .tc := ⟨.hbm, 65, rfl⟩
abbrev main_v29 : Ref sig .tc := ⟨.hbm, 66, rfl⟩
abbrev main_c_5 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_c_6 : Ref sig .tc := ⟨.hbm, 71, rfl⟩
abbrev main_v33 : Ref sig .tc := ⟨.hbm, 72, rfl⟩
abbrev main_v34 : Ref sig .tc := ⟨.hbm, 73, rfl⟩
abbrev main_c_7 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_c_8 : Ref sig .tc := ⟨.hbm, 99, rfl⟩
abbrev main_v51 : Ref sig .tc := ⟨.hbm, 100, rfl⟩
abbrev main_v52 : Ref sig .tc := ⟨.hbm, 101, rfl⟩
abbrev main_c_9 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_c_10 : Ref sig .tc := ⟨.hbm, 106, rfl⟩
abbrev main_v56 : Ref sig .tc := ⟨.hbm, 107, rfl⟩
abbrev main_v57 : Ref sig .tc := ⟨.hbm, 108, rfl⟩
abbrev main_c_11 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_cst_12 : Ref sig .tc := ⟨.hbm, 120, rfl⟩
abbrev main_v68 : Ref sig .tc := ⟨.hbm, 121, rfl⟩
abbrev main_c_13 : Ref sig .tc := ⟨.hbm, 122, rfl⟩
abbrev main_v69 : Ref sig .tc := ⟨.hbm, 123, rfl⟩
abbrev main_v70 : Ref sig .tc := ⟨.hbm, 124, rfl⟩
abbrev main_c_14 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩

abbrev nD : Nat := 1
abbrev τ : Topo := Topo.v7x

variable {F : FTy → Type} [FloatOps F]

class Facts₀ : Prop where
  shapeCasts_S4096x4_S16384 : S4096x4.ShapeCasts S16384
  bcast_S4096_S4096x4_0 : S4096.BroadcastsInDim S4096x4 (![0] : Fin 1 → Fin S4096x4.rank)
  bcast_S16384_S16384x1_0 : S16384.BroadcastsInDim S16384x1 (![0] : Fin 1 → Fin S16384x1.rank)
  bcast_S64_S1x64_1 : S64.BroadcastsInDim S1x64 (![1] : Fin 1 → Fin S1x64.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  natLt_1_32 : 1 < 32
  bcast_S_S_ : S_.BroadcastsInDim S_ (![] : Fin 0 → Fin S_.rank)
  reduceWindows_S16384x64_S16384x64_w16384s1p16383_0_w1s1p0_0 : S16384x64.ReduceWindows (![16384, 1] : Fin 2 → Nat) ![1, 1] ![16383, 0] ![0, 0] S16384x64
  h_S_ : 0 < S_.numel
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  bcast_S_S16384 : S_.BroadcastsInDim S16384 (![] : Fin 0 → Fin S16384.rank)
  bcast_S_S64x513x1024 : S_.BroadcastsInDim S64x513x1024 (![] : Fin 0 → Fin S64x513x1024.rank)
  concatenates_S16384x1_S16384x1_S16384x2_d1 : Shape.Concatenates [S16384x1, S16384x1] S16384x2 1
  slices_S64x513x1024_S64x513x512_0_0_0 : S64x513x1024.Slices ![0, 0, 0] S64x513x512
  slices_S64x513x1024_S64x513x512_0_0_512 : S64x513x1024.Slices ![0, 0, 512] S64x513x512
  bcast_S_S64x513x512 : S_.BroadcastsInDim S64x513x512 (![] : Fin 0 → Fin S64x513x512.rank)
  bcast_S16384x1_S16384x1024_0_1 : S16384x1.BroadcastsInDim S16384x1024 (![0, 1] : Fin 2 → Fin S16384x1024.rank)
  bcast_S_S4096x1024 : S_.BroadcastsInDim S4096x1024 (![] : Fin 0 → Fin S4096x1024.rank)
  gather_S16384x64_S16384x1x1_S16384x1_n_1_0_0_1_2_11_wf : GatherDims.WF S16384x64 S16384x1x1 S16384x1 [] [1] [0] [1] [0] 2 ![1, 1]
  gather_S4096x1024_S16384x1_S16384x1024_1_0_n_n_0_1_11024_wf : GatherDims.WF S4096x1024 S16384x1 S16384x1024 [1] [0] [] [0] [] 1 ![1, 1024]
  scatter_S64x513x1024_S16384x2_S16384x1024_1_01_01_1_wf : ScatterDims.WF S64x513x1024 S16384x2 S16384x1024 [1] [0, 1] [0, 1] 1
  dot_S64x513x1024_S64x1024x1024_S64x513x1024_2_2_1_1_0_0_wf : DotDims.WF S64x513x1024 S64x1024x1024 S64x513x1024 [2] [2] [1] [1] [0] [0]
  dot_S64x513x512_S64x1024x512_S64x513x1024_2_2_1_1_0_0_wf : DotDims.WF S64x513x512 S64x1024x512 S64x513x1024 [2] [2] [1] [1] [0] [0]
  gather_S64x513x1024_S16384x2_S16384x1024_1_01_n_n_01_1_111024_wf : GatherDims.WF S64x513x1024 S16384x2 S16384x1024 [1] [0, 1] [] [0, 1] [] 1 ![1, 1, 1024]
  scatter_S4096x1024_S16384x1_S16384x1024_1_0_0_1_wf : ScatterDims.WF S4096x1024 S16384x1 S16384x1024 [1] [0] [0] 1

variable [Facts₀]

def gather_S16384x64_S16384x1x1_S16384x1_n_1_0_0_1_2_11 : GatherDims S16384x64 S16384x1x1 S16384x1 where
  offsetDims := []
  collapsedSliceDims := [1]
  operandBatchingDims := [0]
  startIndicesBatchingDims := [0]
  startIndexMap := [1]
  indexVectorDim := 2
  sliceSizes := ![1, 1]
  wf := gather_S16384x64_S16384x1x1_S16384x1_n_1_0_0_1_2_11_wf
def gather_S4096x1024_S16384x1_S16384x1024_1_0_n_n_0_1_11024 : GatherDims S4096x1024 S16384x1 S16384x1024 where
  offsetDims := [1]
  collapsedSliceDims := [0]
  operandBatchingDims := []
  startIndicesBatchingDims := []
  startIndexMap := [0]
  indexVectorDim := 1
  sliceSizes := ![1, 1024]
  wf := gather_S4096x1024_S16384x1_S16384x1024_1_0_n_n_0_1_11024_wf
def scatter_S64x513x1024_S16384x2_S16384x1024_1_01_01_1 : ScatterDims S64x513x1024 S16384x2 S16384x1024 where
  updateWindowDims := [1]
  insertedWindowDims := [0, 1]
  scatterDimsToOperandDims := [0, 1]
  indexVectorDim := 1
  wf := scatter_S64x513x1024_S16384x2_S16384x1024_1_01_01_1_wf
def dot_S64x513x1024_S64x1024x1024_S64x513x1024_2_2_1_1_0_0 : DotDims S64x513x1024 S64x1024x1024 S64x513x1024 where
  lhsContracting := [2]
  rhsContracting := [2]
  lhsNonContracting := [1]
  rhsNonContracting := [1]
  lhsBatch := [0]
  rhsBatch := [0]
  wf := dot_S64x513x1024_S64x1024x1024_S64x513x1024_2_2_1_1_0_0_wf
def dot_S64x513x512_S64x1024x512_S64x513x1024_2_2_1_1_0_0 : DotDims S64x513x512 S64x1024x512 S64x513x1024 where
  lhsContracting := [2]
  rhsContracting := [2]
  lhsNonContracting := [1]
  rhsNonContracting := [1]
  lhsBatch := [0]
  rhsBatch := [0]
  wf := dot_S64x513x512_S64x1024x512_S64x513x1024_2_2_1_1_0_0_wf
def gather_S64x513x1024_S16384x2_S16384x1024_1_01_n_n_01_1_111024 : GatherDims S64x513x1024 S16384x2 S16384x1024 where
  offsetDims := [1]
  collapsedSliceDims := [0, 1]
  operandBatchingDims := []
  startIndicesBatchingDims := []
  startIndexMap := [0, 1]
  indexVectorDim := 1
  sliceSizes := ![1, 1, 1024]
  wf := gather_S64x513x1024_S16384x2_S16384x1024_1_01_n_n_01_1_111024_wf
def scatter_S4096x1024_S16384x1_S16384x1024_1_0_0_1 : ScatterDims S4096x1024 S16384x1 S16384x1024 where
  updateWindowDims := [1]
  insertedWindowDims := [0]
  scatterDimsToOperandDims := [0]
  indexVectorDim := 1
  wf := scatter_S4096x1024_S16384x1_S16384x1024_1_0_0_1_wf

class Facts : Prop extends Facts₀ where

variable [Facts]
-- ==== Proof.Spec.lean ====
/-
  One expert's gated MLP on the extended reals, as a function of the dispatched rows and the two weight stacks.

  For expert `e`, buffer row `c` and output column `h`:
    gu(e, c, o)  = ∑ₖ buf(e, c, k) · wgu(e, o, k)                       (o < 1024: the gate half o < 512, the up half o ≥ 512)
    hid(e, c, i) = gu(e, c, i) · σ(gu(e, c, i)) · gu(e, c, 512 + i)     (i < 512; σ the logistic function, so the first two factors are SiLU)
    out(e, c, h) = ∑ᵢ hid(e, c, i) · wdn(e, h, i)
  Both programs compute this array: the kernel one expert per grid point, the reference as two batched contractions.
-/
import Idealize.ShloMosaic.PureOps.Ideal
import Idealize.ShloMosaic.Lib.ValueIdx

noncomputable section

namespace Cert.MoE

open Idealize.ShloMosaic Idealize.ShloMosaic.ValueIdx
open scoped BigOperators

/-- Column `i` of the gate half. -/
def lo (i : Fin 512) : Fin 1024 := ⟨i.val, by omega⟩
/-- Column `i` of the up half. -/
def hi (i : Fin 512) : Fin 1024 := ⟨512 + i.val, by omega⟩

/-- The gate/up projection of row `c` of expert `e`'s buffer, column `o`. -/
def gu (buf : (⟨3, ![64, 513, 1024]⟩ : Shape).Idx → EReal) (wgu : (⟨3, ![64, 1024, 1024]⟩ : Shape).Idx → EReal)
    (e : Fin 64) (c : Fin 513) (o : Fin 1024) : EReal :=
  ∑ k : Fin 1024, buf (ix3 e c k) * wgu (ix3 e o k)

/-- The hidden activation: SiLU of the gate column times the up column. -/
def hid (buf : (⟨3, ![64, 513, 1024]⟩ : Shape).Idx → EReal) (wgu : (⟨3, ![64, 1024, 1024]⟩ : Shape).Idx → EReal)
    (e : Fin 64) (c : Fin 513) (i : Fin 512) : EReal :=
  gu buf wgu e c (lo i) * Ideal.logistic (gu buf wgu e c (lo i)) * gu buf wgu e c (hi i)

/-- The down projection at (e, c, h). -/
def expertAt (buf : (⟨3, ![64, 513, 1024]⟩ : Shape).Idx → EReal) (wgu : (⟨3, ![64, 1024, 1024]⟩ : Shape).Idx → EReal)
    (wdn : (⟨3, ![64, 1024, 512]⟩ : Shape).Idx → EReal) (e : Fin 64) (c : Fin 513) (h : Fin 1024) : EReal :=
  ∑ i : Fin 512, hid buf wgu e c i * wdn (ix3 e h i)

/-- Every expert's output rows, as one array. -/
def expertOut (buf : (⟨3, ![64, 513, 1024]⟩ : Shape).Idx → EReal) (wgu : (⟨3, ![64, 1024, 1024]⟩ : Shape).Idx → EReal)
    (wdn : (⟨3, ![64, 1024, 512]⟩ : Shape).Idx → EReal) : (⟨3, ![64, 513, 1024]⟩ : Shape).Idx → EReal :=
  fun j => expertAt buf wgu wdn (j 0) (j 1) (j 2)

theorem expertOut_ix3 (buf : (⟨3, ![64, 513, 1024]⟩ : Shape).Idx → EReal) (wgu : (⟨3, ![64, 1024, 1024]⟩ : Shape).Idx → EReal)
    (wdn : (⟨3, ![64, 1024, 512]⟩ : Shape).Idx → EReal) (e : Fin 64) (c : Fin 513) (h : Fin 1024) :
    expertOut buf wgu wdn (ix3 e c h) = expertAt buf wgu wdn e c h := rfl

end Cert.MoE

end
-- ==== Proof.LibTransDot.lean ====
/-
  A matrix product with the right operand contracted on its last axis, read at an entry.

  For the dimension numbers of an `M×K` by `N×K` product (contract axis 1 of both operands, no batch axes), the
  contraction sum at the entry `(p, q)`, on the extended reals, is `∑ k, lhs (p, k) · rhs (q, k)`: a row of the
  left operand against a row of the right one. A printed record with these six lists is
  `DotDims.transposedRhs M K N` (the well-formedness field is a proposition), so it is rewritten to it by `rfl`.
-/
import Idealize.ShloMosaic.PureOps.Ideal.Laws
import Idealize.ShloMosaic.Lib.ValueIdx

noncomputable section

namespace Cert.TransDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ =>
    show ((DotDims.transposedRhs M K N).lhsIdx j _ 0).val = (j 0).val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl j _).trans hk

/-- The right operand's index at result entry `j` and contraction position `k` is `(j 1, k)`. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ =>
    show ((DotDims.transposedRhs M K N).rhsIdx j _ 0).val = (j 1).val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl j _).trans hk

/-- The contraction sum at `(p, q)` is the sum over `k` of `lhs (p, k) · rhs (q, k)`. -/
theorem contraction_eq (lhs : (⟨2, ![M, K]⟩ : Shape).Idx → EReal) (rhs : (⟨2, ![N, K]⟩ : Shape).Idx → EReal) (p : Fin M) (q : Fin N) :
    (∑ k : (DotDims.transposedRhs M K N).contr.Idx, lhs ((DotDims.transposedRhs M K N).lhsIdx (ix2 p q) k) * rhs ((DotDims.transposedRhs M K N).rhsIdx (ix2 p q) k))
      = ∑ k : Fin K, lhs (ix2 p k) * rhs (ix2 q k) := by
  rw [← Equiv.sum_comp (contrEquiv1 (DotDims.transposedRhs M K N) K rfl rfl).symm]
  refine Finset.sum_congr rfl fun k _ => ?_
  rw [lhsIdx_eq, rhsIdx_eq]
  rfl

end Cert.TransDot

end
-- ==== Proof.KerPayload.lean ====
/-
  What one grid point of the kernel stores, read at an index.

  At expert `e` the body loads the expert's buffer block `x0 : [1, 513, 1024]`, its gate/up weights `x1 : [1, 1024, 1024]`
  and its down weights `x2 : [1, 1024, 512]`, and stores, at (0, c, h),
      ∑ᵢ (g(c, i) · σ(g(c, i)) · g(c, 512 + i)) · x2(0, h, i),   g(c, o) = ∑ₖ x0(0, c, k) · x1(0, o, k):
  both matrix products contract the last axis of both operands into a zero accumulator, and the changes of float
  format are the identity on the extended reals.
-/
import proofs.«174603_j78443282694942_2_alg».proof.Proof.Gen.KernelIdeal.Skeleton
import proofs.«174603_j78443282694942_2_alg».proof.Proof.Spec
import proofs.«174603_j78443282694942_2_alg».proof.Proof.LibTransDot
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.MoE
open scoped BigOperators

/-- The block's gate/up projection at row `c`, column `o`. -/
def guB (x0 : (⟨3, ![1, 513, 1024]⟩ : Shape).Idx → EReal) (x1 : (⟨3, ![1, 1024, 1024]⟩ : Shape).Idx → EReal)
    (c : Fin 513) (o : Fin 1024) : EReal :=
  ∑ k : Fin 1024, x0 (ix3 (0 : Fin 1) c k) * x1 (ix3 (0 : Fin 1) o k)

/-- The block's hidden activation at row `c`, column `i`. -/
def hidB (x0 : (⟨3, ![1, 513, 1024]⟩ : Shape).Idx → EReal) (x1 : (⟨3, ![1, 1024, 1024]⟩ : Shape).Idx → EReal)
    (c : Fin 513) (i : Fin 512) : EReal :=
  guB x0 x1 c (lo i) * Ideal.logistic (guB x0 x1 c (lo i)) * guB x0 x1 c (hi i)

/-- The first product at (c, o): the row of the buffer block against the row of the gate/up weights. -/
theorem first_dot_apply (x0 : Vec Ideal S1x513x1024 .bf16) (x1 : Vec Ideal S1x1024x1024 .f32) (c : Fin 513) (o : Fin 1024) :
    matmul (F := Ideal) dot_S513x1024_S1024x1024_S513x1024_1_1_0_0_n_n none
        (shapeCast S513x1024 x0 shapeCasts_S1x513x1024_S513x1024 : FVec Ideal S513x1024 .bf16)
        (truncf .bf16 (shapeCast S1024x1024 x1 shapeCasts_S1x1024x1024_S1024x1024 : FVec Ideal S1024x1024 .f32) bitsLt_bf16_f32 : FVec Ideal S1024x1024 .bf16)
        (constant S513x1024 .f32 0x00000000#32) (ix2 c o)
      = guB x0 x1 c o := by
  unfold matmul
  rw [Ideal.matmul_constant_zero_apply]
  refine (TransDot.contraction_eq (M := 513) (K := 1024) (N := 1024) _ _ c o).trans ?_
  unfold guB
  refine Finset.sum_congr rfl fun k _ => ?_
  rw [shapeCast_1ab_ab_apply, truncf_apply, shapeCast_1ab_ab_apply]

/-- The first product of a block, as an array over (row, gate/up column). -/
abbrev gateUp (x0 : Vec Ideal S1x513x1024 .bf16) (x1 : Vec Ideal S1x1024x1024 .f32) : FVec Ideal S513x1024 .f32 :=
  matmul (F := Ideal) dot_S513x1024_S1024x1024_S513x1024_1_1_0_0_n_n none
    (shapeCast S513x1024 x0 shapeCasts_S1x513x1024_S513x1024 : FVec Ideal S513x1024 .bf16)
    (truncf .bf16 (shapeCast S1024x1024 x1 shapeCasts_S1x1024x1024_S1024x1024 : FVec Ideal S1024x1024 .f32) bitsLt_bf16_f32 : FVec Ideal S1024x1024 .bf16)
    (constant S513x1024 .f32 0x00000000#32)

/-- The low half of the columns is the gate. -/
theorem gate_apply (x0 : Vec Ideal S1x513x1024 .bf16) (x1 : Vec Ideal S1x1024x1024 .f32) (c : Fin 513) (i : Fin 512) :
    (extractStridedSlice S513x512 ![0, 0] (gateUp x0 x1) slices_S513x1024_o0_0_S513x512 : FVec Ideal S513x512 .f32) (ix2 c i)
      = guB x0 x1 c (lo i) :=
  (slice2_axis1_apply 0 (gateUp x0 x1) slices_S513x1024_o0_0_S513x512 c i (lo i) (Nat.zero_add _).symm).trans
    (first_dot_apply x0 x1 c (lo i))

/-- The high half of the columns is the up projection. -/
theorem up_apply (x0 : Vec Ideal S1x513x1024 .bf16) (x1 : Vec Ideal S1x1024x1024 .f32) (c : Fin 513) (i : Fin 512) :
    (extractStridedSlice S513x512 ![0, 512] (gateUp x0 x1) slices_S513x1024_o0_512_S513x512 : FVec Ideal S513x512 .f32) (ix2 c i)
      = guB x0 x1 c (hi i) :=
  (slice2_axis1_apply 512 (gateUp x0 x1) slices_S513x1024_o0_512_S513x512 c i (hi i) rfl).trans
    (first_dot_apply x0 x1 c (hi i))

/-- What the body stores at (0, c, h): the down projection of the hidden activation. -/
theorem pay_apply (x0 : Vec Ideal S1x513x1024 .bf16) (x1 : Vec Ideal S1x1024x1024 .f32) (x2 : Vec Ideal S1x1024x512 .f32)
    (c : Fin 513) (h : Fin 1024) :
    k0_pay1 (F := Ideal) x0 x1 x2 (ix3 (0 : Fin 1) c h) = ∑ i : Fin 512, hidB x0 x1 c i * x2 (ix3 (0 : Fin 1) h i) := by
  unfold k0_pay1
  refine (shapeCast_ab_1ab_apply _ _ (0 : Fin 1) c h).trans ?_
  refine (truncf_apply (φ := .f32) (ψ := .bf16) _ bitsLt_bf16_f32 (ix2 c h)).trans ?_
  unfold matmul
  refine (Ideal.matmul_constant_zero_apply _ none _ _ (ix2 c h)).trans ?_
  refine (TransDot.contraction_eq (M := 513) (K := 512) (N := 1024) _ _ c h).trans ?_
  refine Finset.sum_congr rfl fun i _ => ?_
  refine congrArg₂ (· * ·) ?_ ?_
  · refine (truncf_apply (φ := .f32) (ψ := .bf16) _ bitsLt_bf16_f32 (ix2 c i)).trans ?_
    refine (mulf_apply _ _ _).trans ?_
    refine congrArg₂ (· * ·) ?_ (up_apply x0 x1 c i)
    refine (mulf_apply _ _ _).trans ?_
    refine congrArg₂ (· * ·) (gate_apply x0 x1 c i) ?_
    exact congrArg Ideal.logistic (gate_apply x0 x1 c i)
  · refine (truncf_apply (φ := .f32) (ψ := .bf16) _ bitsLt_bf16_f32 (ix2 h i)).trans ?_
    exact shapeCast_1ab_ab_apply _ _ h i

/-- If the three loaded blocks are expert `e`'s slabs of three arrays, the stored value at (0, c, h) is the expert MLP of
    those arrays at (e, c, h). -/
theorem point_eq (x0 : Vec Ideal S1x513x1024 .bf16) (x1 : Vec Ideal S1x1024x1024 .f32) (x2 : Vec Ideal S1x1024x512 .f32)
    (A0 : (⟨3, ![64, 513, 1024]⟩ : Shape).Idx → EReal) (A1 : (⟨3, ![64, 1024, 1024]⟩ : Shape).Idx → EReal)
    (A2 : (⟨3, ![64, 1024, 512]⟩ : Shape).Idx → EReal) (e : Fin 64)
    (h0 : ∀ (r : Fin 513) (k : Fin 1024), x0 (ix3 (0 : Fin 1) r k) = A0 (ix3 e r k))
    (h1 : ∀ (o : Fin 1024) (k : Fin 1024), x1 (ix3 (0 : Fin 1) o k) = A1 (ix3 e o k))
    (h2 : ∀ (h : Fin 1024) (i : Fin 512), x2 (ix3 (0 : Fin 1) h i) = A2 (ix3 e h i))
    (c : Fin 513) (h : Fin 1024) :
    k0_pay1 (F := Ideal) x0 x1 x2 (ix3 (0 : Fin 1) c h) = expertOut A0 A1 A2 (ix3 e c h) := by
  have hg : ∀ o, guB x0 x1 c o = gu A0 A1 e c o := fun o => by
    unfold guB gu
    exact Finset.sum_congr rfl fun k _ => by rw [h0, h1]
  rw [pay_apply, expertOut_ix3]
  unfold expertAt
  refine Finset.sum_congr rfl fun i _ => ?_
  unfold hidB hid
  rw [hg, hg, h2]

end Cert.KernelIdeal.Pay

end
-- ==== Proof.KerBlocks.lean ====
/-
  The kernel's output array after the grid: every expert's output rows.

  Grid point `t` is expert `t`: each window's block at `t` is the slab (t, ·, ·) of its array, so the point reads the
  expert's buffer rows and its two weight slabs, and writes back the expert's slab of the output. The 64 slabs tile
  the output array, so after the run it is the expert MLP of the arrays the region found, at every index.
-/
import proofs.«174603_j78443282694942_2_alg».proof.Proof.Gen.KernelIdeal.Frame
import proofs.«174603_j78443282694942_2_alg».proof.Proof.KerPayload
import Idealize.ShloMosaic.Lib.Pipeline.Value

set_option maxRecDepth 16384

noncomputable section

namespace Cert.KernelIdeal.Blocks

open Cert.KernelIdeal Cert.KernelIdeal.Gen Cert.KernelIdeal.Pay Cert.MoE
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

theorem hz3 : (![0, 0, 0] : Fin 3 → Nat) = fun _ => 0 := funext fun a => by fin_cases a <;> rfl

/-- The expert a grid point works on. -/
def eOf (t : Fin cfg0.N) : Fin 64 := ⟨t.val, lt_of_lt_of_eq t.isLt N_0⟩

/-- Every window's block index at point `t` is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The buffer array, the two weight arrays and nothing else, as the region finds them. -/
abbrev A0 (c : Dev nD) : (⟨3, ![64, 513, 1024]⟩ : Shape).Idx → EReal := V m c (Pipeline.arrRef spec0 0)
abbrev A1 (c : Dev nD) : (⟨3, ![64, 1024, 1024]⟩ : Shape).Idx → EReal := V m c (Pipeline.arrRef spec0 1)
abbrev A2 (c : Dev nD) : (⟨3, ![64, 1024, 512]⟩ : Shape).Idx → EReal := V m c (Pipeline.arrRef spec0 2)

/-- Window 0's block at `t` sits at (t, ·, ·) of its array. -/
theorem emb0 (t : Fin cfg0.N) (r : Fin 513) (k : Fin 1024) :
    ((cfg0.win 0).blk t).view.emb (ix3 (0 : Fin 1) r k) = ix3 (eOf t) r k := by
  obtain ⟨e0, e1, e2, -⟩ := idx_facts t
  funext ax; apply Fin.ext
  match ax with
  | ⟨0, _⟩ => show win0_0.index t (0 : Fin 3) * 1 + 1 * 0 = t.val; omega
  | ⟨1, _⟩ => show win0_0.index t (1 : Fin 3) * 513 + 1 * r.val = r.val; omega
  | ⟨2, _⟩ => show win0_0.index t (2 : Fin 3) * 1024 + 1 * k.val = k.val; omega

/-- Window 1's block at `t` sits at (t, ·, ·) of its array. -/
theorem emb1 (t : Fin cfg0.N) (o : Fin 1024) (k : Fin 1024) :
    ((cfg0.win 1).blk t).view.emb (ix3 (0 : Fin 1) o k) = ix3 (eOf t) o k := by
  obtain ⟨-, -, -, e0, e1, e2, -⟩ := idx_facts t
  funext ax; apply Fin.ext
  match ax with
  | ⟨0, _⟩ => show win0_1.index t (0 : Fin 3) * 1 + 1 * 0 = t.val; omega
  | ⟨1, _⟩ => show win0_1.index t (1 : Fin 3) * 1024 + 1 * o.val = o.val; omega
  | ⟨2, _⟩ => show win0_1.index t (2 : Fin 3) * 1024 + 1 * k.val = k.val; omega

/-- Window 2's block at `t` sits at (t, ·, ·) of its array. -/
theorem emb2 (t : Fin cfg0.N) (h : Fin 1024) (i : Fin 512) :
    ((cfg0.win 2).blk t).view.emb (ix3 (0 : Fin 1) h i) = ix3 (eOf t) h i := by
  obtain ⟨-, -, -, -, -, -, e0, e1, e2, -⟩ := idx_facts t
  funext ax; apply Fin.ext
  match ax with
  | ⟨0, _⟩ => show win0_2.index t (0 : Fin 3) * 1 + 1 * 0 = t.val; omega
  | ⟨1, _⟩ => show win0_2.index t (1 : Fin 3) * 1024 + 1 * h.val = h.val; omega
  | ⟨2, _⟩ => show win0_2.index t (2 : Fin 3) * 512 + 1 * i.val = i.val; omega

/-- Window 3's block at `t` sits at (t, ·, ·) of its array. -/
theorem emb3 (t : Fin cfg0.N) (r : Fin 513) (h : Fin 1024) :
    ((cfg0.win 3).blk t).view.emb (ix3 (0 : Fin 1) r h) = ix3 (eOf t) r h := by
  obtain ⟨-, -, -, -, -, -, -, -, -, e0, e1, e2⟩ := idx_facts t
  funext ax; apply Fin.ext
  match ax with
  | ⟨0, _⟩ => show win0_3.index t (0 : Fin 3) * 1 + 1 * 0 = t.val; omega
  | ⟨1, _⟩ => show win0_3.index t (1 : Fin 3) * 513 + 1 * r.val = r.val; omega
  | ⟨2, _⟩ => show win0_3.index t (2 : Fin 3) * 1024 + 1 * h.val = h.val; omega

/-- Any array read through window 0's block at `t` is the array's slab `t`. -/
theorem read0 (X : (⟨3, ![64, 513, 1024]⟩ : Shape).Idx → EReal) (t : Fin cfg0.N) (r : Fin 513) (k : Fin 1024) :
    ((cfg0.win 0).blk t).view.read (Elt Ideal) X (ix3 (0 : Fin 1) r k) = X (ix3 (eOf t) r k) := by
  show X (((cfg0.win 0).blk t).view.emb (ix3 (0 : Fin 1) r k)) = _
  rw [emb0]

/-- Any array read through window 1's block at `t` is the array's slab `t`. -/
theorem read1 (X : (⟨3, ![64, 1024, 1024]⟩ : Shape).Idx → EReal) (t : Fin cfg0.N) (o : Fin 1024) (k : Fin 1024) :
    ((cfg0.win 1).blk t).view.read (Elt Ideal) X (ix3 (0 : Fin 1) o k) = X (ix3 (eOf t) o k) := by
  show X (((cfg0.win 1).blk t).view.emb (ix3 (0 : Fin 1) o k)) = _
  rw [emb1]

/-- Any array read through window 2's block at `t` is the array's slab `t`. -/
theorem read2 (X : (⟨3, ![64, 1024, 512]⟩ : Shape).Idx → EReal) (t : Fin cfg0.N) (h : Fin 1024) (i : Fin 512) :
    ((cfg0.win 2).blk t).view.read (Elt Ideal) X (ix3 (0 : Fin 1) h i) = X (ix3 (eOf t) h i) := by
  show X (((cfg0.win 2).blk t).view.emb (ix3 (0 : Fin 1) h i)) = _
  rw [emb2]

/-- Any array read through window 3's block at `t` is the array's slab `t`. -/
theorem read3 (X : (⟨3, ![64, 513, 1024]⟩ : Shape).Idx → EReal) (t : Fin cfg0.N) (r : Fin 513) (h : Fin 1024) :
    ((cfg0.win 3).blk t).view.read (Elt Ideal) X (ix3 (0 : Fin 1) r h) = X (ix3 (eOf t) r h) := by
  show X (((cfg0.win 3).blk t).view.emb (ix3 (0 : Fin 1) r h)) = _
  rw [emb3]

theorem iblk0_apply (c : Dev nD) (t : Fin cfg0.N) (r : Fin 513) (k : Fin 1024) :
    iblk m c 0 t (ix3 (0 : Fin 1) r k) = A0 m c (ix3 (eOf t) r k) := by
  unfold iblk
  exact read0 _ t r k

theorem iblk1_apply (c : Dev nD) (t : Fin cfg0.N) (o : Fin 1024) (k : Fin 1024) :
    iblk m c 1 t (ix3 (0 : Fin 1) o k) = A1 m c (ix3 (eOf t) o k) := by
  unfold iblk
  exact read1 _ t o k

theorem iblk2_apply (c : Dev nD) (t : Fin cfg0.N) (h : Fin 1024) (i : Fin 512) :
    iblk m c 2 t (ix3 (0 : Fin 1) h i) = A2 m c (ix3 (eOf t) h i) := by
  unfold iblk
  exact read2 _ t h i

/-- For ANY three arrays whose slabs `t` the loaded blocks are, what point `t` writes back is slab `t` of their expert MLP. -/
theorem flush_of_blocks (t : Fin cfg0.N) (x0 : Vec Ideal S1x513x1024 .bf16) (x1 : Vec Ideal S1x1024x1024 .f32) (x2 : Vec Ideal S1x1024x512 .f32)
    (B0 : (⟨3, ![64, 513, 1024]⟩ : Shape).Idx → EReal) (B1 : (⟨3, ![64, 1024, 1024]⟩ : Shape).Idx → EReal)
    (B2 : (⟨3, ![64, 1024, 512]⟩ : Shape).Idx → EReal)
    (h0 : ∀ (r : Fin 513) (k : Fin 1024), x0 (ix3 (0 : Fin 1) r k) = B0 (ix3 (eOf t) r k))
    (h1 : ∀ (o : Fin 1024) (k : Fin 1024), x1 (ix3 (0 : Fin 1) o k) = B1 (ix3 (eOf t) o k))
    (h2 : ∀ (h : Fin 1024) (i : Fin 512), x2 (ix3 (0 : Fin 1) h i) = B2 (ix3 (eOf t) h i)) :
    (cfg0.win 3).cut (grid0.coords t) (k0_pay1 (F := Ideal) x0 x1 x2)
      = ((cfg0.win 3).blk t).view.read (Elt Ideal) (expertOut B0 B1 B2) := by
  funext j
  obtain ⟨u, r, h, rfl⟩ : ∃ (u : Fin 1) (r : Fin 513) (h : Fin 1024), j = ix3 u r h := ⟨j 0, j 1, j 2, eq_ix3 j⟩
  obtain rfl : u = 0 := Subsingleton.elim _ _
  refine Eq.trans ?_ (read3 (expertOut B0 B1 B2) t r h).symm
  refine Eq.trans ?_ (point_eq x0 x1 x2 B0 B1 B2 (eOf t) h0 h1 h2 r h)
  refine congrArg (k0_pay1 (F := Ideal) x0 x1 x2) (funext fun ax => Fin.ext ?_)
  match ax with
  | ⟨0, _⟩ => rfl
  | ⟨1, _⟩ => rfl
  | ⟨2, _⟩ => rfl

/-- What point `t` writes back to the output array: slab `t` of the expert MLP of the arrays the region found. -/
theorem flushed3_eq (c : Dev nD) (t : Fin cfg0.N) :
    (dats m 0 c).flushed 3 t = ((cfg0.win 3).blk t).view.read (Elt Ideal) (expertOut (A0 m c) (A1 m c) (A2 m c)) := by
  show (cfg0.win 3).cut (grid0.coords t) ((dats m 0 c).after 3 t) = _
  rw [after0_3]
  unfold out0_3
  rw [View.canon_unit_zero hz3]
  simp only [View.ld_unit_zero (S := S1x513x1024) hz3, View.ld_unit_zero (S := S1x1024x1024) hz3, View.ld_unit_zero (S := S1x1024x512) hz3]
  exact flush_of_blocks t _ _ _ _ _ _ (iblk0_apply m c t) (iblk1_apply m c t) (iblk2_apply m c t)

/-- An index of the output array is in point `t`'s block iff each coordinate is in the block's range on its axis. -/
theorem mem_blk3 (t : Fin cfg0.N) (i : S64x513x1024.Idx) :
    i ∈ ((cfg0.win 3).blk t).view.set ↔ ∀ a : Fin 3, win0_3.index t a * S1x513x1024.size a ≤ (i a).val ∧ (i a).val < win0_3.index t a * S1x513x1024.size a + S1x513x1024.size a := by
  show i ∈ ((View.whole main_v36).slice (win0_3.rect t)).set ↔ _
  rw [View.set_slice_whole, Rect.mem_set_unit]
  exact Iff.rfl

/-- The 64 slabs cover the output array: the index (e, r, h) is in point `e`'s block. -/
theorem cover3 (i : S64x513x1024.Idx) : ∃ t : Fin cfg0.N, (cfg0.win 3).flush t = true ∧ i ∈ ((cfg0.win 3).blk t).view.set := by
  have h0 : (i 0).val < 64 := (i 0).isLt
  have h1 : (i 1).val < 513 := (i 1).isLt
  have h2 : (i 2).val < 1024 := (i 2).isLt
  have hN : cfg0.N = 64 := N_0
  refine ⟨⟨(i 0).val, by rw [hN]; exact h0⟩, flush0_3 _, ?_⟩
  rw [mem_blk3]
  obtain ⟨-, -, -, -, -, -, -, -, -, e0, e1, e2⟩ := idx_facts ⟨(i 0).val, by rw [hN]; exact h0⟩
  intro a
  match a with
  | ⟨0, _⟩ =>
    show win0_3.index _ (0 : Fin 3) * 1 ≤ (i 0).val ∧ (i 0).val < win0_3.index _ (0 : Fin 3) * 1 + 1
    rw [e0]; constructor <;> simp
  | ⟨1, _⟩ =>
    show win0_3.index _ (1 : Fin 3) * 513 ≤ (i 1).val ∧ (i 1).val < win0_3.index _ (1 : Fin 3) * 513 + 513
    rw [e1]; omega
  | ⟨2, _⟩ =>
    show win0_3.index _ (2 : Fin 3) * 1024 ≤ (i 2).val ∧ (i 2).val < win0_3.index _ (2 : Fin 3) * 1024 + 1024
    rw [e2]; omega

/-- THE OUTPUT ARRAY after the run: the expert MLP of the buffer and weight arrays the region found. -/
theorem final3 (c : Dev nD) : (dats m 0 c).arrAt 3 cfg0.N = expertOut (A0 m c) (A1 m c) (A2 m c) :=
  (dats m 0 c).arrAt_eq_of_cover 3 _ (fun t _ => flushed3_eq m c t) cover3

end Cert.KernelIdeal.Blocks

end
-- ==== Proof.RefRun.lean ====
import proofs.«174603_j78443282694942_2_alg».proof.Proof.Gen.ReferenceIdeal
import Idealize.ShloMosaic.Lib.StableHlo.Run

/-!
  The reference program's run. Its `@main` is a straight line of StableHLO operations once the four outlined
  functions (the cumulative sum, which itself calls its inner function; the take-along-axis; the where; the silu)
  are substituted at their call sites over the calls' buffer records: `ops` lists the operations in order, `main_eq`
  says `@main` is their sequence, and `run_main` that from any memory with zero counters every weakly fair execution
  terminates with every TensorCore buffer at the fold of the operations over the launch contents.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- `@main`'s 126 operations in order, the calls substituted: the one-hot's cumulative sum is the inner function's
    three operations over the nested record, the take-along-axis twenty-two, the where three, the silu nine. -/
abbrev ops : List (HloOp τ sig (Elt F)) :=
  [ StableHlo.reshape main_arg1 main_v0 rfl shapeCasts_S4096x4_S16384,
    StableHlo.nullary main_v1 (iotaInDim S4096 32 0),
    StableHlo.unary main_v1 main_v2 (broadcastInDim S4096x4 ![0] bcast_S4096_S4096x4_0 : (⟨S4096, .i32⟩ : BufTy).Contents (Elt F) → (⟨S4096x4, .i32⟩ : BufTy).Contents (Elt F)),
    StableHlo.reshape main_v2 main_v3 rfl shapeCasts_S4096x4_S16384,
    StableHlo.unary main_v0 main_v4 (broadcastInDim S16384x1 ![0] bcast_S16384_S16384x1_0 : (⟨S16384, .i32⟩ : BufTy).Contents (Elt F) → (⟨S16384x1, .i32⟩ : BufTy).Contents (Elt F)),
    StableHlo.nullary main_v5 (iotaInDim S64 32 0),
    StableHlo.unary main_v5 main_v6 (broadcastInDim S1x64 ![1] bcast_S64_S1x64_1 : (⟨S64, .i32⟩ : BufTy).Contents (Elt F) → (⟨S1x64, .i32⟩ : BufTy).Contents (Elt F)),
    StableHlo.unary main_v4 main_v7 (broadcastInDim S16384x64 ![0, 1] bcast_S16384x1_S16384x64_0_1 : (⟨S16384x1, .i32⟩ : BufTy).Contents (Elt F) → (⟨S16384x64, .i32⟩ : BufTy).Contents (Elt F)),
    StableHlo.unary main_v6 main_v8 (broadcastInDim S16384x64 ![0, 1] bcast_S1x64_S16384x64_0_1 : (⟨S1x64, .i32⟩ : BufTy).Contents (Elt F) → (⟨S16384x64, .i32⟩ : BufTy).Contents (Elt F)),
    StableHlo.binary main_v7 main_v8 main_v9 (cmpi .eq : (⟨S16384x64, .i32⟩ : BufTy).Contents (Elt F) → (⟨S16384x64, .i32⟩ : BufTy).Contents (Elt F) → (⟨S16384x64, .i1⟩ : BufTy).Contents (Elt F)),
    StableHlo.unary main_v9 main_v10 ((extui 32 · natLt_1_32) : (⟨S16384x64, .i1⟩ : BufTy).Contents (Elt F) → (⟨S16384x64, .i32⟩ : BufTy).Contents (Elt F)),
    StableHlo.TRef.nullary main_call0.call0.c (constantI S_ 32 0#32),
    StableHlo.TRef.unary main_call0.call0.c main_call0.call0.v0 (broadcastInDim S_ ![] bcast_S_S_),
    StableHlo.TRef.binary (.of main_v10 : StableHlo.TRef sig ⟨S16384x64, .i32⟩) main_call0.call0.v0 main_call0.call0.v1 (fun x v => Host.reduceWindow IntOp.addi ![16384, 1] ![1, 1] ![16383, 0] ![0, 0] x v reduceWindows_S16384x64_S16384x64_w16384s1p16383_0_w1s1p0_0 h_S_),
    StableHlo.unary main_v0 main_v12 (broadcastInDim S16384x1 ![0] bcast_S16384_S16384x1_0 : (⟨S16384, .i32⟩ : BufTy).Contents (Elt F) → (⟨S16384x1, .i32⟩ : BufTy).Contents (Elt F)),
    StableHlo.TRef.nullary main_call1.c (constantI S_ 32 0#32),
    StableHlo.TRef.unary main_call1.c main_call1.v0 (broadcastInDim S16384x1 ![] bcast_S_S16384x1),
    StableHlo.TRef.binary (.of main_v12 : StableHlo.TRef sig ⟨S16384x1, .i32⟩) main_call1.v0 main_call1.v1 (cmpi .slt),
    StableHlo.TRef.nullary main_call1.c_0 (constantI S_ 32 64#32),
    StableHlo.TRef.unary main_call1.c_0 main_call1.v2 (broadcastInDim S16384x1 ![] bcast_S_S16384x1),
    StableHlo.TRef.binary (.of main_v12 : StableHlo.TRef sig ⟨S16384x1, .i32⟩) main_call1.v2 main_call1.v3 addi,
    StableHlo.TRef.ternary main_call1.v1 main_call1.v3 (.of main_v12 : StableHlo.TRef sig ⟨S16384x1, .i32⟩) main_call1.v4 select,
    StableHlo.TRef.reshape main_call1.v4 main_call1.v5 rfl shapeCasts_S16384x1_S16384x1x1,
    StableHlo.TRef.nullary main_call1.c_1 (constantI S1 32 63#32),
    StableHlo.TRef.nullary main_call1.c_2 (constantI S_ 32 0#32),
    StableHlo.TRef.unary main_call1.c_2 main_call1.v6 (broadcastInDim S16384x1x1 ![] bcast_S_S16384x1x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S16384x1x1 ![0, 1, 2] bcast_S1x1x1_S16384x1x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16384x1x1_S16384x1_d2 h_S_),
    StableHlo.TRef.binary (.of main_v11 : StableHlo.TRef sig ⟨S16384x64, .i32⟩) main_call1.v5 main_call1.v13 (fun x i => Host.gather gather_S16384x64_S16384x1x1_S16384x1_n_1_0_0_1_2_11 x i),
    StableHlo.TRef.nullary main_call1.c_4 (constantI S_ 32 2147483648#32),
    StableHlo.TRef.unary main_call1.c_4 main_call1.v14 (broadcastInDim S16384x1 ![] bcast_S_S16384x1),
    StableHlo.TRef.ternary main_call1.v12 main_call1.v13 main_call1.v14 main_call1.v15 select,
    StableHlo.reshape main_v13 main_v14 rfl shapeCasts_S16384x1_S16384,
    StableHlo.nullary main_c (constantI S_ 32 1#32),
    StableHlo.unary main_c main_v15 (broadcastInDim S16384 ![] bcast_S_S16384 : (⟨S_, .i32⟩ : BufTy).Contents (Elt F) → (⟨S16384, .i32⟩ : BufTy).Contents (Elt F)),
    StableHlo.binary main_v14 main_v15 main_v16 (subi : (⟨S16384, .i32⟩ : BufTy).Contents (Elt F) → (⟨S16384, .i32⟩ : BufTy).Contents (Elt F) → (⟨S16384, .i32⟩ : BufTy).Contents (Elt F)),
    StableHlo.nullary main_c_0 (constantI S_ 32 512#32),
    StableHlo.unary main_c_0 main_v17 (broadcastInDim S16384 ![] bcast_S_S16384 : (⟨S_, .i32⟩ : BufTy).Contents (Elt F) → (⟨S16384, .i32⟩ : BufTy).Contents (Elt F)),
    StableHlo.binary main_v16 main_v17 main_v18 (cmpi .slt : (⟨S16384, .i32⟩ : BufTy).Contents (Elt F) → (⟨S16384, .i32⟩ : BufTy).Contents (Elt F) → (⟨S16384, .i1⟩ : BufTy).Contents (Elt F)),
    StableHlo.nullary main_c_1 (constantI S_ 32 512#32),
    StableHlo.TRef.unary (.of main_c_1 : StableHlo.TRef sig ⟨S_, .i32⟩) main_call2.v0 id,
    StableHlo.TRef.unary main_call2.v0 main_call2.v1 (broadcastInDim S16384 ![] bcast_S_S16384),
    StableHlo.TRef.ternary (.of main_v18 : StableHlo.TRef sig ⟨S16384, .i1⟩) (.of main_v16 : StableHlo.TRef sig ⟨S16384, .i32⟩) main_call2.v1 main_call2.v2 select,
    StableHlo.nullary main_c_2 (constantI S_ 32 0#32),
    StableHlo.unary main_c_2 main_v20 (broadcastInDim S16384 ![] bcast_S_S16384 : (⟨S_, .i32⟩ : BufTy).Contents (Elt F) → (⟨S16384, .i32⟩ : BufTy).Contents (Elt F)),
    StableHlo.binary main_v3 main_v20 main_v21 (cmpi .slt : (⟨S16384, .i32⟩ : BufTy).Contents (Elt F) → (⟨S16384, .i32⟩ : BufTy).Contents (Elt F) → (⟨S16384, .i1⟩ : BufTy).Contents (Elt F)),
    StableHlo.nullary main_c_3 (constantI S_ 32 4096#32),
    StableHlo.unary main_c_3 main_v22 (broadcastInDim S16384 ![] bcast_S_S16384 : (⟨S_, .i32⟩ : BufTy).Contents (Elt F) → (⟨S16384, .i32⟩ : BufTy).Contents (Elt F)),
    StableHlo.binary main_v3 main_v22 main_v23 (addi : (⟨S16384, .i32⟩ : BufTy).Contents (Elt F) → (⟨S16384, .i32⟩ : BufTy).Contents (Elt F) → (⟨S16384, .i32⟩ : BufTy).Contents (Elt F)),
    StableHlo.ternary main_v21 main_v23 main_v3 main_v24 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v24 main_v25 (broadcastInDim S16384x1 ![0] bcast_S16384_S16384x1_0 : (⟨S16384, .i32⟩ : BufTy).Contents (Elt F) → (⟨S16384x1, .i32⟩ : BufTy).Contents (Elt F)),
    StableHlo.binary main_arg0 main_v25 main_v26 ((fun x i => Host.gather gather_S4096x1024_S16384x1_S16384x1024_1_0_n_n_0_1_11024 x i) : (⟨S4096x1024, .f32⟩ : BufTy).Contents (Elt F) → (⟨S16384x1, .i32⟩ : BufTy).Contents (Elt F) → (⟨S16384x1024, .f32⟩ : BufTy).Contents (Elt F)),
    StableHlo.nullary main_cst (constant S_ .f32 0x00000000#32),
    StableHlo.unary main_cst main_v27 (broadcastInDim S64x513x1024 ![] bcast_S_S64x513x1024 : (⟨S_, .f32⟩ : BufTy).Contents (Elt F) → (⟨S64x513x1024, .f32⟩ : BufTy).Contents (Elt F)),
    StableHlo.nullary main_c_4 (constantI S_ 32 0#32),
    StableHlo.unary main_c_4 main_v28 (broadcastInDim S16384 ![] bcast_S_S16384 : (⟨S_, .i32⟩ : BufTy).Contents (Elt F) → (⟨S16384, .i32⟩ : BufTy).Contents (Elt F)),
    StableHlo.binary main_v0 main_v28 main_v29 (cmpi .slt : (⟨S16384, .i32⟩ : BufTy).Contents (Elt F) → (⟨S16384, .i32⟩ : BufTy).Contents (Elt F) → (⟨S16384, .i1⟩ : BufTy).Contents (Elt F)),
    StableHlo.nullary main_c_5 (constantI S_ 32 64#32),
    StableHlo.unary main_c_5 main_v30 (broadcastInDim S16384 ![] bcast_S_S16384 : (⟨S_, .i32⟩ : BufTy).Contents (Elt F) → (⟨S16384, .i32⟩ : BufTy).Contents (Elt F)),
    StableHlo.binary main_v0 main_v30 main_v31 (addi : (⟨S16384, .i32⟩ : BufTy).Contents (Elt F) → (⟨S16384, .i32⟩ : BufTy).Contents (Elt F) → (⟨S16384, .i32⟩ : BufTy).Contents (Elt F)),
    StableHlo.ternary main_v29 main_v31 main_v0 main_v32 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_6 (constantI S_ 32 0#32),
    StableHlo.unary main_c_6 main_v33 (broadcastInDim S16384 ![] bcast_S_S16384 : (⟨S_, .i32⟩ : BufTy).Contents (Elt F) → (⟨S16384, .i32⟩ : BufTy).Contents (Elt F)),
    StableHlo.binary main_v19 main_v33 main_v34 (cmpi .slt : (⟨S16384, .i32⟩ : BufTy).Contents (Elt F) → (⟨S16384, .i32⟩ : BufTy).Contents (Elt F) → (⟨S16384, .i1⟩ : BufTy).Contents (Elt F)),
    StableHlo.nullary main_c_7 (constantI S_ 32 513#32),
    StableHlo.unary main_c_7 main_v35 (broadcastInDim S16384 ![] bcast_S_S16384 : (⟨S_, .i32⟩ : BufTy).Contents (Elt F) → (⟨S16384, .i32⟩ : BufTy).Contents (Elt F)),
    StableHlo.binary main_v19 main_v35 main_v36 (addi : (⟨S16384, .i32⟩ : BufTy).Contents (Elt F) → (⟨S16384, .i32⟩ : BufTy).Contents (Elt F) → (⟨S16384, .i32⟩ : BufTy).Contents (Elt F)),
    StableHlo.ternary main_v34 main_v36 main_v19 main_v37 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v32 main_v38 (broadcastInDim S16384x1 ![0] bcast_S16384_S16384x1_0 : (⟨S16384, .i32⟩ : BufTy).Contents (Elt F) → (⟨S16384x1, .i32⟩ : BufTy).Contents (Elt F)),
    StableHlo.unary main_v37 main_v39 (broadcastInDim S16384x1 ![0] bcast_S16384_S16384x1_0 : (⟨S16384, .i32⟩ : BufTy).Contents (Elt F) → (⟨S16384x1, .i32⟩ : BufTy).Contents (Elt F)),
    StableHlo.binary main_v38 main_v39 main_v40 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.ternary main_v27 main_v40 main_v26 main_v41 ((fun x i u => Host.scatter scatter_S64x513x1024_S16384x2_S16384x1024_1_01_01_1 (fun _ b => b) x i u) : (⟨S64x513x1024, .f32⟩ : BufTy).Contents (Elt F) → (⟨S16384x2, .i32⟩ : BufTy).Contents (Elt F) → (⟨S16384x1024, .f32⟩ : BufTy).Contents (Elt F) → (⟨S64x513x1024, .f32⟩ : BufTy).Contents (Elt F)),
    StableHlo.binary main_v41 main_arg3 main_v42 ((fun l r => Host.dotGeneral dot_S64x513x1024_S64x1024x1024_S64x513x1024_2_2_1_1_0_0 none l r) : (⟨S64x513x1024, .f32⟩ : BufTy).Contents (Elt F) → (⟨S64x1024x1024, .f32⟩ : BufTy).Contents (Elt F) → (⟨S64x513x1024, .f32⟩ : BufTy).Contents (Elt F)),
    StableHlo.unary main_v42 main_v43 ((extractStridedSlice S64x513x512 ![0, 0, 0] · slices_S64x513x1024_S64x513x512_0_0_0) : (⟨S64x513x1024, .f32⟩ : BufTy).Contents (Elt F) → (⟨S64x513x512, .f32⟩ : BufTy).Contents (Elt F)),
    StableHlo.unary main_v42 main_v44 ((extractStridedSlice S64x513x512 ![0, 0, 512] · slices_S64x513x1024_S64x513x512_0_0_512) : (⟨S64x513x1024, .f32⟩ : BufTy).Contents (Elt F) → (⟨S64x513x512, .f32⟩ : BufTy).Contents (Elt F)),
    StableHlo.TRef.unary (.of main_v43 : StableHlo.TRef sig ⟨S64x513x512, .f32⟩) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S64x513x512 ![] bcast_S_S64x513x512),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S64x513x512 ![] bcast_S_S64x513x512),
    StableHlo.TRef.binary main_call3.v4 main_call3.v3 main_call3.v5 Host.divf,
    StableHlo.TRef.binary (.of main_v43 : StableHlo.TRef sig ⟨S64x513x512, .f32⟩) main_call3.v5 main_call3.v6 mulf,
    StableHlo.binary main_v45 main_v44 main_v46 (mulf : (⟨S64x513x512, .f32⟩ : BufTy).Contents (Elt F) → (⟨S64x513x512, .f32⟩ : BufTy).Contents (Elt F) → (⟨S64x513x512, .f32⟩ : BufTy).Contents (Elt F)),
    StableHlo.binary main_v46 main_arg4 main_v47 ((fun l r => Host.dotGeneral dot_S64x513x512_S64x1024x512_S64x513x1024_2_2_1_1_0_0 none l r) : (⟨S64x513x512, .f32⟩ : BufTy).Contents (Elt F) → (⟨S64x1024x512, .f32⟩ : BufTy).Contents (Elt F) → (⟨S64x513x1024, .f32⟩ : BufTy).Contents (Elt F)),
    StableHlo.reshape main_arg2 main_v48 rfl shapeCasts_S4096x4_S16384,
    StableHlo.unary main_v18 main_v49 (uitofp .f32 : (⟨S16384, .i1⟩ : BufTy).Contents (Elt F) → (⟨S16384, .f32⟩ : BufTy).Contents (Elt F)),
    StableHlo.binary main_v48 main_v49 main_v50 (mulf : (⟨S16384, .f32⟩ : BufTy).Contents (Elt F) → (⟨S16384, .f32⟩ : BufTy).Contents (Elt F) → (⟨S16384, .f32⟩ : BufTy).Contents (Elt F)),
    StableHlo.nullary main_c_8 (constantI S_ 32 0#32),
    StableHlo.unary main_c_8 main_v51 (broadcastInDim S16384 ![] bcast_S_S16384 : (⟨S_, .i32⟩ : BufTy).Contents (Elt F) → (⟨S16384, .i32⟩ : BufTy).Contents (Elt F)),
    StableHlo.binary main_v0 main_v51 main_v52 (cmpi .slt : (⟨S16384, .i32⟩ : BufTy).Contents (Elt F) → (⟨S16384, .i32⟩ : BufTy).Contents (Elt F) → (⟨S16384, .i1⟩ : BufTy).Contents (Elt F)),
    StableHlo.nullary main_c_9 (constantI S_ 32 64#32),
    StableHlo.unary main_c_9 main_v53 (broadcastInDim S16384 ![] bcast_S_S16384 : (⟨S_, .i32⟩ : BufTy).Contents (Elt F) → (⟨S16384, .i32⟩ : BufTy).Contents (Elt F)),
    StableHlo.binary main_v0 main_v53 main_v54 (addi : (⟨S16384, .i32⟩ : BufTy).Contents (Elt F) → (⟨S16384, .i32⟩ : BufTy).Contents (Elt F) → (⟨S16384, .i32⟩ : BufTy).Contents (Elt F)),
    StableHlo.ternary main_v52 main_v54 main_v0 main_v55 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_10 (constantI S_ 32 0#32),
    StableHlo.unary main_c_10 main_v56 (broadcastInDim S16384 ![] bcast_S_S16384 : (⟨S_, .i32⟩ : BufTy).Contents (Elt F) → (⟨S16384, .i32⟩ : BufTy).Contents (Elt F)),
    StableHlo.binary main_v19 main_v56 main_v57 (cmpi .slt : (⟨S16384, .i32⟩ : BufTy).Contents (Elt F) → (⟨S16384, .i32⟩ : BufTy).Contents (Elt F) → (⟨S16384, .i1⟩ : BufTy).Contents (Elt F)),
    StableHlo.nullary main_c_11 (constantI S_ 32 513#32),
    StableHlo.unary main_c_11 main_v58 (broadcastInDim S16384 ![] bcast_S_S16384 : (⟨S_, .i32⟩ : BufTy).Contents (Elt F) → (⟨S16384, .i32⟩ : BufTy).Contents (Elt F)),
    StableHlo.binary main_v19 main_v58 main_v59 (addi : (⟨S16384, .i32⟩ : BufTy).Contents (Elt F) → (⟨S16384, .i32⟩ : BufTy).Contents (Elt F) → (⟨S16384, .i32⟩ : BufTy).Contents (Elt F)),
    StableHlo.ternary main_v57 main_v59 main_v19 main_v60 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v55 main_v61 (broadcastInDim S16384x1 ![0] bcast_S16384_S16384x1_0 : (⟨S16384, .i32⟩ : BufTy).Contents (Elt F) → (⟨S16384x1, .i32⟩ : BufTy).Contents (Elt F)),
    StableHlo.unary main_v60 main_v62 (broadcastInDim S16384x1 ![0] bcast_S16384_S16384x1_0 : (⟨S16384, .i32⟩ : BufTy).Contents (Elt F) → (⟨S16384x1, .i32⟩ : BufTy).Contents (Elt F)),
    StableHlo.binary main_v61 main_v62 main_v63 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.binary main_v47 main_v63 main_v64 ((fun x i => Host.gather gather_S64x513x1024_S16384x2_S16384x1024_1_01_n_n_01_1_111024 x i) : (⟨S64x513x1024, .f32⟩ : BufTy).Contents (Elt F) → (⟨S16384x2, .i32⟩ : BufTy).Contents (Elt F) → (⟨S16384x1024, .f32⟩ : BufTy).Contents (Elt F)),
    StableHlo.unary main_v50 main_v65 (broadcastInDim S16384x1 ![0] bcast_S16384_S16384x1_0 : (⟨S16384, .f32⟩ : BufTy).Contents (Elt F) → (⟨S16384x1, .f32⟩ : BufTy).Contents (Elt F)),
    StableHlo.unary main_v65 main_v66 (broadcastInDim S16384x1024 ![0, 1] bcast_S16384x1_S16384x1024_0_1 : (⟨S16384x1, .f32⟩ : BufTy).Contents (Elt F) → (⟨S16384x1024, .f32⟩ : BufTy).Contents (Elt F)),
    StableHlo.binary main_v64 main_v66 main_v67 (mulf : (⟨S16384x1024, .f32⟩ : BufTy).Contents (Elt F) → (⟨S16384x1024, .f32⟩ : BufTy).Contents (Elt F) → (⟨S16384x1024, .f32⟩ : BufTy).Contents (Elt F)),
    StableHlo.nullary main_cst_12 (constant S_ .f32 0x00000000#32),
    StableHlo.unary main_cst_12 main_v68 (broadcastInDim S4096x1024 ![] bcast_S_S4096x1024 : (⟨S_, .f32⟩ : BufTy).Contents (Elt F) → (⟨S4096x1024, .f32⟩ : BufTy).Contents (Elt F)),
    StableHlo.nullary main_c_13 (constantI S_ 32 0#32),
    StableHlo.unary main_c_13 main_v69 (broadcastInDim S16384 ![] bcast_S_S16384 : (⟨S_, .i32⟩ : BufTy).Contents (Elt F) → (⟨S16384, .i32⟩ : BufTy).Contents (Elt F)),
    StableHlo.binary main_v3 main_v69 main_v70 (cmpi .slt : (⟨S16384, .i32⟩ : BufTy).Contents (Elt F) → (⟨S16384, .i32⟩ : BufTy).Contents (Elt F) → (⟨S16384, .i1⟩ : BufTy).Contents (Elt F)),
    StableHlo.nullary main_c_14 (constantI S_ 32 4096#32),
    StableHlo.unary main_c_14 main_v71 (broadcastInDim S16384 ![] bcast_S_S16384 : (⟨S_, .i32⟩ : BufTy).Contents (Elt F) → (⟨S16384, .i32⟩ : BufTy).Contents (Elt F)),
    StableHlo.binary main_v3 main_v71 main_v72 (addi : (⟨S16384, .i32⟩ : BufTy).Contents (Elt F) → (⟨S16384, .i32⟩ : BufTy).Contents (Elt F) → (⟨S16384, .i32⟩ : BufTy).Contents (Elt F)),
    StableHlo.ternary main_v70 main_v72 main_v3 main_v73 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v73 main_v74 (broadcastInDim S16384x1 ![0] bcast_S16384_S16384x1_0 : (⟨S16384, .i32⟩ : BufTy).Contents (Elt F) → (⟨S16384x1, .i32⟩ : BufTy).Contents (Elt F)),
    StableHlo.ternary main_v68 main_v74 main_v67 main_v75 ((fun x i u => Host.scatterAdd scatter_S4096x1024_S16384x1_S16384x1024_1_0_0_1 x i u) : (⟨S4096x1024, .f32⟩ : BufTy).Contents (Elt F) → (⟨S16384x1, .i32⟩ : BufTy).Contents (Elt F) → (⟨S16384x1024, .f32⟩ : BufTy).Contents (Elt F) → (⟨S4096x1024, .f32⟩ : BufTy).Contents (Elt F)) ]

set_option maxRecDepth 16384 in
set_option maxHeartbeats 4000000 in
/-- `@main` is that straight line: the two windows and the functions' bodies unfolded at their calls, the records at
    their fields, both sides are one chain of steps once sequencing is reassociated. -/
theorem main_eq (c : Dev nD) : main (F := F) c = seq ops := by
  simp only [main, main_part0, main_part1, fn_cumsum.body, fn_cumsum_0.body, fn_take_along_axis.body, fn_where.body,
    fn_silu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops_sub : (ops : List (HloOp τ sig (Elt F))).Forall fun op => op.bufs ⊆ tcRefs τ sig :=
  ⟨reshape_bufs_sub .., nullary_bufs_sub .., unary_bufs_sub .., reshape_bufs_sub .., unary_bufs_sub .., nullary_bufs_sub ..,
    unary_bufs_sub .., unary_bufs_sub .., unary_bufs_sub .., binary_bufs_sub .., unary_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., ternary_bufs_sub .., reshape_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., nullary_bufs_sub .., unary_bufs_sub ..,
    ternary_bufs_sub .., reshape_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., ternary_bufs_sub .., binary_bufs_sub ..,
    unary_bufs_sub .., unary_bufs_sub .., unary_bufs_sub .., unary_bufs_sub .., nullary_bufs_sub .., unary_bufs_sub ..,
    binary_bufs_sub .., nullary_bufs_sub .., unary_bufs_sub .., binary_bufs_sub .., binary_bufs_sub .., binary_bufs_sub ..,
    binary_bufs_sub .., reshape_bufs_sub .., unary_bufs_sub .., binary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub .., unary_bufs_sub .., unary_bufs_sub ..,
    binary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., ternary_bufs_sub ..⟩

/-- At the compiled mesh, for any float values, from any memory with zero counters: every weakly fair execution of
    `@main` on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
import proofs.«174603_j78443282694942_2_alg».proof.Proof.RefRun

/-!
  The reference's result as a term of the argument contents, by named stages. Each stage is the composition of the
  printed operations that compute one buffer, over the buffers it reads: the same operation constants, shape records
  and side-condition proofs as the program's lines, in the program's order. `res_eq` reads the fold of `ops` at the
  result buffer as `outR` of the five arguments' contents; `argK_eq` that no operation writes an argument; `run` is the
  program's run stated with them.
-/

noncomputable section

namespace Cert.ReferenceIdeal.RefTerm

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! ## The stages -/

/-- The expert table flattened: the [4096,4] table read row-major as 16384 entries. -/
noncomputable def flatE (a1 : (⟨S4096x4, .i32⟩ : BufTy).Contents (Elt F)) :
    (⟨S16384, .i32⟩ : BufTy).Contents (Elt F) :=
  shapeCast S16384 a1 shapeCasts_S4096x4_S16384

/-- Each flat entry's token row: the row counter 0…4095 repeated four times, flattened, with a negative value wrapped by 4096 (none is). -/
noncomputable def tokV :
    (⟨S16384, .i32⟩ : BufTy).Contents (Elt F) :=
  select (cmpi .slt (shapeCast S16384 (broadcastInDim S4096x4 ![0] bcast_S4096_S4096x4_0 (iotaInDim S4096 32 0)) shapeCasts_S4096x4_S16384) (broadcastInDim S16384 ![] bcast_S_S16384 (constantI S_ 32 0#32))) (addi (shapeCast S16384 (broadcastInDim S4096x4 ![0] bcast_S4096_S4096x4_0 (iotaInDim S4096 32 0)) shapeCasts_S4096x4_S16384) (broadcastInDim S16384 ![] bcast_S_S16384 (constantI S_ 32 4096#32))) (shapeCast S16384 (broadcastInDim S4096x4 ![0] bcast_S4096_S4096x4_0 (iotaInDim S4096 32 0)) shapeCasts_S4096x4_S16384)

/-- The one-hot of the flat expert table against the 64 expert numbers, widened to 32 bits. -/
noncomputable def onehot (a1 : (⟨S4096x4, .i32⟩ : BufTy).Contents (Elt F)) :
    (⟨S16384x64, .i32⟩ : BufTy).Contents (Elt F) :=
  extui 32 (cmpi .eq (broadcastInDim S16384x64 ![0, 1] bcast_S16384x1_S16384x64_0_1 (broadcastInDim S16384x1 ![0] bcast_S16384_S16384x1_0 (flatE a1))) (broadcastInDim S16384x64 ![0, 1] bcast_S1x64_S16384x64_0_1 (broadcastInDim S1x64 ![1] bcast_S64_S1x64_1 (iotaInDim S64 32 0)))) natLt_1_32

/-- The running count down the 16384 entries of each expert's one-hot column: a windowed sum of window 16384 padded 16383 above. -/
noncomputable def csum (a1 : (⟨S4096x4, .i32⟩ : BufTy).Contents (Elt F)) :
    (⟨S16384x64, .i32⟩ : BufTy).Contents (Elt F) :=
  Host.reduceWindow IntOp.addi ![16384, 1] ![1, 1] ![16383, 0] ![0, 0] (onehot a1) (broadcastInDim S_ ![] bcast_S_S_ (constantI S_ 32 0#32)) reduceWindows_S16384x64_S16384x64_w16384s1p16383_0_w1s1p0_0 h_S_

/-- The column index of the take-along-axis: the flat expert number as a [16384,1] column, a negative one wrapped by 64, reshaped to [16384,1,1]. -/
noncomputable def takeIdx (a1 : (⟨S4096x4, .i32⟩ : BufTy).Contents (Elt F)) :
    (⟨S16384x1x1, .i32⟩ : BufTy).Contents (Elt F) :=
  shapeCast S16384x1x1 (select (cmpi .slt (broadcastInDim S16384x1 ![0] bcast_S16384_S16384x1_0 (flatE a1)) (broadcastInDim S16384x1 ![] bcast_S_S16384x1 (constantI S_ 32 0#32))) (addi (broadcastInDim S16384x1 ![0] bcast_S16384_S16384x1_0 (flatE a1)) (broadcastInDim S16384x1 ![] bcast_S_S16384x1 (constantI S_ 32 64#32))) (broadcastInDim S16384x1 ![0] bcast_S16384_S16384x1_0 (flatE a1))) shapeCasts_S16384x1_S16384x1x1

/-- The take-along-axis: each entry's running count at its own expert, where the index is within 0…63 (elsewhere the least 32-bit value). -/
noncomputable def takeV (a1 : (⟨S4096x4, .i32⟩ : BufTy).Contents (Elt F)) :
    (⟨S16384x1, .i32⟩ : BufTy).Contents (Elt F) :=
  select (Host.reduce IntOp.andi (andi (cmpi .sge (takeIdx a1) (broadcastInDim S16384x1x1 ![] bcast_S_S16384x1x1 (constantI S_ 32 0#32))) (cmpi .sle (takeIdx a1) (broadcastInDim S16384x1x1 ![0, 1, 2] bcast_S1x1x1_S16384x1x1_0_1_2 (broadcastInDim S1x1x1 ![2] bcast_S1_S1x1x1_2 (constantI S1 32 63#32))))) (constantI S_ 1 1#1) reducesTo_S16384x1x1_S16384x1_d2 h_S_) (Host.gather gather_S16384x64_S16384x1x1_S16384x1_n_1_0_0_1_2_11 (csum a1) (takeIdx a1)) (broadcastInDim S16384x1 ![] bcast_S_S16384x1 (constantI S_ 32 2147483648#32))

/-- Each entry's position within its expert: its running count at its own expert, less one. -/
noncomputable def posV (a1 : (⟨S4096x4, .i32⟩ : BufTy).Contents (Elt F)) :
    (⟨S16384, .i32⟩ : BufTy).Contents (Elt F) :=
  subi (shapeCast S16384 (takeV a1) shapeCasts_S16384x1_S16384) (broadcastInDim S16384 ![] bcast_S_S16384 (constantI S_ 32 1#32))

/-- Whether the position is below the capacity 512. -/
noncomputable def validV (a1 : (⟨S4096x4, .i32⟩ : BufTy).Contents (Elt F)) :
    (⟨S16384, .i1⟩ : BufTy).Contents (Elt F) :=
  cmpi .slt (posV a1) (broadcastInDim S16384 ![] bcast_S_S16384 (constantI S_ 32 512#32))

/-- The slot: the position where valid, else 512. -/
noncomputable def slotV (a1 : (⟨S4096x4, .i32⟩ : BufTy).Contents (Elt F)) :
    (⟨S16384, .i32⟩ : BufTy).Contents (Elt F) :=
  select (validV a1) (posV a1) (broadcastInDim S16384 ![] bcast_S_S16384 (id (constantI S_ 32 512#32)))

/-- The [16384,2] index table: the expert number (a negative one wrapped by 64) beside the slot (a negative one wrapped by 513). -/
noncomputable def scatIdx (a1 : (⟨S4096x4, .i32⟩ : BufTy).Contents (Elt F)) :
    (⟨S16384x2, .i32⟩ : BufTy).Contents (Elt F) :=
  concatenate S16384x2 1 [⟨S16384x1, (broadcastInDim S16384x1 ![0] bcast_S16384_S16384x1_0 (select (cmpi .slt (flatE a1) (broadcastInDim S16384 ![] bcast_S_S16384 (constantI S_ 32 0#32))) (addi (flatE a1) (broadcastInDim S16384 ![] bcast_S_S16384 (constantI S_ 32 64#32))) (flatE a1)))⟩, ⟨S16384x1, (broadcastInDim S16384x1 ![0] bcast_S16384_S16384x1_0 (select (cmpi .slt (slotV a1) (broadcastInDim S16384 ![] bcast_S_S16384 (constantI S_ 32 0#32))) (addi (slotV a1) (broadcastInDim S16384 ![] bcast_S_S16384 (constantI S_ 32 513#32))) (slotV a1)))⟩] concatenates_S16384x1_S16384x1_S16384x2_d1

/-- Each entry's token row of the activations: the gather of the rows at the token numbers. -/
noncomputable def xpair (a0 : (⟨S4096x1024, .f32⟩ : BufTy).Contents (Elt F)) :
    (⟨S16384x1024, .f32⟩ : BufTy).Contents (Elt F) :=
  Host.gather gather_S4096x1024_S16384x1_S16384x1024_1_0_n_n_0_1_11024 a0 (broadcastInDim S16384x1 ![0] bcast_S16384_S16384x1_0 (tokV (F := F)))

/-- The dispatch buffer: zeros of [64,513,1024] with each entry's token row written at its (expert, slot). -/
noncomputable def bufR (a0 : (⟨S4096x1024, .f32⟩ : BufTy).Contents (Elt F)) (a1 : (⟨S4096x4, .i32⟩ : BufTy).Contents (Elt F)) :
    (⟨S64x513x1024, .f32⟩ : BufTy).Contents (Elt F) :=
  Host.scatter scatter_S64x513x1024_S16384x2_S16384x1024_1_01_01_1 (fun _ b => b) (broadcastInDim S64x513x1024 ![] bcast_S_S64x513x1024 (constant S_ .f32 0x00000000#32)) (scatIdx a1) (xpair a0)

/-- The first contraction: the dispatch buffer against each expert's [1024,1024] weights, over the last axis of both. -/
noncomputable def guR (buf : (⟨S64x513x1024, .f32⟩ : BufTy).Contents (Elt F)) (a3 : (⟨S64x1024x1024, .f32⟩ : BufTy).Contents (Elt F)) :
    (⟨S64x513x1024, .f32⟩ : BufTy).Contents (Elt F) :=
  Host.dotGeneral dot_S64x513x1024_S64x1024x1024_S64x513x1024_2_2_1_1_0_0 none buf a3

/-- The gated hidden: silu of the low half of the columns times the high half. -/
noncomputable def hidR (buf : (⟨S64x513x1024, .f32⟩ : BufTy).Contents (Elt F)) (a3 : (⟨S64x1024x1024, .f32⟩ : BufTy).Contents (Elt F)) :
    (⟨S64x513x512, .f32⟩ : BufTy).Contents (Elt F) :=
  mulf (mulf (extractStridedSlice S64x513x512 ![0, 0, 0] (guR buf a3) slices_S64x513x1024_S64x513x512_0_0_0) (Host.divf (broadcastInDim S64x513x512 ![] bcast_S_S64x513x512 (constant S_ .f32 0x3F800000#32)) (addf (broadcastInDim S64x513x512 ![] bcast_S_S64x513x512 (constant S_ .f32 0x3F800000#32)) (Host.exp (Host.negf (extractStridedSlice S64x513x512 ![0, 0, 0] (guR buf a3) slices_S64x513x1024_S64x513x512_0_0_0)))))) (extractStridedSlice S64x513x512 ![0, 0, 512] (guR buf a3) slices_S64x513x1024_S64x513x512_0_0_512)

/-- The second contraction: the hidden against each expert's [1024,512] weights, over the last axis of both. -/
noncomputable def yR (buf : (⟨S64x513x1024, .f32⟩ : BufTy).Contents (Elt F)) (a3 : (⟨S64x1024x1024, .f32⟩ : BufTy).Contents (Elt F)) (a4 : (⟨S64x1024x512, .f32⟩ : BufTy).Contents (Elt F)) :
    (⟨S64x513x1024, .f32⟩ : BufTy).Contents (Elt F) :=
  Host.dotGeneral dot_S64x513x512_S64x1024x512_S64x513x1024_2_2_1_1_0_0 none (hidR buf a3) a4

/-- Each entry's weight, zeroed where the entry was dropped. -/
noncomputable def coefR (a1 : (⟨S4096x4, .i32⟩ : BufTy).Contents (Elt F)) (a2 : (⟨S4096x4, .f32⟩ : BufTy).Contents (Elt F)) :
    (⟨S16384, .f32⟩ : BufTy).Contents (Elt F) :=
  mulf (shapeCast S16384 a2 shapeCasts_S4096x4_S16384) (uitofp .f32 (validV a1))

/-- The combine updates: each entry's expert output row gathered at its (expert, slot), times its weight. -/
noncomputable def updR (y : (⟨S64x513x1024, .f32⟩ : BufTy).Contents (Elt F)) (a1 : (⟨S4096x4, .i32⟩ : BufTy).Contents (Elt F)) (a2 : (⟨S4096x4, .f32⟩ : BufTy).Contents (Elt F)) :
    (⟨S16384x1024, .f32⟩ : BufTy).Contents (Elt F) :=
  mulf (Host.gather gather_S64x513x1024_S16384x2_S16384x1024_1_01_n_n_01_1_111024 y (scatIdx a1)) (broadcastInDim S16384x1024 ![0, 1] bcast_S16384x1_S16384x1024_0_1 (broadcastInDim S16384x1 ![0] bcast_S16384_S16384x1_0 (coefR a1 a2)))

/-- The result: zeros of [4096,1024] with every entry's update added at its token row. -/
noncomputable def outR (a0 : (⟨S4096x1024, .f32⟩ : BufTy).Contents (Elt F)) (a1 : (⟨S4096x4, .i32⟩ : BufTy).Contents (Elt F)) (a2 : (⟨S4096x4, .f32⟩ : BufTy).Contents (Elt F)) (a3 : (⟨S64x1024x1024, .f32⟩ : BufTy).Contents (Elt F)) (a4 : (⟨S64x1024x512, .f32⟩ : BufTy).Contents (Elt F)) :
    (⟨S4096x1024, .f32⟩ : BufTy).Contents (Elt F) :=
  Host.scatterAdd scatter_S4096x1024_S16384x1_S16384x1024_1_0_0_1 (broadcastInDim S4096x1024 ![] bcast_S_S4096x1024 (constant S_ .f32 0x00000000#32)) (broadcastInDim S16384x1 ![0] bcast_S16384_S16384x1_0 (tokV (F := F))) (updR (yR (bufR a0 a1) a3 a4) a1 a2)

/-! ## The fold, window by window

The 126 operations are read in 22 consecutive windows, cut where a stage's buffer is complete (a concatenation
alone in its window). `valK V` is the contents after the first K windows from contents `V`; for every buffer written
by then and read later, `valK_‹buffer›` states its contents as the stages' term of the arguments' contents: a buffer
the window writes by unfolding the window's operations at it and rewriting the buffers it reads by the previous
window's lemmas, any other by the window's frame (`valK_keep`: a reference outside the window's written list keeps
its contents). -/

-- while the windows are read, a stage is opened only where its own buffer is written (`unfold`), and the folds and
-- searches inside the gathers, scatters, reductions and contractions are never opened: the equations are between the
-- same operations applied to the same operands
attribute [local irreducible] flatE tokV onehot csum takeIdx takeV posV validV slotV scatIdx xpair bufR guR hidR yR coefR updR outR
attribute [local irreducible] Host.reduce Host.gather Host.scatter Host.reduceWindow Host.scatterAdd concatenate

/-- The fold over a concatenation is the folds in turn. -/
theorem after_append' : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_append' l₁ l₂]

/-- Operations 1 … 4 of the 126. -/
abbrev ops1 : List (HloOp τ sig (Elt F)) :=
  [ StableHlo.reshape main_arg1 main_v0 rfl shapeCasts_S4096x4_S16384,
    StableHlo.nullary main_v1 (iotaInDim S4096 32 0),
    StableHlo.unary main_v1 main_v2 (broadcastInDim S4096x4 ![0] bcast_S4096_S4096x4_0 : (⟨S4096, .i32⟩ : BufTy).Contents (Elt F) → (⟨S4096x4, .i32⟩ : BufTy).Contents (Elt F)),
    StableHlo.reshape main_v2 main_v3 rfl shapeCasts_S4096x4_S16384 ]

/-- Operations 5 … 11 of the 126. -/
abbrev ops2 : List (HloOp τ sig (Elt F)) :=
  [ StableHlo.unary main_v0 main_v4 (broadcastInDim S16384x1 ![0] bcast_S16384_S16384x1_0 : (⟨S16384, .i32⟩ : BufTy).Contents (Elt F) → (⟨S16384x1, .i32⟩ : BufTy).Contents (Elt F)),
    StableHlo.nullary main_v5 (iotaInDim S64 32 0),
    StableHlo.unary main_v5 main_v6 (broadcastInDim S1x64 ![1] bcast_S64_S1x64_1 : (⟨S64, .i32⟩ : BufTy).Contents (Elt F) → (⟨S1x64, .i32⟩ : BufTy).Contents (Elt F)),
    StableHlo.unary main_v4 main_v7 (broadcastInDim S16384x64 ![0, 1] bcast_S16384x1_S16384x64_0_1 : (⟨S16384x1, .i32⟩ : BufTy).Contents (Elt F) → (⟨S16384x64, .i32⟩ : BufTy).Contents (Elt F)),
    StableHlo.unary main_v6 main_v8 (broadcastInDim S16384x64 ![0, 1] bcast_S1x64_S16384x64_0_1 : (⟨S1x64, .i32⟩ : BufTy).Contents (Elt F) → (⟨S16384x64, .i32⟩ : BufTy).Contents (Elt F)),
    StableHlo.binary main_v7 main_v8 main_v9 (cmpi .eq : (⟨S16384x64, .i32⟩ : BufTy).Contents (Elt F) → (⟨S16384x64, .i32⟩ : BufTy).Contents (Elt F) → (⟨S16384x64, .i1⟩ : BufTy).Contents (Elt F)),
    StableHlo.unary main_v9 main_v10 ((extui 32 · natLt_1_32) : (⟨S16384x64, .i1⟩ : BufTy).Contents (Elt F) → (⟨S16384x64, .i32⟩ : BufTy).Contents (Elt F)) ]

/-- Operations 12 … 14 of the 126. -/
abbrev ops3 : List (HloOp τ sig (Elt F)) :=
  [ StableHlo.TRef.nullary main_call0.call0.c (constantI S_ 32 0#32),
    StableHlo.TRef.unary main_call0.call0.c main_call0.call0.v0 (broadcastInDim S_ ![] bcast_S_S_),
    StableHlo.TRef.binary (.of main_v10 : StableHlo.TRef sig ⟨S16384x64, .i32⟩) main_call0.call0.v0 main_call0.call0.v1 (fun x v => Host.reduceWindow IntOp.addi ![16384, 1] ![1, 1] ![16383, 0] ![0, 0] x v reduceWindows_S16384x64_S16384x64_w16384s1p16383_0_w1s1p0_0 h_S_) ]

/-- Operations 15 … 23 of the 126. -/
abbrev ops4 : List (HloOp τ sig (Elt F)) :=
  [ StableHlo.unary main_v0 main_v12 (broadcastInDim S16384x1 ![0] bcast_S16384_S16384x1_0 : (⟨S16384, .i32⟩ : BufTy).Contents (Elt F) → (⟨S16384x1, .i32⟩ : BufTy).Contents (Elt F)),
    StableHlo.TRef.nullary main_call1.c (constantI S_ 32 0#32),
    StableHlo.TRef.unary main_call1.c main_call1.v0 (broadcastInDim S16384x1 ![] bcast_S_S16384x1),
    StableHlo.TRef.binary (.of main_v12 : StableHlo.TRef sig ⟨S16384x1, .i32⟩) main_call1.v0 main_call1.v1 (cmpi .slt),
    StableHlo.TRef.nullary main_call1.c_0 (constantI S_ 32 64#32),
    StableHlo.TRef.unary main_call1.c_0 main_call1.v2 (broadcastInDim S16384x1 ![] bcast_S_S16384x1),
    StableHlo.TRef.binary (.of main_v12 : StableHlo.TRef sig ⟨S16384x1, .i32⟩) main_call1.v2 main_call1.v3 addi,
    StableHlo.TRef.ternary main_call1.v1 main_call1.v3 (.of main_v12 : StableHlo.TRef sig ⟨S16384x1, .i32⟩) main_call1.v4 select,
    StableHlo.TRef.reshape main_call1.v4 main_call1.v5 rfl shapeCasts_S16384x1_S16384x1x1 ]

/-- Operations 24 … 37 of the 126. -/
abbrev ops5 : List (HloOp τ sig (Elt F)) :=
  [ StableHlo.TRef.nullary main_call1.c_1 (constantI S1 32 63#32),
    StableHlo.TRef.nullary main_call1.c_2 (constantI S_ 32 0#32),
    StableHlo.TRef.unary main_call1.c_2 main_call1.v6 (broadcastInDim S16384x1x1 ![] bcast_S_S16384x1x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S16384x1x1 ![0, 1, 2] bcast_S1x1x1_S16384x1x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16384x1x1_S16384x1_d2 h_S_),
    StableHlo.TRef.binary (.of main_v11 : StableHlo.TRef sig ⟨S16384x64, .i32⟩) main_call1.v5 main_call1.v13 (fun x i => Host.gather gather_S16384x64_S16384x1x1_S16384x1_n_1_0_0_1_2_11 x i),
    StableHlo.TRef.nullary main_call1.c_4 (constantI S_ 32 2147483648#32),
    StableHlo.TRef.unary main_call1.c_4 main_call1.v14 (broadcastInDim S16384x1 ![] bcast_S_S16384x1),
    StableHlo.TRef.ternary main_call1.v12 main_call1.v13 main_call1.v14 main_call1.v15 select ]

/-- Operations 38 … 41 of the 126. -/
abbrev ops6 : List (HloOp τ sig (Elt F)) :=
  [ StableHlo.reshape main_v13 main_v14 rfl shapeCasts_S16384x1_S16384,
    StableHlo.nullary main_c (constantI S_ 32 1#32),
    StableHlo.unary main_c main_v15 (broadcastInDim S16384 ![] bcast_S_S16384 : (⟨S_, .i32⟩ : BufTy).Contents (Elt F) → (⟨S16384, .i32⟩ : BufTy).Contents (Elt F)),
    StableHlo.binary main_v14 main_v15 main_v16 (subi : (⟨S16384, .i32⟩ : BufTy).Contents (Elt F) → (⟨S16384, .i32⟩ : BufTy).Contents (Elt F) → (⟨S16384, .i32⟩ : BufTy).Contents (Elt F)) ]

/-- Operations 42 … 44 of the 126. -/
abbrev ops7 : List (HloOp τ sig (Elt F)) :=
  [ StableHlo.nullary main_c_0 (constantI S_ 32 512#32),
    StableHlo.unary main_c_0 main_v17 (broadcastInDim S16384 ![] bcast_S_S16384 : (⟨S_, .i32⟩ : BufTy).Contents (Elt F) → (⟨S16384, .i32⟩ : BufTy).Contents (Elt F)),
    StableHlo.binary main_v16 main_v17 main_v18 (cmpi .slt : (⟨S16384, .i32⟩ : BufTy).Contents (Elt F) → (⟨S16384, .i32⟩ : BufTy).Contents (Elt F) → (⟨S16384, .i1⟩ : BufTy).Contents (Elt F)) ]

/-- Operations 45 … 48 of the 126. -/
abbrev ops8 : List (HloOp τ sig (Elt F)) :=
  [ StableHlo.nullary main_c_1 (constantI S_ 32 512#32),
    StableHlo.TRef.unary (.of main_c_1 : StableHlo.TRef sig ⟨S_, .i32⟩) main_call2.v0 id,
    StableHlo.TRef.unary main_call2.v0 main_call2.v1 (broadcastInDim S16384 ![] bcast_S_S16384),
    StableHlo.TRef.ternary (.of main_v18 : StableHlo.TRef sig ⟨S16384, .i1⟩) (.of main_v16 : StableHlo.TRef sig ⟨S16384, .i32⟩) main_call2.v1 main_call2.v2 select ]

/-- Operations 49 … 55 of the 126. -/
abbrev ops9 : List (HloOp τ sig (Elt F)) :=
  [ StableHlo.nullary main_c_2 (constantI S_ 32 0#32),
    StableHlo.unary main_c_2 main_v20 (broadcastInDim S16384 ![] bcast_S_S16384 : (⟨S_, .i32⟩ : BufTy).Contents (Elt F) → (⟨S16384, .i32⟩ : BufTy).Contents (Elt F)),
    StableHlo.binary main_v3 main_v20 main_v21 (cmpi .slt : (⟨S16384, .i32⟩ : BufTy).Contents (Elt F) → (⟨S16384, .i32⟩ : BufTy).Contents (Elt F) → (⟨S16384, .i1⟩ : BufTy).Contents (Elt F)),
    StableHlo.nullary main_c_3 (constantI S_ 32 4096#32),
    StableHlo.unary main_c_3 main_v22 (broadcastInDim S16384 ![] bcast_S_S16384 : (⟨S_, .i32⟩ : BufTy).Contents (Elt F) → (⟨S16384, .i32⟩ : BufTy).Contents (Elt F)),
    StableHlo.binary main_v3 main_v22 main_v23 (addi : (⟨S16384, .i32⟩ : BufTy).Contents (Elt F) → (⟨S16384, .i32⟩ : BufTy).Contents (Elt F) → (⟨S16384, .i32⟩ : BufTy).Contents (Elt F)),
    StableHlo.ternary main_v21 main_v23 main_v3 main_v24 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) ]

/-- Operations 56 … 57 of the 126. -/
abbrev ops10 : List (HloOp τ sig (Elt F)) :=
  [ StableHlo.unary main_v24 main_v25 (broadcastInDim S16384x1 ![0] bcast_S16384_S16384x1_0 : (⟨S16384, .i32⟩ : BufTy).Contents (Elt F) → (⟨S16384x1, .i32⟩ : BufTy).Contents (Elt F)),
    StableHlo.binary main_arg0 main_v25 main_v26 ((fun x i => Host.gather gather_S4096x1024_S16384x1_S16384x1024_1_0_n_n_0_1_11024 x i) : (⟨S4096x1024, .f32⟩ : BufTy).Contents (Elt F) → (⟨S16384x1, .i32⟩ : BufTy).Contents (Elt F) → (⟨S16384x1024, .f32⟩ : BufTy).Contents (Elt F)) ]

/-- Operations 58 … 75 of the 126. -/
abbrev ops11 : List (HloOp τ sig (Elt F)) :=
  [ StableHlo.nullary main_cst (constant S_ .f32 0x00000000#32),
    StableHlo.unary main_cst main_v27 (broadcastInDim S64x513x1024 ![] bcast_S_S64x513x1024 : (⟨S_, .f32⟩ : BufTy).Contents (Elt F) → (⟨S64x513x1024, .f32⟩ : BufTy).Contents (Elt F)),
    StableHlo.nullary main_c_4 (constantI S_ 32 0#32),
    StableHlo.unary main_c_4 main_v28 (broadcastInDim S16384 ![] bcast_S_S16384 : (⟨S_, .i32⟩ : BufTy).Contents (Elt F) → (⟨S16384, .i32⟩ : BufTy).Contents (Elt F)),
    StableHlo.binary main_v0 main_v28 main_v29 (cmpi .slt : (⟨S16384, .i32⟩ : BufTy).Contents (Elt F) → (⟨S16384, .i32⟩ : BufTy).Contents (Elt F) → (⟨S16384, .i1⟩ : BufTy).Contents (Elt F)),
    StableHlo.nullary main_c_5 (constantI S_ 32 64#32),
    StableHlo.unary main_c_5 main_v30 (broadcastInDim S16384 ![] bcast_S_S16384 : (⟨S_, .i32⟩ : BufTy).Contents (Elt F) → (⟨S16384, .i32⟩ : BufTy).Contents (Elt F)),
    StableHlo.binary main_v0 main_v30 main_v31 (addi : (⟨S16384, .i32⟩ : BufTy).Contents (Elt F) → (⟨S16384, .i32⟩ : BufTy).Contents (Elt F) → (⟨S16384, .i32⟩ : BufTy).Contents (Elt F)),
    StableHlo.ternary main_v29 main_v31 main_v0 main_v32 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_6 (constantI S_ 32 0#32),
    StableHlo.unary main_c_6 main_v33 (broadcastInDim S16384 ![] bcast_S_S16384 : (⟨S_, .i32⟩ : BufTy).Contents (Elt F) → (⟨S16384, .i32⟩ : BufTy).Contents (Elt F)),
    StableHlo.binary main_v19 main_v33 main_v34 (cmpi .slt : (⟨S16384, .i32⟩ : BufTy).Contents (Elt F) → (⟨S16384, .i32⟩ : BufTy).Contents (Elt F) → (⟨S16384, .i1⟩ : BufTy).Contents (Elt F)),
    StableHlo.nullary main_c_7 (constantI S_ 32 513#32),
    StableHlo.unary main_c_7 main_v35 (broadcastInDim S16384 ![] bcast_S_S16384 : (⟨S_, .i32⟩ : BufTy).Contents (Elt F) → (⟨S16384, .i32⟩ : BufTy).Contents (Elt F)),
    StableHlo.binary main_v19 main_v35 main_v36 (addi : (⟨S16384, .i32⟩ : BufTy).Contents (Elt F) → (⟨S16384, .i32⟩ : BufTy).Contents (Elt F) → (⟨S16384, .i32⟩ : BufTy).Contents (Elt F)),
    StableHlo.ternary main_v34 main_v36 main_v19 main_v37 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v32 main_v38 (broadcastInDim S16384x1 ![0] bcast_S16384_S16384x1_0 : (⟨S16384, .i32⟩ : BufTy).Contents (Elt F) → (⟨S16384x1, .i32⟩ : BufTy).Contents (Elt F)),
    StableHlo.unary main_v37 main_v39 (broadcastInDim S16384x1 ![0] bcast_S16384_S16384x1_0 : (⟨S16384, .i32⟩ : BufTy).Contents (Elt F) → (⟨S16384x1, .i32⟩ : BufTy).Contents (Elt F)) ]

/-- Operations 76 … 76 of the 126. -/
abbrev ops12 : List (HloOp τ sig (Elt F)) :=
  [ StableHlo.binary main_v38 main_v39 main_v40 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)) ]

/-- Operations 77 … 77 of the 126. -/
abbrev ops13 : List (HloOp τ sig (Elt F)) :=
  [ StableHlo.ternary main_v27 main_v40 main_v26 main_v41 ((fun x i u => Host.scatter scatter_S64x513x1024_S16384x2_S16384x1024_1_01_01_1 (fun _ b => b) x i u) : (⟨S64x513x1024, .f32⟩ : BufTy).Contents (Elt F) → (⟨S16384x2, .i32⟩ : BufTy).Contents (Elt F) → (⟨S16384x1024, .f32⟩ : BufTy).Contents (Elt F) → (⟨S64x513x1024, .f32⟩ : BufTy).Contents (Elt F)) ]

/-- Operations 78 … 78 of the 126. -/
abbrev ops14 : List (HloOp τ sig (Elt F)) :=
  [ StableHlo.binary main_v41 main_arg3 main_v42 ((fun l r => Host.dotGeneral dot_S64x513x1024_S64x1024x1024_S64x513x1024_2_2_1_1_0_0 none l r) : (⟨S64x513x1024, .f32⟩ : BufTy).Contents (Elt F) → (⟨S64x1024x1024, .f32⟩ : BufTy).Contents (Elt F) → (⟨S64x513x1024, .f32⟩ : BufTy).Contents (Elt F)) ]

/-- Operations 79 … 90 of the 126. -/
abbrev ops15 : List (HloOp τ sig (Elt F)) :=
  [ StableHlo.unary main_v42 main_v43 ((extractStridedSlice S64x513x512 ![0, 0, 0] · slices_S64x513x1024_S64x513x512_0_0_0) : (⟨S64x513x1024, .f32⟩ : BufTy).Contents (Elt F) → (⟨S64x513x512, .f32⟩ : BufTy).Contents (Elt F)),
    StableHlo.unary main_v42 main_v44 ((extractStridedSlice S64x513x512 ![0, 0, 512] · slices_S64x513x1024_S64x513x512_0_0_512) : (⟨S64x513x1024, .f32⟩ : BufTy).Contents (Elt F) → (⟨S64x513x512, .f32⟩ : BufTy).Contents (Elt F)),
    StableHlo.TRef.unary (.of main_v43 : StableHlo.TRef sig ⟨S64x513x512, .f32⟩) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S64x513x512 ![] bcast_S_S64x513x512),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S64x513x512 ![] bcast_S_S64x513x512),
    StableHlo.TRef.binary main_call3.v4 main_call3.v3 main_call3.v5 Host.divf,
    StableHlo.TRef.binary (.of main_v43 : StableHlo.TRef sig ⟨S64x513x512, .f32⟩) main_call3.v5 main_call3.v6 mulf,
    StableHlo.binary main_v45 main_v44 main_v46 (mulf : (⟨S64x513x512, .f32⟩ : BufTy).Contents (Elt F) → (⟨S64x513x512, .f32⟩ : BufTy).Contents (Elt F) → (⟨S64x513x512, .f32⟩ : BufTy).Contents (Elt F)) ]

/-- Operations 91 … 91 of the 126. -/
abbrev ops16 : List (HloOp τ sig (Elt F)) :=
  [ StableHlo.binary main_v46 main_arg4 main_v47 ((fun l r => Host.dotGeneral dot_S64x513x512_S64x1024x512_S64x513x1024_2_2_1_1_0_0 none l r) : (⟨S64x513x512, .f32⟩ : BufTy).Contents (Elt F) → (⟨S64x1024x512, .f32⟩ : BufTy).Contents (Elt F) → (⟨S64x513x1024, .f32⟩ : BufTy).Contents (Elt F)) ]

/-- Operations 92 … 94 of the 126. -/
abbrev ops17 : List (HloOp τ sig (Elt F)) :=
  [ StableHlo.reshape main_arg2 main_v48 rfl shapeCasts_S4096x4_S16384,
    StableHlo.unary main_v18 main_v49 (uitofp .f32 : (⟨S16384, .i1⟩ : BufTy).Contents (Elt F) → (⟨S16384, .f32⟩ : BufTy).Contents (Elt F)),
    StableHlo.binary main_v48 main_v49 main_v50 (mulf : (⟨S16384, .f32⟩ : BufTy).Contents (Elt F) → (⟨S16384, .f32⟩ : BufTy).Contents (Elt F) → (⟨S16384, .f32⟩ : BufTy).Contents (Elt F)) ]

/-- Operations 95 … 110 of the 126. -/
abbrev ops18 : List (HloOp τ sig (Elt F)) :=
  [ StableHlo.nullary main_c_8 (constantI S_ 32 0#32),
    StableHlo.unary main_c_8 main_v51 (broadcastInDim S16384 ![] bcast_S_S16384 : (⟨S_, .i32⟩ : BufTy).Contents (Elt F) → (⟨S16384, .i32⟩ : BufTy).Contents (Elt F)),
    StableHlo.binary main_v0 main_v51 main_v52 (cmpi .slt : (⟨S16384, .i32⟩ : BufTy).Contents (Elt F) → (⟨S16384, .i32⟩ : BufTy).Contents (Elt F) → (⟨S16384, .i1⟩ : BufTy).Contents (Elt F)),
    StableHlo.nullary main_c_9 (constantI S_ 32 64#32),
    StableHlo.unary main_c_9 main_v53 (broadcastInDim S16384 ![] bcast_S_S16384 : (⟨S_, .i32⟩ : BufTy).Contents (Elt F) → (⟨S16384, .i32⟩ : BufTy).Contents (Elt F)),
    StableHlo.binary main_v0 main_v53 main_v54 (addi : (⟨S16384, .i32⟩ : BufTy).Contents (Elt F) → (⟨S16384, .i32⟩ : BufTy).Contents (Elt F) → (⟨S16384, .i32⟩ : BufTy).Contents (Elt F)),
    StableHlo.ternary main_v52 main_v54 main_v0 main_v55 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_10 (constantI S_ 32 0#32),
    StableHlo.unary main_c_10 main_v56 (broadcastInDim S16384 ![] bcast_S_S16384 : (⟨S_, .i32⟩ : BufTy).Contents (Elt F) → (⟨S16384, .i32⟩ : BufTy).Contents (Elt F)),
    StableHlo.binary main_v19 main_v56 main_v57 (cmpi .slt : (⟨S16384, .i32⟩ : BufTy).Contents (Elt F) → (⟨S16384, .i32⟩ : BufTy).Contents (Elt F) → (⟨S16384, .i1⟩ : BufTy).Contents (Elt F)),
    StableHlo.nullary main_c_11 (constantI S_ 32 513#32),
    StableHlo.unary main_c_11 main_v58 (broadcastInDim S16384 ![] bcast_S_S16384 : (⟨S_, .i32⟩ : BufTy).Contents (Elt F) → (⟨S16384, .i32⟩ : BufTy).Contents (Elt F)),
    StableHlo.binary main_v19 main_v58 main_v59 (addi : (⟨S16384, .i32⟩ : BufTy).Contents (Elt F) → (⟨S16384, .i32⟩ : BufTy).Contents (Elt F) → (⟨S16384, .i32⟩ : BufTy).Contents (Elt F)),
    StableHlo.ternary main_v57 main_v59 main_v19 main_v60 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v55 main_v61 (broadcastInDim S16384x1 ![0] bcast_S16384_S16384x1_0 : (⟨S16384, .i32⟩ : BufTy).Contents (Elt F) → (⟨S16384x1, .i32⟩ : BufTy).Contents (Elt F)),
    StableHlo.unary main_v60 main_v62 (broadcastInDim S16384x1 ![0] bcast_S16384_S16384x1_0 : (⟨S16384, .i32⟩ : BufTy).Contents (Elt F) → (⟨S16384x1, .i32⟩ : BufTy).Contents (Elt F)) ]

/-- Operations 111 … 111 of the 126. -/
abbrev ops19 : List (HloOp τ sig (Elt F)) :=
  [ StableHlo.binary main_v61 main_v62 main_v63 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)) ]

/-- Operations 112 … 115 of the 126. -/
abbrev ops20 : List (HloOp τ sig (Elt F)) :=
  [ StableHlo.binary main_v47 main_v63 main_v64 ((fun x i => Host.gather gather_S64x513x1024_S16384x2_S16384x1024_1_01_n_n_01_1_111024 x i) : (⟨S64x513x1024, .f32⟩ : BufTy).Contents (Elt F) → (⟨S16384x2, .i32⟩ : BufTy).Contents (Elt F) → (⟨S16384x1024, .f32⟩ : BufTy).Contents (Elt F)),
    StableHlo.unary main_v50 main_v65 (broadcastInDim S16384x1 ![0] bcast_S16384_S16384x1_0 : (⟨S16384, .f32⟩ : BufTy).Contents (Elt F) → (⟨S16384x1, .f32⟩ : BufTy).Contents (Elt F)),
    StableHlo.unary main_v65 main_v66 (broadcastInDim S16384x1024 ![0, 1] bcast_S16384x1_S16384x1024_0_1 : (⟨S16384x1, .f32⟩ : BufTy).Contents (Elt F) → (⟨S16384x1024, .f32⟩ : BufTy).Contents (Elt F)),
    StableHlo.binary main_v64 main_v66 main_v67 (mulf : (⟨S16384x1024, .f32⟩ : BufTy).Contents (Elt F) → (⟨S16384x1024, .f32⟩ : BufTy).Contents (Elt F) → (⟨S16384x1024, .f32⟩ : BufTy).Contents (Elt F)) ]

/-- Operations 116 … 125 of the 126. -/
abbrev ops21 : List (HloOp τ sig (Elt F)) :=
  [ StableHlo.nullary main_cst_12 (constant S_ .f32 0x00000000#32),
    StableHlo.unary main_cst_12 main_v68 (broadcastInDim S4096x1024 ![] bcast_S_S4096x1024 : (⟨S_, .f32⟩ : BufTy).Contents (Elt F) → (⟨S4096x1024, .f32⟩ : BufTy).Contents (Elt F)),
    StableHlo.nullary main_c_13 (constantI S_ 32 0#32),
    StableHlo.unary main_c_13 main_v69 (broadcastInDim S16384 ![] bcast_S_S16384 : (⟨S_, .i32⟩ : BufTy).Contents (Elt F) → (⟨S16384, .i32⟩ : BufTy).Contents (Elt F)),
    StableHlo.binary main_v3 main_v69 main_v70 (cmpi .slt : (⟨S16384, .i32⟩ : BufTy).Contents (Elt F) → (⟨S16384, .i32⟩ : BufTy).Contents (Elt F) → (⟨S16384, .i1⟩ : BufTy).Contents (Elt F)),
    StableHlo.nullary main_c_14 (constantI S_ 32 4096#32),
    StableHlo.unary main_c_14 main_v71 (broadcastInDim S16384 ![] bcast_S_S16384 : (⟨S_, .i32⟩ : BufTy).Contents (Elt F) → (⟨S16384, .i32⟩ : BufTy).Contents (Elt F)),
    StableHlo.binary main_v3 main_v71 main_v72 (addi : (⟨S16384, .i32⟩ : BufTy).Contents (Elt F) → (⟨S16384, .i32⟩ : BufTy).Contents (Elt F) → (⟨S16384, .i32⟩ : BufTy).Contents (Elt F)),
    StableHlo.ternary main_v70 main_v72 main_v3 main_v73 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v73 main_v74 (broadcastInDim S16384x1 ![0] bcast_S16384_S16384x1_0 : (⟨S16384, .i32⟩ : BufTy).Contents (Elt F) → (⟨S16384x1, .i32⟩ : BufTy).Contents (Elt F)) ]

/-- Operations 126 … 126 of the 126. -/
abbrev ops22 : List (HloOp τ sig (Elt F)) :=
  [ StableHlo.ternary main_v68 main_v74 main_v67 main_v75 ((fun x i u => Host.scatterAdd scatter_S4096x1024_S16384x1_S16384x1024_1_0_0_1 x i u) : (⟨S4096x1024, .f32⟩ : BufTy).Contents (Elt F) → (⟨S16384x1, .i32⟩ : BufTy).Contents (Elt F) → (⟨S16384x1024, .f32⟩ : BufTy).Contents (Elt F) → (⟨S4096x1024, .f32⟩ : BufTy).Contents (Elt F)) ]

/-- The operations are the windows in order. -/
theorem ops_windows : (ops : List (HloOp τ sig (Elt F))) = ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17 ++ (ops18 ++ (ops19 ++ (ops20 ++ (ops21 ++ (ops22))))))))))))))))))))) := rfl

/-- The device's buffer contents before the first window. -/
def val0 (V : Valuation τ sig (Elt F)) : Valuation τ sig (Elt F) := V
theorem val0_main_arg0 (V : Valuation τ sig (Elt F)) : val0 V (no_index (Proc.devRef .tc main_arg0)) = V (Proc.devRef .tc main_arg0) := rfl
theorem val0_main_arg1 (V : Valuation τ sig (Elt F)) : val0 V (no_index (Proc.devRef .tc main_arg1)) = V (Proc.devRef .tc main_arg1) := rfl
theorem val0_main_arg2 (V : Valuation τ sig (Elt F)) : val0 V (no_index (Proc.devRef .tc main_arg2)) = V (Proc.devRef .tc main_arg2) := rfl
theorem val0_main_arg3 (V : Valuation τ sig (Elt F)) : val0 V (no_index (Proc.devRef .tc main_arg3)) = V (Proc.devRef .tc main_arg3) := rfl
theorem val0_main_arg4 (V : Valuation τ sig (Elt F)) : val0 V (no_index (Proc.devRef .tc main_arg4)) = V (Proc.devRef .tc main_arg4) := rfl

/-- The device's buffer contents after the first 1 window. -/
def val1 (V : Valuation τ sig (Elt F)) : Valuation τ sig (Elt F) := after ops1 (val0 V)
/-- The buffers window 1 writes. -/
abbrev ops1_W : List (Ref sig .tc) := [main_v0, main_v1, main_v2, main_v3]
theorem ops1_writes : (ops1 : List (HloOp τ sig (Elt F))).Forall fun op => op.writes ⊆ (ops1_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 1 does not write keeps its contents through it. -/
theorem val1_keep (V : Valuation τ sig (Elt F)) (r : Ref sig .tc) (h : r ∉ ops1_W) :
    val1 V (Proc.devRef .tc r) = val0 V (Proc.devRef .tc r) :=
  after_of_writes_sub ops1 _ ops1_writes h
theorem val1_main_arg0 (V : Valuation τ sig (Elt F)) : val1 V (no_index (Proc.devRef .tc main_arg0)) = V (Proc.devRef .tc main_arg0) :=
  (val1_keep V main_arg0 (by decide)).trans (val0_main_arg0 V)
theorem val1_main_arg2 (V : Valuation τ sig (Elt F)) : val1 V (no_index (Proc.devRef .tc main_arg2)) = V (Proc.devRef .tc main_arg2) :=
  (val1_keep V main_arg2 (by decide)).trans (val0_main_arg2 V)
theorem val1_main_arg3 (V : Valuation τ sig (Elt F)) : val1 V (no_index (Proc.devRef .tc main_arg3)) = V (Proc.devRef .tc main_arg3) :=
  (val1_keep V main_arg3 (by decide)).trans (val0_main_arg3 V)
theorem val1_main_arg4 (V : Valuation τ sig (Elt F)) : val1 V (no_index (Proc.devRef .tc main_arg4)) = V (Proc.devRef .tc main_arg4) :=
  (val1_keep V main_arg4 (by decide)).trans (val0_main_arg4 V)
set_option maxRecDepth 8192 in
set_option maxHeartbeats 2000000 in
theorem val1_main_v0 (V : Valuation τ sig (Elt F)) : val1 V (no_index (Proc.devRef .tc main_v0)) = flatE ((V (Proc.devRef .tc main_arg1))) := by
  unfold val1
  after_results_simp
  all_goals (try simp only [val0_main_arg1])
  all_goals (try unfold flatE)
  all_goals rfl
set_option maxRecDepth 8192 in
set_option maxHeartbeats 2000000 in
theorem val1_main_v3 (V : Valuation τ sig (Elt F)) : val1 V (no_index (Proc.devRef .tc main_v3)) = shapeCast S16384 (broadcastInDim S4096x4 ![0] bcast_S4096_S4096x4_0 (iotaInDim S4096 32 0)) shapeCasts_S4096x4_S16384 := by
  unfold val1
  after_results_simp
  all_goals rfl

/-- The device's buffer contents after the first 2 windows. -/
def val2 (V : Valuation τ sig (Elt F)) : Valuation τ sig (Elt F) := after ops2 (val1 V)
/-- The buffers window 2 writes. -/
abbrev ops2_W : List (Ref sig .tc) := [main_v4, main_v5, main_v6, main_v7, main_v8, main_v9, main_v10]
theorem ops2_writes : (ops2 : List (HloOp τ sig (Elt F))).Forall fun op => op.writes ⊆ (ops2_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 2 does not write keeps its contents through it. -/
theorem val2_keep (V : Valuation τ sig (Elt F)) (r : Ref sig .tc) (h : r ∉ ops2_W) :
    val2 V (Proc.devRef .tc r) = val1 V (Proc.devRef .tc r) :=
  after_of_writes_sub ops2 _ ops2_writes h
theorem val2_main_arg0 (V : Valuation τ sig (Elt F)) : val2 V (no_index (Proc.devRef .tc main_arg0)) = V (Proc.devRef .tc main_arg0) :=
  (val2_keep V main_arg0 (by decide)).trans (val1_main_arg0 V)
theorem val2_main_arg2 (V : Valuation τ sig (Elt F)) : val2 V (no_index (Proc.devRef .tc main_arg2)) = V (Proc.devRef .tc main_arg2) :=
  (val2_keep V main_arg2 (by decide)).trans (val1_main_arg2 V)
theorem val2_main_arg3 (V : Valuation τ sig (Elt F)) : val2 V (no_index (Proc.devRef .tc main_arg3)) = V (Proc.devRef .tc main_arg3) :=
  (val2_keep V main_arg3 (by decide)).trans (val1_main_arg3 V)
theorem val2_main_arg4 (V : Valuation τ sig (Elt F)) : val2 V (no_index (Proc.devRef .tc main_arg4)) = V (Proc.devRef .tc main_arg4) :=
  (val2_keep V main_arg4 (by decide)).trans (val1_main_arg4 V)
theorem val2_main_v0 (V : Valuation τ sig (Elt F)) : val2 V (no_index (Proc.devRef .tc main_v0)) = flatE ((V (Proc.devRef .tc main_arg1))) :=
  (val2_keep V main_v0 (by decide)).trans (val1_main_v0 V)
theorem val2_main_v3 (V : Valuation τ sig (Elt F)) : val2 V (no_index (Proc.devRef .tc main_v3)) = shapeCast S16384 (broadcastInDim S4096x4 ![0] bcast_S4096_S4096x4_0 (iotaInDim S4096 32 0)) shapeCasts_S4096x4_S16384 :=
  (val2_keep V main_v3 (by decide)).trans (val1_main_v3 V)
set_option maxRecDepth 8192 in
set_option maxHeartbeats 2000000 in
theorem val2_main_v10 (V : Valuation τ sig (Elt F)) : val2 V (no_index (Proc.devRef .tc main_v10)) = onehot ((V (Proc.devRef .tc main_arg1))) := by
  unfold val2
  after_results_simp
  all_goals (try simp only [val1_main_v0])
  all_goals (try unfold onehot)
  all_goals rfl

/-- The device's buffer contents after the first 3 windows. -/
def val3 (V : Valuation τ sig (Elt F)) : Valuation τ sig (Elt F) := after ops3 (val2 V)
/-- The buffers window 3 writes. -/
abbrev ops3_W : List (Ref sig .tc) := [main_call0_call0_c, main_call0_call0_v0, main_v11]
theorem ops3_writes : (ops3 : List (HloOp τ sig (Elt F))).Forall fun op => op.writes ⊆ (ops3_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 3 does not write keeps its contents through it. -/
theorem val3_keep (V : Valuation τ sig (Elt F)) (r : Ref sig .tc) (h : r ∉ ops3_W) :
    val3 V (Proc.devRef .tc r) = val2 V (Proc.devRef .tc r) :=
  after_of_writes_sub ops3 _ ops3_writes h
theorem val3_main_arg0 (V : Valuation τ sig (Elt F)) : val3 V (no_index (Proc.devRef .tc main_arg0)) = V (Proc.devRef .tc main_arg0) :=
  (val3_keep V main_arg0 (by decide)).trans (val2_main_arg0 V)
theorem val3_main_arg2 (V : Valuation τ sig (Elt F)) : val3 V (no_index (Proc.devRef .tc main_arg2)) = V (Proc.devRef .tc main_arg2) :=
  (val3_keep V main_arg2 (by decide)).trans (val2_main_arg2 V)
theorem val3_main_arg3 (V : Valuation τ sig (Elt F)) : val3 V (no_index (Proc.devRef .tc main_arg3)) = V (Proc.devRef .tc main_arg3) :=
  (val3_keep V main_arg3 (by decide)).trans (val2_main_arg3 V)
theorem val3_main_arg4 (V : Valuation τ sig (Elt F)) : val3 V (no_index (Proc.devRef .tc main_arg4)) = V (Proc.devRef .tc main_arg4) :=
  (val3_keep V main_arg4 (by decide)).trans (val2_main_arg4 V)
theorem val3_main_v0 (V : Valuation τ sig (Elt F)) : val3 V (no_index (Proc.devRef .tc main_v0)) = flatE ((V (Proc.devRef .tc main_arg1))) :=
  (val3_keep V main_v0 (by decide)).trans (val2_main_v0 V)
theorem val3_main_v3 (V : Valuation τ sig (Elt F)) : val3 V (no_index (Proc.devRef .tc main_v3)) = shapeCast S16384 (broadcastInDim S4096x4 ![0] bcast_S4096_S4096x4_0 (iotaInDim S4096 32 0)) shapeCasts_S4096x4_S16384 :=
  (val3_keep V main_v3 (by decide)).trans (val2_main_v3 V)
set_option maxRecDepth 8192 in
set_option maxHeartbeats 2000000 in
theorem val3_main_v11 (V : Valuation τ sig (Elt F)) : val3 V (no_index (Proc.devRef .tc main_v11)) = csum ((V (Proc.devRef .tc main_arg1))) := by
  unfold val3
  after_results_simp
  all_goals (try simp only [val2_main_v10])
  all_goals (try unfold csum)
  all_goals rfl

/-- The device's buffer contents after the first 4 windows. -/
def val4 (V : Valuation τ sig (Elt F)) : Valuation τ sig (Elt F) := after ops4 (val3 V)
/-- The buffers window 4 writes. -/
abbrev ops4_W : List (Ref sig .tc) := [main_v12, main_call1_c, main_call1_v0, main_call1_v1, main_call1_c_0, main_call1_v2, main_call1_v3, main_call1_v4, main_call1_v5]
theorem ops4_writes : (ops4 : List (HloOp τ sig (Elt F))).Forall fun op => op.writes ⊆ (ops4_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 4 does not write keeps its contents through it. -/
theorem val4_keep (V : Valuation τ sig (Elt F)) (r : Ref sig .tc) (h : r ∉ ops4_W) :
    val4 V (Proc.devRef .tc r) = val3 V (Proc.devRef .tc r) :=
  after_of_writes_sub ops4 _ ops4_writes h
theorem val4_main_arg0 (V : Valuation τ sig (Elt F)) : val4 V (no_index (Proc.devRef .tc main_arg0)) = V (Proc.devRef .tc main_arg0) :=
  (val4_keep V main_arg0 (by decide)).trans (val3_main_arg0 V)
theorem val4_main_arg2 (V : Valuation τ sig (Elt F)) : val4 V (no_index (Proc.devRef .tc main_arg2)) = V (Proc.devRef .tc main_arg2) :=
  (val4_keep V main_arg2 (by decide)).trans (val3_main_arg2 V)
theorem val4_main_arg3 (V : Valuation τ sig (Elt F)) : val4 V (no_index (Proc.devRef .tc main_arg3)) = V (Proc.devRef .tc main_arg3) :=
  (val4_keep V main_arg3 (by decide)).trans (val3_main_arg3 V)
theorem val4_main_arg4 (V : Valuation τ sig (Elt F)) : val4 V (no_index (Proc.devRef .tc main_arg4)) = V (Proc.devRef .tc main_arg4) :=
  (val4_keep V main_arg4 (by decide)).trans (val3_main_arg4 V)
theorem val4_main_v0 (V : Valuation τ sig (Elt F)) : val4 V (no_index (Proc.devRef .tc main_v0)) = flatE ((V (Proc.devRef .tc main_arg1))) :=
  (val4_keep V main_v0 (by decide)).trans (val3_main_v0 V)
theorem val4_main_v3 (V : Valuation τ sig (Elt F)) : val4 V (no_index (Proc.devRef .tc main_v3)) = shapeCast S16384 (broadcastInDim S4096x4 ![0] bcast_S4096_S4096x4_0 (iotaInDim S4096 32 0)) shapeCasts_S4096x4_S16384 :=
  (val4_keep V main_v3 (by decide)).trans (val3_main_v3 V)
theorem val4_main_v11 (V : Valuation τ sig (Elt F)) : val4 V (no_index (Proc.devRef .tc main_v11)) = csum ((V (Proc.devRef .tc main_arg1))) :=
  (val4_keep V main_v11 (by decide)).trans (val3_main_v11 V)
set_option maxRecDepth 8192 in
set_option maxHeartbeats 2000000 in
theorem val4_main_call1_v5 (V : Valuation τ sig (Elt F)) : val4 V (no_index (Proc.devRef .tc main_call1_v5)) = takeIdx ((V (Proc.devRef .tc main_arg1))) := by
  unfold val4
  after_results_simp
  all_goals (try simp only [val3_main_v0])
  all_goals (try unfold takeIdx)
  all_goals rfl

/-- The device's buffer contents after the first 5 windows. -/
def val5 (V : Valuation τ sig (Elt F)) : Valuation τ sig (Elt F) := after ops5 (val4 V)
/-- The buffers window 5 writes. -/
abbrev ops5_W : List (Ref sig .tc) := [main_call1_c_1, main_call1_c_2, main_call1_v6, main_call1_v7, main_call1_v8, main_call1_v9, main_call1_v10, main_call1_v11, main_call1_c_3, main_call1_v12, main_call1_v13, main_call1_c_4, main_call1_v14, main_v13]
theorem ops5_writes : (ops5 : List (HloOp τ sig (Elt F))).Forall fun op => op.writes ⊆ (ops5_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 5 does not write keeps its contents through it. -/
theorem val5_keep (V : Valuation τ sig (Elt F)) (r : Ref sig .tc) (h : r ∉ ops5_W) :
    val5 V (Proc.devRef .tc r) = val4 V (Proc.devRef .tc r) :=
  after_of_writes_sub ops5 _ ops5_writes h
theorem val5_main_arg0 (V : Valuation τ sig (Elt F)) : val5 V (no_index (Proc.devRef .tc main_arg0)) = V (Proc.devRef .tc main_arg0) :=
  (val5_keep V main_arg0 (by decide)).trans (val4_main_arg0 V)
theorem val5_main_arg2 (V : Valuation τ sig (Elt F)) : val5 V (no_index (Proc.devRef .tc main_arg2)) = V (Proc.devRef .tc main_arg2) :=
  (val5_keep V main_arg2 (by decide)).trans (val4_main_arg2 V)
theorem val5_main_arg3 (V : Valuation τ sig (Elt F)) : val5 V (no_index (Proc.devRef .tc main_arg3)) = V (Proc.devRef .tc main_arg3) :=
  (val5_keep V main_arg3 (by decide)).trans (val4_main_arg3 V)
theorem val5_main_arg4 (V : Valuation τ sig (Elt F)) : val5 V (no_index (Proc.devRef .tc main_arg4)) = V (Proc.devRef .tc main_arg4) :=
  (val5_keep V main_arg4 (by decide)).trans (val4_main_arg4 V)
theorem val5_main_v0 (V : Valuation τ sig (Elt F)) : val5 V (no_index (Proc.devRef .tc main_v0)) = flatE ((V (Proc.devRef .tc main_arg1))) :=
  (val5_keep V main_v0 (by decide)).trans (val4_main_v0 V)
theorem val5_main_v3 (V : Valuation τ sig (Elt F)) : val5 V (no_index (Proc.devRef .tc main_v3)) = shapeCast S16384 (broadcastInDim S4096x4 ![0] bcast_S4096_S4096x4_0 (iotaInDim S4096 32 0)) shapeCasts_S4096x4_S16384 :=
  (val5_keep V main_v3 (by decide)).trans (val4_main_v3 V)
set_option maxRecDepth 8192 in
set_option maxHeartbeats 2000000 in
theorem val5_main_v13 (V : Valuation τ sig (Elt F)) : val5 V (no_index (Proc.devRef .tc main_v13)) = takeV ((V (Proc.devRef .tc main_arg1))) := by
  unfold val5
  after_results_simp
  all_goals (try simp only [val4_main_call1_v5, val4_main_v11])
  all_goals (try unfold takeV)
  all_goals rfl

/-- The device's buffer contents after the first 6 windows. -/
def val6 (V : Valuation τ sig (Elt F)) : Valuation τ sig (Elt F) := after ops6 (val5 V)
/-- The buffers window 6 writes. -/
abbrev ops6_W : List (Ref sig .tc) := [main_v14, main_c, main_v15, main_v16]
theorem ops6_writes : (ops6 : List (HloOp τ sig (Elt F))).Forall fun op => op.writes ⊆ (ops6_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 6 does not write keeps its contents through it. -/
theorem val6_keep (V : Valuation τ sig (Elt F)) (r : Ref sig .tc) (h : r ∉ ops6_W) :
    val6 V (Proc.devRef .tc r) = val5 V (Proc.devRef .tc r) :=
  after_of_writes_sub ops6 _ ops6_writes h
theorem val6_main_arg0 (V : Valuation τ sig (Elt F)) : val6 V (no_index (Proc.devRef .tc main_arg0)) = V (Proc.devRef .tc main_arg0) :=
  (val6_keep V main_arg0 (by decide)).trans (val5_main_arg0 V)
theorem val6_main_arg2 (V : Valuation τ sig (Elt F)) : val6 V (no_index (Proc.devRef .tc main_arg2)) = V (Proc.devRef .tc main_arg2) :=
  (val6_keep V main_arg2 (by decide)).trans (val5_main_arg2 V)
theorem val6_main_arg3 (V : Valuation τ sig (Elt F)) : val6 V (no_index (Proc.devRef .tc main_arg3)) = V (Proc.devRef .tc main_arg3) :=
  (val6_keep V main_arg3 (by decide)).trans (val5_main_arg3 V)
theorem val6_main_arg4 (V : Valuation τ sig (Elt F)) : val6 V (no_index (Proc.devRef .tc main_arg4)) = V (Proc.devRef .tc main_arg4) :=
  (val6_keep V main_arg4 (by decide)).trans (val5_main_arg4 V)
theorem val6_main_v0 (V : Valuation τ sig (Elt F)) : val6 V (no_index (Proc.devRef .tc main_v0)) = flatE ((V (Proc.devRef .tc main_arg1))) :=
  (val6_keep V main_v0 (by decide)).trans (val5_main_v0 V)
theorem val6_main_v3 (V : Valuation τ sig (Elt F)) : val6 V (no_index (Proc.devRef .tc main_v3)) = shapeCast S16384 (broadcastInDim S4096x4 ![0] bcast_S4096_S4096x4_0 (iotaInDim S4096 32 0)) shapeCasts_S4096x4_S16384 :=
  (val6_keep V main_v3 (by decide)).trans (val5_main_v3 V)
set_option maxRecDepth 8192 in
set_option maxHeartbeats 2000000 in
theorem val6_main_v16 (V : Valuation τ sig (Elt F)) : val6 V (no_index (Proc.devRef .tc main_v16)) = posV ((V (Proc.devRef .tc main_arg1))) := by
  unfold val6
  after_results_simp
  all_goals (try simp only [val5_main_v13])
  all_goals (try unfold posV)
  all_goals rfl

/-- The device's buffer contents after the first 7 windows. -/
def val7 (V : Valuation τ sig (Elt F)) : Valuation τ sig (Elt F) := after ops7 (val6 V)
/-- The buffers window 7 writes. -/
abbrev ops7_W : List (Ref sig .tc) := [main_c_0, main_v17, main_v18]
theorem ops7_writes : (ops7 : List (HloOp τ sig (Elt F))).Forall fun op => op.writes ⊆ (ops7_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 7 does not write keeps its contents through it. -/
theorem val7_keep (V : Valuation τ sig (Elt F)) (r : Ref sig .tc) (h : r ∉ ops7_W) :
    val7 V (Proc.devRef .tc r) = val6 V (Proc.devRef .tc r) :=
  after_of_writes_sub ops7 _ ops7_writes h
theorem val7_main_arg0 (V : Valuation τ sig (Elt F)) : val7 V (no_index (Proc.devRef .tc main_arg0)) = V (Proc.devRef .tc main_arg0) :=
  (val7_keep V main_arg0 (by decide)).trans (val6_main_arg0 V)
theorem val7_main_arg2 (V : Valuation τ sig (Elt F)) : val7 V (no_index (Proc.devRef .tc main_arg2)) = V (Proc.devRef .tc main_arg2) :=
  (val7_keep V main_arg2 (by decide)).trans (val6_main_arg2 V)
theorem val7_main_arg3 (V : Valuation τ sig (Elt F)) : val7 V (no_index (Proc.devRef .tc main_arg3)) = V (Proc.devRef .tc main_arg3) :=
  (val7_keep V main_arg3 (by decide)).trans (val6_main_arg3 V)
theorem val7_main_arg4 (V : Valuation τ sig (Elt F)) : val7 V (no_index (Proc.devRef .tc main_arg4)) = V (Proc.devRef .tc main_arg4) :=
  (val7_keep V main_arg4 (by decide)).trans (val6_main_arg4 V)
theorem val7_main_v0 (V : Valuation τ sig (Elt F)) : val7 V (no_index (Proc.devRef .tc main_v0)) = flatE ((V (Proc.devRef .tc main_arg1))) :=
  (val7_keep V main_v0 (by decide)).trans (val6_main_v0 V)
theorem val7_main_v3 (V : Valuation τ sig (Elt F)) : val7 V (no_index (Proc.devRef .tc main_v3)) = shapeCast S16384 (broadcastInDim S4096x4 ![0] bcast_S4096_S4096x4_0 (iotaInDim S4096 32 0)) shapeCasts_S4096x4_S16384 :=
  (val7_keep V main_v3 (by decide)).trans (val6_main_v3 V)
theorem val7_main_v16 (V : Valuation τ sig (Elt F)) : val7 V (no_index (Proc.devRef .tc main_v16)) = posV ((V (Proc.devRef .tc main_arg1))) :=
  (val7_keep V main_v16 (by decide)).trans (val6_main_v16 V)
set_option maxRecDepth 8192 in
set_option maxHeartbeats 2000000 in
theorem val7_main_v18 (V : Valuation τ sig (Elt F)) : val7 V (no_index (Proc.devRef .tc main_v18)) = validV ((V (Proc.devRef .tc main_arg1))) := by
  unfold val7
  after_results_simp
  all_goals (try simp only [val6_main_v16])
  all_goals (try unfold validV)
  all_goals rfl

/-- The device's buffer contents after the first 8 windows. -/
def val8 (V : Valuation τ sig (Elt F)) : Valuation τ sig (Elt F) := after ops8 (val7 V)
/-- The buffers window 8 writes. -/
abbrev ops8_W : List (Ref sig .tc) := [main_c_1, main_call2_v0, main_call2_v1, main_v19]
theorem ops8_writes : (ops8 : List (HloOp τ sig (Elt F))).Forall fun op => op.writes ⊆ (ops8_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 8 does not write keeps its contents through it. -/
theorem val8_keep (V : Valuation τ sig (Elt F)) (r : Ref sig .tc) (h : r ∉ ops8_W) :
    val8 V (Proc.devRef .tc r) = val7 V (Proc.devRef .tc r) :=
  after_of_writes_sub ops8 _ ops8_writes h
theorem val8_main_arg0 (V : Valuation τ sig (Elt F)) : val8 V (no_index (Proc.devRef .tc main_arg0)) = V (Proc.devRef .tc main_arg0) :=
  (val8_keep V main_arg0 (by decide)).trans (val7_main_arg0 V)
theorem val8_main_arg2 (V : Valuation τ sig (Elt F)) : val8 V (no_index (Proc.devRef .tc main_arg2)) = V (Proc.devRef .tc main_arg2) :=
  (val8_keep V main_arg2 (by decide)).trans (val7_main_arg2 V)
theorem val8_main_arg3 (V : Valuation τ sig (Elt F)) : val8 V (no_index (Proc.devRef .tc main_arg3)) = V (Proc.devRef .tc main_arg3) :=
  (val8_keep V main_arg3 (by decide)).trans (val7_main_arg3 V)
theorem val8_main_arg4 (V : Valuation τ sig (Elt F)) : val8 V (no_index (Proc.devRef .tc main_arg4)) = V (Proc.devRef .tc main_arg4) :=
  (val8_keep V main_arg4 (by decide)).trans (val7_main_arg4 V)
theorem val8_main_v0 (V : Valuation τ sig (Elt F)) : val8 V (no_index (Proc.devRef .tc main_v0)) = flatE ((V (Proc.devRef .tc main_arg1))) :=
  (val8_keep V main_v0 (by decide)).trans (val7_main_v0 V)
theorem val8_main_v3 (V : Valuation τ sig (Elt F)) : val8 V (no_index (Proc.devRef .tc main_v3)) = shapeCast S16384 (broadcastInDim S4096x4 ![0] bcast_S4096_S4096x4_0 (iotaInDim S4096 32 0)) shapeCasts_S4096x4_S16384 :=
  (val8_keep V main_v3 (by decide)).trans (val7_main_v3 V)
theorem val8_main_v18 (V : Valuation τ sig (Elt F)) : val8 V (no_index (Proc.devRef .tc main_v18)) = validV ((V (Proc.devRef .tc main_arg1))) :=
  (val8_keep V main_v18 (by decide)).trans (val7_main_v18 V)
set_option maxRecDepth 8192 in
set_option maxHeartbeats 2000000 in
theorem val8_main_v19 (V : Valuation τ sig (Elt F)) : val8 V (no_index (Proc.devRef .tc main_v19)) = slotV ((V (Proc.devRef .tc main_arg1))) := by
  unfold val8
  after_results_simp
  all_goals (try simp only [val7_main_v16, val7_main_v18])
  all_goals (try unfold slotV)
  all_goals rfl

/-- The device's buffer contents after the first 9 windows. -/
def val9 (V : Valuation τ sig (Elt F)) : Valuation τ sig (Elt F) := after ops9 (val8 V)
/-- The buffers window 9 writes. -/
abbrev ops9_W : List (Ref sig .tc) := [main_c_2, main_v20, main_v21, main_c_3, main_v22, main_v23, main_v24]
theorem ops9_writes : (ops9 : List (HloOp τ sig (Elt F))).Forall fun op => op.writes ⊆ (ops9_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 9 does not write keeps its contents through it. -/
theorem val9_keep (V : Valuation τ sig (Elt F)) (r : Ref sig .tc) (h : r ∉ ops9_W) :
    val9 V (Proc.devRef .tc r) = val8 V (Proc.devRef .tc r) :=
  after_of_writes_sub ops9 _ ops9_writes h
theorem val9_main_arg0 (V : Valuation τ sig (Elt F)) : val9 V (no_index (Proc.devRef .tc main_arg0)) = V (Proc.devRef .tc main_arg0) :=
  (val9_keep V main_arg0 (by decide)).trans (val8_main_arg0 V)
theorem val9_main_arg2 (V : Valuation τ sig (Elt F)) : val9 V (no_index (Proc.devRef .tc main_arg2)) = V (Proc.devRef .tc main_arg2) :=
  (val9_keep V main_arg2 (by decide)).trans (val8_main_arg2 V)
theorem val9_main_arg3 (V : Valuation τ sig (Elt F)) : val9 V (no_index (Proc.devRef .tc main_arg3)) = V (Proc.devRef .tc main_arg3) :=
  (val9_keep V main_arg3 (by decide)).trans (val8_main_arg3 V)
theorem val9_main_arg4 (V : Valuation τ sig (Elt F)) : val9 V (no_index (Proc.devRef .tc main_arg4)) = V (Proc.devRef .tc main_arg4) :=
  (val9_keep V main_arg4 (by decide)).trans (val8_main_arg4 V)
theorem val9_main_v0 (V : Valuation τ sig (Elt F)) : val9 V (no_index (Proc.devRef .tc main_v0)) = flatE ((V (Proc.devRef .tc main_arg1))) :=
  (val9_keep V main_v0 (by decide)).trans (val8_main_v0 V)
theorem val9_main_v3 (V : Valuation τ sig (Elt F)) : val9 V (no_index (Proc.devRef .tc main_v3)) = shapeCast S16384 (broadcastInDim S4096x4 ![0] bcast_S4096_S4096x4_0 (iotaInDim S4096 32 0)) shapeCasts_S4096x4_S16384 :=
  (val9_keep V main_v3 (by decide)).trans (val8_main_v3 V)
theorem val9_main_v18 (V : Valuation τ sig (Elt F)) : val9 V (no_index (Proc.devRef .tc main_v18)) = validV ((V (Proc.devRef .tc main_arg1))) :=
  (val9_keep V main_v18 (by decide)).trans (val8_main_v18 V)
theorem val9_main_v19 (V : Valuation τ sig (Elt F)) : val9 V (no_index (Proc.devRef .tc main_v19)) = slotV ((V (Proc.devRef .tc main_arg1))) :=
  (val9_keep V main_v19 (by decide)).trans (val8_main_v19 V)
set_option maxRecDepth 8192 in
set_option maxHeartbeats 2000000 in
theorem val9_main_v24 (V : Valuation τ sig (Elt F)) : val9 V (no_index (Proc.devRef .tc main_v24)) = tokV (F := F) := by
  unfold val9
  after_results_simp
  all_goals (try simp only [val8_main_v3])
  all_goals (try unfold tokV)
  all_goals rfl

/-- The device's buffer contents after the first 10 windows. -/
def val10 (V : Valuation τ sig (Elt F)) : Valuation τ sig (Elt F) := after ops10 (val9 V)
/-- The buffers window 10 writes. -/
abbrev ops10_W : List (Ref sig .tc) := [main_v25, main_v26]
theorem ops10_writes : (ops10 : List (HloOp τ sig (Elt F))).Forall fun op => op.writes ⊆ (ops10_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide)))⟩
/-- A buffer window 10 does not write keeps its contents through it. -/
theorem val10_keep (V : Valuation τ sig (Elt F)) (r : Ref sig .tc) (h : r ∉ ops10_W) :
    val10 V (Proc.devRef .tc r) = val9 V (Proc.devRef .tc r) :=
  after_of_writes_sub ops10 _ ops10_writes h
theorem val10_main_arg2 (V : Valuation τ sig (Elt F)) : val10 V (no_index (Proc.devRef .tc main_arg2)) = V (Proc.devRef .tc main_arg2) :=
  (val10_keep V main_arg2 (by decide)).trans (val9_main_arg2 V)
theorem val10_main_arg3 (V : Valuation τ sig (Elt F)) : val10 V (no_index (Proc.devRef .tc main_arg3)) = V (Proc.devRef .tc main_arg3) :=
  (val10_keep V main_arg3 (by decide)).trans (val9_main_arg3 V)
theorem val10_main_arg4 (V : Valuation τ sig (Elt F)) : val10 V (no_index (Proc.devRef .tc main_arg4)) = V (Proc.devRef .tc main_arg4) :=
  (val10_keep V main_arg4 (by decide)).trans (val9_main_arg4 V)
theorem val10_main_v0 (V : Valuation τ sig (Elt F)) : val10 V (no_index (Proc.devRef .tc main_v0)) = flatE ((V (Proc.devRef .tc main_arg1))) :=
  (val10_keep V main_v0 (by decide)).trans (val9_main_v0 V)
theorem val10_main_v3 (V : Valuation τ sig (Elt F)) : val10 V (no_index (Proc.devRef .tc main_v3)) = shapeCast S16384 (broadcastInDim S4096x4 ![0] bcast_S4096_S4096x4_0 (iotaInDim S4096 32 0)) shapeCasts_S4096x4_S16384 :=
  (val10_keep V main_v3 (by decide)).trans (val9_main_v3 V)
theorem val10_main_v18 (V : Valuation τ sig (Elt F)) : val10 V (no_index (Proc.devRef .tc main_v18)) = validV ((V (Proc.devRef .tc main_arg1))) :=
  (val10_keep V main_v18 (by decide)).trans (val9_main_v18 V)
theorem val10_main_v19 (V : Valuation τ sig (Elt F)) : val10 V (no_index (Proc.devRef .tc main_v19)) = slotV ((V (Proc.devRef .tc main_arg1))) :=
  (val10_keep V main_v19 (by decide)).trans (val9_main_v19 V)
set_option maxRecDepth 8192 in
set_option maxHeartbeats 2000000 in
theorem val10_main_v26 (V : Valuation τ sig (Elt F)) : val10 V (no_index (Proc.devRef .tc main_v26)) = xpair ((V (Proc.devRef .tc main_arg0))) := by
  unfold val10
  after_results_simp
  all_goals (try simp only [val9_main_v24, val9_main_arg0])
  all_goals (try unfold xpair)
  all_goals rfl

/-- The device's buffer contents after the first 11 windows. -/
def val11 (V : Valuation τ sig (Elt F)) : Valuation τ sig (Elt F) := after ops11 (val10 V)
/-- The buffers window 11 writes. -/
abbrev ops11_W : List (Ref sig .tc) := [main_cst, main_v27, main_c_4, main_v28, main_v29, main_c_5, main_v30, main_v31, main_v32, main_c_6, main_v33, main_v34, main_c_7, main_v35, main_v36, main_v37, main_v38, main_v39]
theorem ops11_writes : (ops11 : List (HloOp τ sig (Elt F))).Forall fun op => op.writes ⊆ (ops11_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 11 does not write keeps its contents through it. -/
theorem val11_keep (V : Valuation τ sig (Elt F)) (r : Ref sig .tc) (h : r ∉ ops11_W) :
    val11 V (Proc.devRef .tc r) = val10 V (Proc.devRef .tc r) :=
  after_of_writes_sub ops11 _ ops11_writes h
theorem val11_main_arg2 (V : Valuation τ sig (Elt F)) : val11 V (no_index (Proc.devRef .tc main_arg2)) = V (Proc.devRef .tc main_arg2) :=
  (val11_keep V main_arg2 (by decide)).trans (val10_main_arg2 V)
theorem val11_main_arg3 (V : Valuation τ sig (Elt F)) : val11 V (no_index (Proc.devRef .tc main_arg3)) = V (Proc.devRef .tc main_arg3) :=
  (val11_keep V main_arg3 (by decide)).trans (val10_main_arg3 V)
theorem val11_main_arg4 (V : Valuation τ sig (Elt F)) : val11 V (no_index (Proc.devRef .tc main_arg4)) = V (Proc.devRef .tc main_arg4) :=
  (val11_keep V main_arg4 (by decide)).trans (val10_main_arg4 V)
theorem val11_main_v0 (V : Valuation τ sig (Elt F)) : val11 V (no_index (Proc.devRef .tc main_v0)) = flatE ((V (Proc.devRef .tc main_arg1))) :=
  (val11_keep V main_v0 (by decide)).trans (val10_main_v0 V)
theorem val11_main_v3 (V : Valuation τ sig (Elt F)) : val11 V (no_index (Proc.devRef .tc main_v3)) = shapeCast S16384 (broadcastInDim S4096x4 ![0] bcast_S4096_S4096x4_0 (iotaInDim S4096 32 0)) shapeCasts_S4096x4_S16384 :=
  (val11_keep V main_v3 (by decide)).trans (val10_main_v3 V)
theorem val11_main_v18 (V : Valuation τ sig (Elt F)) : val11 V (no_index (Proc.devRef .tc main_v18)) = validV ((V (Proc.devRef .tc main_arg1))) :=
  (val11_keep V main_v18 (by decide)).trans (val10_main_v18 V)
theorem val11_main_v19 (V : Valuation τ sig (Elt F)) : val11 V (no_index (Proc.devRef .tc main_v19)) = slotV ((V (Proc.devRef .tc main_arg1))) :=
  (val11_keep V main_v19 (by decide)).trans (val10_main_v19 V)
theorem val11_main_v26 (V : Valuation τ sig (Elt F)) : val11 V (no_index (Proc.devRef .tc main_v26)) = xpair ((V (Proc.devRef .tc main_arg0))) :=
  (val11_keep V main_v26 (by decide)).trans (val10_main_v26 V)
set_option maxRecDepth 8192 in
set_option maxHeartbeats 2000000 in
theorem val11_main_v27 (V : Valuation τ sig (Elt F)) : val11 V (no_index (Proc.devRef .tc main_v27)) = broadcastInDim S64x513x1024 ![] bcast_S_S64x513x1024 (constant S_ .f32 0x00000000#32) := by
  unfold val11
  after_results_simp
  all_goals rfl
set_option maxRecDepth 8192 in
set_option maxHeartbeats 2000000 in
theorem val11_main_v38 (V : Valuation τ sig (Elt F)) : val11 V (no_index (Proc.devRef .tc main_v38)) = broadcastInDim S16384x1 ![0] bcast_S16384_S16384x1_0 (select (cmpi .slt (flatE ((V (Proc.devRef .tc main_arg1)))) (broadcastInDim S16384 ![] bcast_S_S16384 (constantI S_ 32 0#32))) (addi (flatE ((V (Proc.devRef .tc main_arg1)))) (broadcastInDim S16384 ![] bcast_S_S16384 (constantI S_ 32 64#32))) (flatE ((V (Proc.devRef .tc main_arg1))))) := by
  unfold val11
  after_results_simp
  all_goals (try simp only [val10_main_v0])
  all_goals rfl
set_option maxRecDepth 8192 in
set_option maxHeartbeats 2000000 in
theorem val11_main_v39 (V : Valuation τ sig (Elt F)) : val11 V (no_index (Proc.devRef .tc main_v39)) = broadcastInDim S16384x1 ![0] bcast_S16384_S16384x1_0 (select (cmpi .slt (slotV ((V (Proc.devRef .tc main_arg1)))) (broadcastInDim S16384 ![] bcast_S_S16384 (constantI S_ 32 0#32))) (addi (slotV ((V (Proc.devRef .tc main_arg1)))) (broadcastInDim S16384 ![] bcast_S_S16384 (constantI S_ 32 513#32))) (slotV ((V (Proc.devRef .tc main_arg1))))) := by
  unfold val11
  after_results_simp
  all_goals (try simp only [val10_main_v19])
  all_goals rfl

/-- The device's buffer contents after the first 12 windows. -/
def val12 (V : Valuation τ sig (Elt F)) : Valuation τ sig (Elt F) := after ops12 (val11 V)
/-- The buffers window 12 writes. -/
abbrev ops12_W : List (Ref sig .tc) := [main_v40]
theorem ops12_writes : (ops12 : List (HloOp τ sig (Elt F))).Forall fun op => op.writes ⊆ (ops12_W.map (Proc.devRef (τ := τ) .tc)).toFinset :=
  Finset.singleton_subset_iff.mpr (List.mem_toFinset.mpr (List.mem_map_of_mem (by decide)))
/-- A buffer window 12 does not write keeps its contents through it. -/
theorem val12_keep (V : Valuation τ sig (Elt F)) (r : Ref sig .tc) (h : r ∉ ops12_W) :
    val12 V (Proc.devRef .tc r) = val11 V (Proc.devRef .tc r) :=
  after_of_writes_sub ops12 _ ops12_writes h
theorem val12_main_arg2 (V : Valuation τ sig (Elt F)) : val12 V (no_index (Proc.devRef .tc main_arg2)) = V (Proc.devRef .tc main_arg2) :=
  (val12_keep V main_arg2 (by decide)).trans (val11_main_arg2 V)
theorem val12_main_arg3 (V : Valuation τ sig (Elt F)) : val12 V (no_index (Proc.devRef .tc main_arg3)) = V (Proc.devRef .tc main_arg3) :=
  (val12_keep V main_arg3 (by decide)).trans (val11_main_arg3 V)
theorem val12_main_arg4 (V : Valuation τ sig (Elt F)) : val12 V (no_index (Proc.devRef .tc main_arg4)) = V (Proc.devRef .tc main_arg4) :=
  (val12_keep V main_arg4 (by decide)).trans (val11_main_arg4 V)
theorem val12_main_v0 (V : Valuation τ sig (Elt F)) : val12 V (no_index (Proc.devRef .tc main_v0)) = flatE ((V (Proc.devRef .tc main_arg1))) :=
  (val12_keep V main_v0 (by decide)).trans (val11_main_v0 V)
theorem val12_main_v3 (V : Valuation τ sig (Elt F)) : val12 V (no_index (Proc.devRef .tc main_v3)) = shapeCast S16384 (broadcastInDim S4096x4 ![0] bcast_S4096_S4096x4_0 (iotaInDim S4096 32 0)) shapeCasts_S4096x4_S16384 :=
  (val12_keep V main_v3 (by decide)).trans (val11_main_v3 V)
theorem val12_main_v18 (V : Valuation τ sig (Elt F)) : val12 V (no_index (Proc.devRef .tc main_v18)) = validV ((V (Proc.devRef .tc main_arg1))) :=
  (val12_keep V main_v18 (by decide)).trans (val11_main_v18 V)
theorem val12_main_v19 (V : Valuation τ sig (Elt F)) : val12 V (no_index (Proc.devRef .tc main_v19)) = slotV ((V (Proc.devRef .tc main_arg1))) :=
  (val12_keep V main_v19 (by decide)).trans (val11_main_v19 V)
theorem val12_main_v26 (V : Valuation τ sig (Elt F)) : val12 V (no_index (Proc.devRef .tc main_v26)) = xpair ((V (Proc.devRef .tc main_arg0))) :=
  (val12_keep V main_v26 (by decide)).trans (val11_main_v26 V)
theorem val12_main_v27 (V : Valuation τ sig (Elt F)) : val12 V (no_index (Proc.devRef .tc main_v27)) = broadcastInDim S64x513x1024 ![] bcast_S_S64x513x1024 (constant S_ .f32 0x00000000#32) :=
  (val12_keep V main_v27 (by decide)).trans (val11_main_v27 V)
theorem val12_main_v40 (V : Valuation τ sig (Elt F)) : val12 V (no_index (Proc.devRef .tc main_v40)) = scatIdx ((V (Proc.devRef .tc main_arg1))) := by
  unfold val12
  simp only [after_cons, after_nil]
  rw [binary_result]
  rw [val11_main_v39 V, val11_main_v38 V]
  unfold scatIdx
  rfl

/-- The device's buffer contents after the first 13 windows. -/
def val13 (V : Valuation τ sig (Elt F)) : Valuation τ sig (Elt F) := after ops13 (val12 V)
/-- The buffers window 13 writes. -/
abbrev ops13_W : List (Ref sig .tc) := [main_v41]
theorem ops13_writes : (ops13 : List (HloOp τ sig (Elt F))).Forall fun op => op.writes ⊆ (ops13_W.map (Proc.devRef (τ := τ) .tc)).toFinset :=
  Finset.singleton_subset_iff.mpr (List.mem_toFinset.mpr (List.mem_map_of_mem (by decide)))
/-- A buffer window 13 does not write keeps its contents through it. -/
theorem val13_keep (V : Valuation τ sig (Elt F)) (r : Ref sig .tc) (h : r ∉ ops13_W) :
    val13 V (Proc.devRef .tc r) = val12 V (Proc.devRef .tc r) :=
  after_of_writes_sub ops13 _ ops13_writes h
theorem val13_main_arg2 (V : Valuation τ sig (Elt F)) : val13 V (no_index (Proc.devRef .tc main_arg2)) = V (Proc.devRef .tc main_arg2) :=
  (val13_keep V main_arg2 (by decide)).trans (val12_main_arg2 V)
theorem val13_main_arg3 (V : Valuation τ sig (Elt F)) : val13 V (no_index (Proc.devRef .tc main_arg3)) = V (Proc.devRef .tc main_arg3) :=
  (val13_keep V main_arg3 (by decide)).trans (val12_main_arg3 V)
theorem val13_main_arg4 (V : Valuation τ sig (Elt F)) : val13 V (no_index (Proc.devRef .tc main_arg4)) = V (Proc.devRef .tc main_arg4) :=
  (val13_keep V main_arg4 (by decide)).trans (val12_main_arg4 V)
theorem val13_main_v0 (V : Valuation τ sig (Elt F)) : val13 V (no_index (Proc.devRef .tc main_v0)) = flatE ((V (Proc.devRef .tc main_arg1))) :=
  (val13_keep V main_v0 (by decide)).trans (val12_main_v0 V)
theorem val13_main_v3 (V : Valuation τ sig (Elt F)) : val13 V (no_index (Proc.devRef .tc main_v3)) = shapeCast S16384 (broadcastInDim S4096x4 ![0] bcast_S4096_S4096x4_0 (iotaInDim S4096 32 0)) shapeCasts_S4096x4_S16384 :=
  (val13_keep V main_v3 (by decide)).trans (val12_main_v3 V)
theorem val13_main_v18 (V : Valuation τ sig (Elt F)) : val13 V (no_index (Proc.devRef .tc main_v18)) = validV ((V (Proc.devRef .tc main_arg1))) :=
  (val13_keep V main_v18 (by decide)).trans (val12_main_v18 V)
theorem val13_main_v19 (V : Valuation τ sig (Elt F)) : val13 V (no_index (Proc.devRef .tc main_v19)) = slotV ((V (Proc.devRef .tc main_arg1))) :=
  (val13_keep V main_v19 (by decide)).trans (val12_main_v19 V)
set_option maxRecDepth 8192 in
set_option maxHeartbeats 2000000 in
theorem val13_main_v41 (V : Valuation τ sig (Elt F)) : val13 V (no_index (Proc.devRef .tc main_v41)) = bufR ((V (Proc.devRef .tc main_arg0))) ((V (Proc.devRef .tc main_arg1))) := by
  unfold val13
  after_results_simp
  all_goals (try simp only [val12_main_v26, val12_main_v40, val12_main_v27])
  all_goals (try unfold bufR)
  all_goals rfl

/-- The device's buffer contents after the first 14 windows. -/
def val14 (V : Valuation τ sig (Elt F)) : Valuation τ sig (Elt F) := after ops14 (val13 V)
/-- The buffers window 14 writes. -/
abbrev ops14_W : List (Ref sig .tc) := [main_v42]
theorem ops14_writes : (ops14 : List (HloOp τ sig (Elt F))).Forall fun op => op.writes ⊆ (ops14_W.map (Proc.devRef (τ := τ) .tc)).toFinset :=
  Finset.singleton_subset_iff.mpr (List.mem_toFinset.mpr (List.mem_map_of_mem (by decide)))
/-- A buffer window 14 does not write keeps its contents through it. -/
theorem val14_keep (V : Valuation τ sig (Elt F)) (r : Ref sig .tc) (h : r ∉ ops14_W) :
    val14 V (Proc.devRef .tc r) = val13 V (Proc.devRef .tc r) :=
  after_of_writes_sub ops14 _ ops14_writes h
theorem val14_main_arg2 (V : Valuation τ sig (Elt F)) : val14 V (no_index (Proc.devRef .tc main_arg2)) = V (Proc.devRef .tc main_arg2) :=
  (val14_keep V main_arg2 (by decide)).trans (val13_main_arg2 V)
theorem val14_main_arg4 (V : Valuation τ sig (Elt F)) : val14 V (no_index (Proc.devRef .tc main_arg4)) = V (Proc.devRef .tc main_arg4) :=
  (val14_keep V main_arg4 (by decide)).trans (val13_main_arg4 V)
theorem val14_main_v0 (V : Valuation τ sig (Elt F)) : val14 V (no_index (Proc.devRef .tc main_v0)) = flatE ((V (Proc.devRef .tc main_arg1))) :=
  (val14_keep V main_v0 (by decide)).trans (val13_main_v0 V)
theorem val14_main_v3 (V : Valuation τ sig (Elt F)) : val14 V (no_index (Proc.devRef .tc main_v3)) = shapeCast S16384 (broadcastInDim S4096x4 ![0] bcast_S4096_S4096x4_0 (iotaInDim S4096 32 0)) shapeCasts_S4096x4_S16384 :=
  (val14_keep V main_v3 (by decide)).trans (val13_main_v3 V)
theorem val14_main_v18 (V : Valuation τ sig (Elt F)) : val14 V (no_index (Proc.devRef .tc main_v18)) = validV ((V (Proc.devRef .tc main_arg1))) :=
  (val14_keep V main_v18 (by decide)).trans (val13_main_v18 V)
theorem val14_main_v19 (V : Valuation τ sig (Elt F)) : val14 V (no_index (Proc.devRef .tc main_v19)) = slotV ((V (Proc.devRef .tc main_arg1))) :=
  (val14_keep V main_v19 (by decide)).trans (val13_main_v19 V)
set_option maxRecDepth 8192 in
set_option maxHeartbeats 2000000 in
theorem val14_main_v42 (V : Valuation τ sig (Elt F)) : val14 V (no_index (Proc.devRef .tc main_v42)) = guR (bufR ((V (Proc.devRef .tc main_arg0))) ((V (Proc.devRef .tc main_arg1)))) ((V (Proc.devRef .tc main_arg3))) := by
  unfold val14
  after_results_simp
  all_goals (try simp only [val13_main_arg3, val13_main_v41])
  all_goals (try unfold guR)
  all_goals rfl

/-- The device's buffer contents after the first 15 windows. -/
def val15 (V : Valuation τ sig (Elt F)) : Valuation τ sig (Elt F) := after ops15 (val14 V)
/-- The buffers window 15 writes. -/
abbrev ops15_W : List (Ref sig .tc) := [main_v43, main_v44, main_call3_v0, main_call3_v1, main_call3_cst, main_call3_v2, main_call3_v3, main_call3_cst_0, main_call3_v4, main_call3_v5, main_v45, main_v46]
theorem ops15_writes : (ops15 : List (HloOp τ sig (Elt F))).Forall fun op => op.writes ⊆ (ops15_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 15 does not write keeps its contents through it. -/
theorem val15_keep (V : Valuation τ sig (Elt F)) (r : Ref sig .tc) (h : r ∉ ops15_W) :
    val15 V (Proc.devRef .tc r) = val14 V (Proc.devRef .tc r) :=
  after_of_writes_sub ops15 _ ops15_writes h
theorem val15_main_arg2 (V : Valuation τ sig (Elt F)) : val15 V (no_index (Proc.devRef .tc main_arg2)) = V (Proc.devRef .tc main_arg2) :=
  (val15_keep V main_arg2 (by decide)).trans (val14_main_arg2 V)
theorem val15_main_arg4 (V : Valuation τ sig (Elt F)) : val15 V (no_index (Proc.devRef .tc main_arg4)) = V (Proc.devRef .tc main_arg4) :=
  (val15_keep V main_arg4 (by decide)).trans (val14_main_arg4 V)
theorem val15_main_v0 (V : Valuation τ sig (Elt F)) : val15 V (no_index (Proc.devRef .tc main_v0)) = flatE ((V (Proc.devRef .tc main_arg1))) :=
  (val15_keep V main_v0 (by decide)).trans (val14_main_v0 V)
theorem val15_main_v3 (V : Valuation τ sig (Elt F)) : val15 V (no_index (Proc.devRef .tc main_v3)) = shapeCast S16384 (broadcastInDim S4096x4 ![0] bcast_S4096_S4096x4_0 (iotaInDim S4096 32 0)) shapeCasts_S4096x4_S16384 :=
  (val15_keep V main_v3 (by decide)).trans (val14_main_v3 V)
theorem val15_main_v18 (V : Valuation τ sig (Elt F)) : val15 V (no_index (Proc.devRef .tc main_v18)) = validV ((V (Proc.devRef .tc main_arg1))) :=
  (val15_keep V main_v18 (by decide)).trans (val14_main_v18 V)
theorem val15_main_v19 (V : Valuation τ sig (Elt F)) : val15 V (no_index (Proc.devRef .tc main_v19)) = slotV ((V (Proc.devRef .tc main_arg1))) :=
  (val15_keep V main_v19 (by decide)).trans (val14_main_v19 V)
set_option maxRecDepth 8192 in
set_option maxHeartbeats 2000000 in
theorem val15_main_v46 (V : Valuation τ sig (Elt F)) : val15 V (no_index (Proc.devRef .tc main_v46)) = hidR (bufR ((V (Proc.devRef .tc main_arg0))) ((V (Proc.devRef .tc main_arg1)))) ((V (Proc.devRef .tc main_arg3))) := by
  unfold val15
  after_results_simp
  all_goals (try simp only [val14_main_v42])
  all_goals (try unfold hidR)
  all_goals rfl

/-- The device's buffer contents after the first 16 windows. -/
def val16 (V : Valuation τ sig (Elt F)) : Valuation τ sig (Elt F) := after ops16 (val15 V)
/-- The buffers window 16 writes. -/
abbrev ops16_W : List (Ref sig .tc) := [main_v47]
theorem ops16_writes : (ops16 : List (HloOp τ sig (Elt F))).Forall fun op => op.writes ⊆ (ops16_W.map (Proc.devRef (τ := τ) .tc)).toFinset :=
  Finset.singleton_subset_iff.mpr (List.mem_toFinset.mpr (List.mem_map_of_mem (by decide)))
/-- A buffer window 16 does not write keeps its contents through it. -/
theorem val16_keep (V : Valuation τ sig (Elt F)) (r : Ref sig .tc) (h : r ∉ ops16_W) :
    val16 V (Proc.devRef .tc r) = val15 V (Proc.devRef .tc r) :=
  after_of_writes_sub ops16 _ ops16_writes h
theorem val16_main_arg2 (V : Valuation τ sig (Elt F)) : val16 V (no_index (Proc.devRef .tc main_arg2)) = V (Proc.devRef .tc main_arg2) :=
  (val16_keep V main_arg2 (by decide)).trans (val15_main_arg2 V)
theorem val16_main_v0 (V : Valuation τ sig (Elt F)) : val16 V (no_index (Proc.devRef .tc main_v0)) = flatE ((V (Proc.devRef .tc main_arg1))) :=
  (val16_keep V main_v0 (by decide)).trans (val15_main_v0 V)
theorem val16_main_v3 (V : Valuation τ sig (Elt F)) : val16 V (no_index (Proc.devRef .tc main_v3)) = shapeCast S16384 (broadcastInDim S4096x4 ![0] bcast_S4096_S4096x4_0 (iotaInDim S4096 32 0)) shapeCasts_S4096x4_S16384 :=
  (val16_keep V main_v3 (by decide)).trans (val15_main_v3 V)
theorem val16_main_v18 (V : Valuation τ sig (Elt F)) : val16 V (no_index (Proc.devRef .tc main_v18)) = validV ((V (Proc.devRef .tc main_arg1))) :=
  (val16_keep V main_v18 (by decide)).trans (val15_main_v18 V)
theorem val16_main_v19 (V : Valuation τ sig (Elt F)) : val16 V (no_index (Proc.devRef .tc main_v19)) = slotV ((V (Proc.devRef .tc main_arg1))) :=
  (val16_keep V main_v19 (by decide)).trans (val15_main_v19 V)
set_option maxRecDepth 8192 in
set_option maxHeartbeats 2000000 in
theorem val16_main_v47 (V : Valuation τ sig (Elt F)) : val16 V (no_index (Proc.devRef .tc main_v47)) = yR (bufR ((V (Proc.devRef .tc main_arg0))) ((V (Proc.devRef .tc main_arg1)))) ((V (Proc.devRef .tc main_arg3))) ((V (Proc.devRef .tc main_arg4))) := by
  unfold val16
  after_results_simp
  all_goals (try simp only [val15_main_arg4, val15_main_v46])
  all_goals (try unfold yR)
  all_goals rfl

/-- The device's buffer contents after the first 17 windows. -/
def val17 (V : Valuation τ sig (Elt F)) : Valuation τ sig (Elt F) := after ops17 (val16 V)
/-- The buffers window 17 writes. -/
abbrev ops17_W : List (Ref sig .tc) := [main_v48, main_v49, main_v50]
theorem ops17_writes : (ops17 : List (HloOp τ sig (Elt F))).Forall fun op => op.writes ⊆ (ops17_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 17 does not write keeps its contents through it. -/
theorem val17_keep (V : Valuation τ sig (Elt F)) (r : Ref sig .tc) (h : r ∉ ops17_W) :
    val17 V (Proc.devRef .tc r) = val16 V (Proc.devRef .tc r) :=
  after_of_writes_sub ops17 _ ops17_writes h
theorem val17_main_v0 (V : Valuation τ sig (Elt F)) : val17 V (no_index (Proc.devRef .tc main_v0)) = flatE ((V (Proc.devRef .tc main_arg1))) :=
  (val17_keep V main_v0 (by decide)).trans (val16_main_v0 V)
theorem val17_main_v3 (V : Valuation τ sig (Elt F)) : val17 V (no_index (Proc.devRef .tc main_v3)) = shapeCast S16384 (broadcastInDim S4096x4 ![0] bcast_S4096_S4096x4_0 (iotaInDim S4096 32 0)) shapeCasts_S4096x4_S16384 :=
  (val17_keep V main_v3 (by decide)).trans (val16_main_v3 V)
theorem val17_main_v19 (V : Valuation τ sig (Elt F)) : val17 V (no_index (Proc.devRef .tc main_v19)) = slotV ((V (Proc.devRef .tc main_arg1))) :=
  (val17_keep V main_v19 (by decide)).trans (val16_main_v19 V)
theorem val17_main_v47 (V : Valuation τ sig (Elt F)) : val17 V (no_index (Proc.devRef .tc main_v47)) = yR (bufR ((V (Proc.devRef .tc main_arg0))) ((V (Proc.devRef .tc main_arg1)))) ((V (Proc.devRef .tc main_arg3))) ((V (Proc.devRef .tc main_arg4))) :=
  (val17_keep V main_v47 (by decide)).trans (val16_main_v47 V)
set_option maxRecDepth 8192 in
set_option maxHeartbeats 2000000 in
theorem val17_main_v50 (V : Valuation τ sig (Elt F)) : val17 V (no_index (Proc.devRef .tc main_v50)) = coefR ((V (Proc.devRef .tc main_arg1))) ((V (Proc.devRef .tc main_arg2))) := by
  unfold val17
  after_results_simp
  all_goals (try simp only [val16_main_v18, val16_main_arg2])
  all_goals (try unfold coefR)
  all_goals rfl

/-- The device's buffer contents after the first 18 windows. -/
def val18 (V : Valuation τ sig (Elt F)) : Valuation τ sig (Elt F) := after ops18 (val17 V)
/-- The buffers window 18 writes. -/
abbrev ops18_W : List (Ref sig .tc) := [main_c_8, main_v51, main_v52, main_c_9, main_v53, main_v54, main_v55, main_c_10, main_v56, main_v57, main_c_11, main_v58, main_v59, main_v60, main_v61, main_v62]
theorem ops18_writes : (ops18 : List (HloOp τ sig (Elt F))).Forall fun op => op.writes ⊆ (ops18_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 18 does not write keeps its contents through it. -/
theorem val18_keep (V : Valuation τ sig (Elt F)) (r : Ref sig .tc) (h : r ∉ ops18_W) :
    val18 V (Proc.devRef .tc r) = val17 V (Proc.devRef .tc r) :=
  after_of_writes_sub ops18 _ ops18_writes h
theorem val18_main_v3 (V : Valuation τ sig (Elt F)) : val18 V (no_index (Proc.devRef .tc main_v3)) = shapeCast S16384 (broadcastInDim S4096x4 ![0] bcast_S4096_S4096x4_0 (iotaInDim S4096 32 0)) shapeCasts_S4096x4_S16384 :=
  (val18_keep V main_v3 (by decide)).trans (val17_main_v3 V)
theorem val18_main_v47 (V : Valuation τ sig (Elt F)) : val18 V (no_index (Proc.devRef .tc main_v47)) = yR (bufR ((V (Proc.devRef .tc main_arg0))) ((V (Proc.devRef .tc main_arg1)))) ((V (Proc.devRef .tc main_arg3))) ((V (Proc.devRef .tc main_arg4))) :=
  (val18_keep V main_v47 (by decide)).trans (val17_main_v47 V)
theorem val18_main_v50 (V : Valuation τ sig (Elt F)) : val18 V (no_index (Proc.devRef .tc main_v50)) = coefR ((V (Proc.devRef .tc main_arg1))) ((V (Proc.devRef .tc main_arg2))) :=
  (val18_keep V main_v50 (by decide)).trans (val17_main_v50 V)
set_option maxRecDepth 8192 in
set_option maxHeartbeats 2000000 in
theorem val18_main_v61 (V : Valuation τ sig (Elt F)) : val18 V (no_index (Proc.devRef .tc main_v61)) = broadcastInDim S16384x1 ![0] bcast_S16384_S16384x1_0 (select (cmpi .slt (flatE ((V (Proc.devRef .tc main_arg1)))) (broadcastInDim S16384 ![] bcast_S_S16384 (constantI S_ 32 0#32))) (addi (flatE ((V (Proc.devRef .tc main_arg1)))) (broadcastInDim S16384 ![] bcast_S_S16384 (constantI S_ 32 64#32))) (flatE ((V (Proc.devRef .tc main_arg1))))) := by
  unfold val18
  after_results_simp
  all_goals (try simp only [val17_main_v0])
  all_goals rfl
set_option maxRecDepth 8192 in
set_option maxHeartbeats 2000000 in
theorem val18_main_v62 (V : Valuation τ sig (Elt F)) : val18 V (no_index (Proc.devRef .tc main_v62)) = broadcastInDim S16384x1 ![0] bcast_S16384_S16384x1_0 (select (cmpi .slt (slotV ((V (Proc.devRef .tc main_arg1)))) (broadcastInDim S16384 ![] bcast_S_S16384 (constantI S_ 32 0#32))) (addi (slotV ((V (Proc.devRef .tc main_arg1)))) (broadcastInDim S16384 ![] bcast_S_S16384 (constantI S_ 32 513#32))) (slotV ((V (Proc.devRef .tc main_arg1))))) := by
  unfold val18
  after_results_simp
  all_goals (try simp only [val17_main_v19])
  all_goals rfl

/-- The device's buffer contents after the first 19 windows. -/
def val19 (V : Valuation τ sig (Elt F)) : Valuation τ sig (Elt F) := after ops19 (val18 V)
/-- The buffers window 19 writes. -/
abbrev ops19_W : List (Ref sig .tc) := [main_v63]
theorem ops19_writes : (ops19 : List (HloOp τ sig (Elt F))).Forall fun op => op.writes ⊆ (ops19_W.map (Proc.devRef (τ := τ) .tc)).toFinset :=
  Finset.singleton_subset_iff.mpr (List.mem_toFinset.mpr (List.mem_map_of_mem (by decide)))
/-- A buffer window 19 does not write keeps its contents through it. -/
theorem val19_keep (V : Valuation τ sig (Elt F)) (r : Ref sig .tc) (h : r ∉ ops19_W) :
    val19 V (Proc.devRef .tc r) = val18 V (Proc.devRef .tc r) :=
  after_of_writes_sub ops19 _ ops19_writes h
theorem val19_main_v3 (V : Valuation τ sig (Elt F)) : val19 V (no_index (Proc.devRef .tc main_v3)) = shapeCast S16384 (broadcastInDim S4096x4 ![0] bcast_S4096_S4096x4_0 (iotaInDim S4096 32 0)) shapeCasts_S4096x4_S16384 :=
  (val19_keep V main_v3 (by decide)).trans (val18_main_v3 V)
theorem val19_main_v47 (V : Valuation τ sig (Elt F)) : val19 V (no_index (Proc.devRef .tc main_v47)) = yR (bufR ((V (Proc.devRef .tc main_arg0))) ((V (Proc.devRef .tc main_arg1)))) ((V (Proc.devRef .tc main_arg3))) ((V (Proc.devRef .tc main_arg4))) :=
  (val19_keep V main_v47 (by decide)).trans (val18_main_v47 V)
theorem val19_main_v50 (V : Valuation τ sig (Elt F)) : val19 V (no_index (Proc.devRef .tc main_v50)) = coefR ((V (Proc.devRef .tc main_arg1))) ((V (Proc.devRef .tc main_arg2))) :=
  (val19_keep V main_v50 (by decide)).trans (val18_main_v50 V)
theorem val19_main_v63 (V : Valuation τ sig (Elt F)) : val19 V (no_index (Proc.devRef .tc main_v63)) = scatIdx ((V (Proc.devRef .tc main_arg1))) := by
  unfold val19
  simp only [after_cons, after_nil]
  rw [binary_result]
  rw [val18_main_v62 V, val18_main_v61 V]
  unfold scatIdx
  rfl

/-- The device's buffer contents after the first 20 windows. -/
def val20 (V : Valuation τ sig (Elt F)) : Valuation τ sig (Elt F) := after ops20 (val19 V)
/-- The buffers window 20 writes. -/
abbrev ops20_W : List (Ref sig .tc) := [main_v64, main_v65, main_v66, main_v67]
theorem ops20_writes : (ops20 : List (HloOp τ sig (Elt F))).Forall fun op => op.writes ⊆ (ops20_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 20 does not write keeps its contents through it. -/
theorem val20_keep (V : Valuation τ sig (Elt F)) (r : Ref sig .tc) (h : r ∉ ops20_W) :
    val20 V (Proc.devRef .tc r) = val19 V (Proc.devRef .tc r) :=
  after_of_writes_sub ops20 _ ops20_writes h
theorem val20_main_v3 (V : Valuation τ sig (Elt F)) : val20 V (no_index (Proc.devRef .tc main_v3)) = shapeCast S16384 (broadcastInDim S4096x4 ![0] bcast_S4096_S4096x4_0 (iotaInDim S4096 32 0)) shapeCasts_S4096x4_S16384 :=
  (val20_keep V main_v3 (by decide)).trans (val19_main_v3 V)
set_option maxRecDepth 8192 in
set_option maxHeartbeats 2000000 in
theorem val20_main_v67 (V : Valuation τ sig (Elt F)) : val20 V (no_index (Proc.devRef .tc main_v67)) = updR (yR (bufR ((V (Proc.devRef .tc main_arg0))) ((V (Proc.devRef .tc main_arg1)))) ((V (Proc.devRef .tc main_arg3))) ((V (Proc.devRef .tc main_arg4)))) ((V (Proc.devRef .tc main_arg1))) ((V (Proc.devRef .tc main_arg2))) := by
  unfold val20
  after_results_simp
  all_goals (try simp only [val19_main_v50, val19_main_v63, val19_main_v47])
  all_goals (try unfold updR)
  all_goals rfl

/-- The device's buffer contents after the first 21 windows. -/
def val21 (V : Valuation τ sig (Elt F)) : Valuation τ sig (Elt F) := after ops21 (val20 V)
/-- The buffers window 21 writes. -/
abbrev ops21_W : List (Ref sig .tc) := [main_cst_12, main_v68, main_c_13, main_v69, main_v70, main_c_14, main_v71, main_v72, main_v73, main_v74]
theorem ops21_writes : (ops21 : List (HloOp τ sig (Elt F))).Forall fun op => op.writes ⊆ (ops21_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 21 does not write keeps its contents through it. -/
theorem val21_keep (V : Valuation τ sig (Elt F)) (r : Ref sig .tc) (h : r ∉ ops21_W) :
    val21 V (Proc.devRef .tc r) = val20 V (Proc.devRef .tc r) :=
  after_of_writes_sub ops21 _ ops21_writes h
theorem val21_main_v67 (V : Valuation τ sig (Elt F)) : val21 V (no_index (Proc.devRef .tc main_v67)) = updR (yR (bufR ((V (Proc.devRef .tc main_arg0))) ((V (Proc.devRef .tc main_arg1)))) ((V (Proc.devRef .tc main_arg3))) ((V (Proc.devRef .tc main_arg4)))) ((V (Proc.devRef .tc main_arg1))) ((V (Proc.devRef .tc main_arg2))) :=
  (val21_keep V main_v67 (by decide)).trans (val20_main_v67 V)
set_option maxRecDepth 8192 in
set_option maxHeartbeats 2000000 in
theorem val21_main_v68 (V : Valuation τ sig (Elt F)) : val21 V (no_index (Proc.devRef .tc main_v68)) = broadcastInDim S4096x1024 ![] bcast_S_S4096x1024 (constant S_ .f32 0x00000000#32) := by
  unfold val21
  after_results_simp
  all_goals rfl
set_option maxRecDepth 8192 in
set_option maxHeartbeats 2000000 in
theorem val21_main_v74 (V : Valuation τ sig (Elt F)) : val21 V (no_index (Proc.devRef .tc main_v74)) = broadcastInDim S16384x1 ![0] bcast_S16384_S16384x1_0 (tokV (F := F)) := by
  unfold val21
  after_results_simp
  all_goals (try simp only [val20_main_v3])
  all_goals (try unfold tokV)
  all_goals rfl

/-- The device's buffer contents after the first 22 windows. -/
def val22 (V : Valuation τ sig (Elt F)) : Valuation τ sig (Elt F) := after ops22 (val21 V)
/-- The buffers window 22 writes. -/
abbrev ops22_W : List (Ref sig .tc) := [main_v75]
theorem ops22_writes : (ops22 : List (HloOp τ sig (Elt F))).Forall fun op => op.writes ⊆ (ops22_W.map (Proc.devRef (τ := τ) .tc)).toFinset :=
  Finset.singleton_subset_iff.mpr (List.mem_toFinset.mpr (List.mem_map_of_mem (by decide)))
/-- A buffer window 22 does not write keeps its contents through it. -/
theorem val22_keep (V : Valuation τ sig (Elt F)) (r : Ref sig .tc) (h : r ∉ ops22_W) :
    val22 V (Proc.devRef .tc r) = val21 V (Proc.devRef .tc r) :=
  after_of_writes_sub ops22 _ ops22_writes h
set_option maxRecDepth 8192 in
set_option maxHeartbeats 2000000 in
theorem val22_main_v75 (V : Valuation τ sig (Elt F)) : val22 V (no_index (Proc.devRef .tc main_v75)) = outR ((V (Proc.devRef .tc main_arg0))) ((V (Proc.devRef .tc main_arg1))) ((V (Proc.devRef .tc main_arg2))) ((V (Proc.devRef .tc main_arg3))) ((V (Proc.devRef .tc main_arg4))) := by
  unfold val22
  after_results_simp
  all_goals (try simp only [val21_main_v67, val21_main_v74, val21_main_v68])
  all_goals (try unfold outR)
  all_goals rfl

/-! ## The fold of the operations at the result and at the arguments -/

theorem res_eq (V : Valuation τ sig (Elt F)) :
    after ops V (main_v75 : DevRef τ sig)
      = outR (V (main_arg0 : DevRef τ sig)) (V (main_arg1 : DevRef τ sig)) (V (main_arg2 : DevRef τ sig)) (V (main_arg3 : DevRef τ sig)) (V (main_arg4 : DevRef τ sig)) := by
  have hfold : after ops V = val22 V := by
    rw [ops_windows]
    simp only [after_append']
    rfl
  rw [hfold]
  exact val22_main_v75 V

theorem arg0_eq (V : Valuation τ sig (Elt F)) :
    after ops V (main_arg0 : DevRef τ sig) = V (main_arg0 : DevRef τ sig) := by
  have hfold : after ops V = val22 V := by
    rw [ops_windows]
    simp only [after_append']
    rfl
  rw [hfold]
  exact (val22_keep V main_arg0 (by decide)).trans ((val21_keep V main_arg0 (by decide)).trans ((val20_keep V main_arg0 (by decide)).trans ((val19_keep V main_arg0 (by decide)).trans ((val18_keep V main_arg0 (by decide)).trans ((val17_keep V main_arg0 (by decide)).trans ((val16_keep V main_arg0 (by decide)).trans ((val15_keep V main_arg0 (by decide)).trans ((val14_keep V main_arg0 (by decide)).trans ((val13_keep V main_arg0 (by decide)).trans ((val12_keep V main_arg0 (by decide)).trans ((val11_keep V main_arg0 (by decide)).trans ((val10_keep V main_arg0 (by decide)).trans ((val9_keep V main_arg0 (by decide)).trans ((val8_keep V main_arg0 (by decide)).trans ((val7_keep V main_arg0 (by decide)).trans ((val6_keep V main_arg0 (by decide)).trans ((val5_keep V main_arg0 (by decide)).trans ((val4_keep V main_arg0 (by decide)).trans ((val3_keep V main_arg0 (by decide)).trans ((val2_keep V main_arg0 (by decide)).trans ((val1_keep V main_arg0 (by decide)))))))))))))))))))))))

theorem arg1_eq (V : Valuation τ sig (Elt F)) :
    after ops V (main_arg1 : DevRef τ sig) = V (main_arg1 : DevRef τ sig) := by
  have hfold : after ops V = val22 V := by
    rw [ops_windows]
    simp only [after_append']
    rfl
  rw [hfold]
  exact (val22_keep V main_arg1 (by decide)).trans ((val21_keep V main_arg1 (by decide)).trans ((val20_keep V main_arg1 (by decide)).trans ((val19_keep V main_arg1 (by decide)).trans ((val18_keep V main_arg1 (by decide)).trans ((val17_keep V main_arg1 (by decide)).trans ((val16_keep V main_arg1 (by decide)).trans ((val15_keep V main_arg1 (by decide)).trans ((val14_keep V main_arg1 (by decide)).trans ((val13_keep V main_arg1 (by decide)).trans ((val12_keep V main_arg1 (by decide)).trans ((val11_keep V main_arg1 (by decide)).trans ((val10_keep V main_arg1 (by decide)).trans ((val9_keep V main_arg1 (by decide)).trans ((val8_keep V main_arg1 (by decide)).trans ((val7_keep V main_arg1 (by decide)).trans ((val6_keep V main_arg1 (by decide)).trans ((val5_keep V main_arg1 (by decide)).trans ((val4_keep V main_arg1 (by decide)).trans ((val3_keep V main_arg1 (by decide)).trans ((val2_keep V main_arg1 (by decide)).trans ((val1_keep V main_arg1 (by decide)))))))))))))))))))))))

theorem arg2_eq (V : Valuation τ sig (Elt F)) :
    after ops V (main_arg2 : DevRef τ sig) = V (main_arg2 : DevRef τ sig) := by
  have hfold : after ops V = val22 V := by
    rw [ops_windows]
    simp only [after_append']
    rfl
  rw [hfold]
  exact (val22_keep V main_arg2 (by decide)).trans ((val21_keep V main_arg2 (by decide)).trans ((val20_keep V main_arg2 (by decide)).trans ((val19_keep V main_arg2 (by decide)).trans ((val18_keep V main_arg2 (by decide)).trans ((val17_keep V main_arg2 (by decide)).trans ((val16_keep V main_arg2 (by decide)).trans ((val15_keep V main_arg2 (by decide)).trans ((val14_keep V main_arg2 (by decide)).trans ((val13_keep V main_arg2 (by decide)).trans ((val12_keep V main_arg2 (by decide)).trans ((val11_keep V main_arg2 (by decide)).trans ((val10_keep V main_arg2 (by decide)).trans ((val9_keep V main_arg2 (by decide)).trans ((val8_keep V main_arg2 (by decide)).trans ((val7_keep V main_arg2 (by decide)).trans ((val6_keep V main_arg2 (by decide)).trans ((val5_keep V main_arg2 (by decide)).trans ((val4_keep V main_arg2 (by decide)).trans ((val3_keep V main_arg2 (by decide)).trans ((val2_keep V main_arg2 (by decide)).trans ((val1_keep V main_arg2 (by decide)))))))))))))))))))))))

theorem arg3_eq (V : Valuation τ sig (Elt F)) :
    after ops V (main_arg3 : DevRef τ sig) = V (main_arg3 : DevRef τ sig) := by
  have hfold : after ops V = val22 V := by
    rw [ops_windows]
    simp only [after_append']
    rfl
  rw [hfold]
  exact (val22_keep V main_arg3 (by decide)).trans ((val21_keep V main_arg3 (by decide)).trans ((val20_keep V main_arg3 (by decide)).trans ((val19_keep V main_arg3 (by decide)).trans ((val18_keep V main_arg3 (by decide)).trans ((val17_keep V main_arg3 (by decide)).trans ((val16_keep V main_arg3 (by decide)).trans ((val15_keep V main_arg3 (by decide)).trans ((val14_keep V main_arg3 (by decide)).trans ((val13_keep V main_arg3 (by decide)).trans ((val12_keep V main_arg3 (by decide)).trans ((val11_keep V main_arg3 (by decide)).trans ((val10_keep V main_arg3 (by decide)).trans ((val9_keep V main_arg3 (by decide)).trans ((val8_keep V main_arg3 (by decide)).trans ((val7_keep V main_arg3 (by decide)).trans ((val6_keep V main_arg3 (by decide)).trans ((val5_keep V main_arg3 (by decide)).trans ((val4_keep V main_arg3 (by decide)).trans ((val3_keep V main_arg3 (by decide)).trans ((val2_keep V main_arg3 (by decide)).trans ((val1_keep V main_arg3 (by decide)))))))))))))))))))))))

theorem arg4_eq (V : Valuation τ sig (Elt F)) :
    after ops V (main_arg4 : DevRef τ sig) = V (main_arg4 : DevRef τ sig) := by
  have hfold : after ops V = val22 V := by
    rw [ops_windows]
    simp only [after_append']
    rfl
  rw [hfold]
  exact (val22_keep V main_arg4 (by decide)).trans ((val21_keep V main_arg4 (by decide)).trans ((val20_keep V main_arg4 (by decide)).trans ((val19_keep V main_arg4 (by decide)).trans ((val18_keep V main_arg4 (by decide)).trans ((val17_keep V main_arg4 (by decide)).trans ((val16_keep V main_arg4 (by decide)).trans ((val15_keep V main_arg4 (by decide)).trans ((val14_keep V main_arg4 (by decide)).trans ((val13_keep V main_arg4 (by decide)).trans ((val12_keep V main_arg4 (by decide)).trans ((val11_keep V main_arg4 (by decide)).trans ((val10_keep V main_arg4 (by decide)).trans ((val9_keep V main_arg4 (by decide)).trans ((val8_keep V main_arg4 (by decide)).trans ((val7_keep V main_arg4 (by decide)).trans ((val6_keep V main_arg4 (by decide)).trans ((val5_keep V main_arg4 (by decide)).trans ((val4_keep V main_arg4 (by decide)).trans ((val3_keep V main_arg4 (by decide)).trans ((val2_keep V main_arg4 (by decide)).trans ((val1_keep V main_arg4 (by decide)))))))))))))))))))))))

/-- On every device, for any float values, from any memory with zero counters: every weakly fair execution of `@main`
    terminates with the result buffer at `outR` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75) = outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v75).trans (res_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_main m ρ)

end Cert.ReferenceIdeal.RefTerm

end
-- ==== Proof.KerPre.lean ====
import proofs.«174603_j78443282694942_2_alg».proof.Proof.Gen.KernelIdeal.Launch
import Idealize.ShloMosaic.Lib.StableHlo.Run
import proofs.«174603_j78443282694942_2_alg».proof.Proof.RefTerm

/-!
  The kernel program's host operations before its region, read as terms of the argument contents. `pre` is the seven
  stretches of operations in order; the stages are the compositions of the operations that compute one buffer each,
  over the buffers they read — the integer routing chain (the flat expert table, its one-hot, the running count, each
  entry's position within its expert, the validity, the slot, the [16384,2] index table), the activations' rows
  repeated and narrowed to bf16, and the dispatch buffer scattered from them. `pre_v35`, `pre_v0`, `pre_v15`, `pre_v16`
  read the fold of `pre` from any contents at those buffers; `pre_arg2` that no operation writes the third argument.
-/

noncomputable section

namespace Cert.KernelIdeal.KerPre

open Cert.KernelIdeal Cert.KernelIdeal.Gen Idealize.ShloMosaic Idealize.ShloMosaic.TcCoe Idealize.SL.Sem Idealize.ShloMosaic.StableHlo

variable {F : FTy → Type} [FloatOps F]

/-! ## The stages -/

/-- The expert table flattened: the [4096,4] table read row-major as 16384 entries. -/
noncomputable def flatEK (a1 : (⟨S4096x4, .i32⟩ : BufTy).Contents (Elt F)) :
    (⟨S16384, .i32⟩ : BufTy).Contents (Elt F) :=
  shapeCast S16384 a1 shapeCasts_S4096x4_S16384

/-- The one-hot of the flat expert table against the 64 expert numbers, widened to 32 bits. -/
noncomputable def onehotK (a1 : (⟨S4096x4, .i32⟩ : BufTy).Contents (Elt F)) :
    (⟨S16384x64, .i32⟩ : BufTy).Contents (Elt F) :=
  extui 32 (cmpi .eq (broadcastInDim S16384x64 ![0, 1] bcast_S16384x1_S16384x64_0_1 (broadcastInDim S16384x1 ![0] bcast_S16384_S16384x1_0 (flatEK a1))) (broadcastInDim S16384x64 ![0, 1] bcast_S1x64_S16384x64_0_1 (broadcastInDim S1x64 ![1] bcast_S64_S1x64_1 (iotaInDim S64 32 0)))) natLt_1_32

/-- The running count down the 16384 entries of each expert's one-hot column: a windowed sum of window 16384 padded 16383 above. -/
noncomputable def csumK (a1 : (⟨S4096x4, .i32⟩ : BufTy).Contents (Elt F)) :
    (⟨S16384x64, .i32⟩ : BufTy).Contents (Elt F) :=
  Host.reduceWindow IntOp.addi ![16384, 1] ![1, 1] ![16383, 0] ![0, 0] (onehotK a1) (broadcastInDim S_ ![] bcast_S_S_ (constantI S_ 32 0#32)) reduceWindows_S16384x64_S16384x64_w16384s1p16383_0_w1s1p0_0 h_S_

/-- The column index of the take-along-axis: the flat expert number as a [16384,1] column, a negative one wrapped by 64, reshaped to [16384,1,1]. -/
noncomputable def takeIdxK (a1 : (⟨S4096x4, .i32⟩ : BufTy).Contents (Elt F)) :
    (⟨S16384x1x1, .i32⟩ : BufTy).Contents (Elt F) :=
  shapeCast S16384x1x1 (select (cmpi .slt (broadcastInDim S16384x1 ![0] bcast_S16384_S16384x1_0 (flatEK a1)) (broadcastInDim S16384x1 ![] bcast_S_S16384x1 (constantI S_ 32 0#32))) (addi (broadcastInDim S16384x1 ![0] bcast_S16384_S16384x1_0 (flatEK a1)) (broadcastInDim S16384x1 ![] bcast_S_S16384x1 (constantI S_ 32 64#32))) (broadcastInDim S16384x1 ![0] bcast_S16384_S16384x1_0 (flatEK a1))) shapeCasts_S16384x1_S16384x1x1

/-- The take-along-axis: each entry's running count at its own expert, where the index is within 0…63 (elsewhere the least 32-bit value). -/
noncomputable def takeVK (a1 : (⟨S4096x4, .i32⟩ : BufTy).Contents (Elt F)) :
    (⟨S16384x1, .i32⟩ : BufTy).Contents (Elt F) :=
  select (Host.reduce IntOp.andi (andi (cmpi .sge (takeIdxK a1) (broadcastInDim S16384x1x1 ![] bcast_S_S16384x1x1 (constantI S_ 32 0#32))) (cmpi .sle (takeIdxK a1) (broadcastInDim S16384x1x1 ![0, 1, 2] bcast_S1x1x1_S16384x1x1_0_1_2 (broadcastInDim S1x1x1 ![2] bcast_S1_S1x1x1_2 (constantI S1 32 63#32))))) (constantI S_ 1 1#1) reducesTo_S16384x1x1_S16384x1_d2 h_S_) (Host.gather gather_S16384x64_S16384x1x1_S16384x1_n_1_0_0_1_2_11 (csumK a1) (takeIdxK a1)) (broadcastInDim S16384x1 ![] bcast_S_S16384x1 (constantI S_ 32 2147483648#32))

/-- Each entry's position within its expert: its running count at its own expert, less one. -/
noncomputable def posVK (a1 : (⟨S4096x4, .i32⟩ : BufTy).Contents (Elt F)) :
    (⟨S16384, .i32⟩ : BufTy).Contents (Elt F) :=
  subi (shapeCast S16384 (takeVK a1) shapeCasts_S16384x1_S16384) (broadcastInDim S16384 ![] bcast_S_S16384 (constantI S_ 32 1#32))

/-- Whether the position is below the capacity 512. -/
noncomputable def validK (a1 : (⟨S4096x4, .i32⟩ : BufTy).Contents (Elt F)) :
    (⟨S16384, .i1⟩ : BufTy).Contents (Elt F) :=
  cmpi .slt (posVK a1) (broadcastInDim S16384 ![] bcast_S_S16384 (constantI S_ 32 512#32))

/-- The slot: the position where valid, else 512. -/
noncomputable def slotK (a1 : (⟨S4096x4, .i32⟩ : BufTy).Contents (Elt F)) :
    (⟨S16384, .i32⟩ : BufTy).Contents (Elt F) :=
  select (validK a1) (posVK a1) (broadcastInDim S16384 ![] bcast_S_S16384 (id (constantI S_ 32 512#32)))

/-- The [16384,2] index table: the expert number (a negative one wrapped by 64) beside the slot (a negative one wrapped by 513). -/
noncomputable def scatIdxK (a1 : (⟨S4096x4, .i32⟩ : BufTy).Contents (Elt F)) :
    (⟨S16384x2, .i32⟩ : BufTy).Contents (Elt F) :=
  concatenate S16384x2 1 [⟨S16384x1, (broadcastInDim S16384x1 ![0] bcast_S16384_S16384x1_0 (select (cmpi .slt (flatEK a1) (broadcastInDim S16384 ![] bcast_S_S16384 (constantI S_ 32 0#32))) (addi (flatEK a1) (broadcastInDim S16384 ![] bcast_S_S16384 (constantI S_ 32 64#32))) (flatEK a1)))⟩, ⟨S16384x1, (broadcastInDim S16384x1 ![0] bcast_S16384_S16384x1_0 (select (cmpi .slt (slotK a1) (broadcastInDim S16384 ![] bcast_S_S16384 (constantI S_ 32 0#32))) (addi (slotK a1) (broadcastInDim S16384 ![] bcast_S_S16384 (constantI S_ 32 513#32))) (slotK a1)))⟩] concatenates_S16384x1_S16384x1_S16384x2_d1

/-- Each entry's token row of the activations, narrowed to bf16: every row repeated four times in place (a broadcast along a new middle axis, flattened). -/
noncomputable def xpairK (a0 : (⟨S4096x1024, .f32⟩ : BufTy).Contents (Elt F)) :
    (⟨S16384x1024, .bf16⟩ : BufTy).Contents (Elt F) :=
  truncf .bf16 (shapeCast S16384x1024 (broadcastInDim S4096x4x1024 ![0, 1, 2] bcast_S4096x1x1024_S4096x4x1024_0_1_2 (broadcastInDim S4096x1x1024 ![0, 2] bcast_S4096x1024_S4096x1x1024_0_2 a0)) shapeCasts_S4096x4x1024_S16384x1024) bitsLt_bf16_f32

/-- The dispatch buffer: bf16 zeros of [64,513,1024] with each entry's token row written at its (expert, slot). -/
noncomputable def bufK (a0 : (⟨S4096x1024, .f32⟩ : BufTy).Contents (Elt F)) (a1 : (⟨S4096x4, .i32⟩ : BufTy).Contents (Elt F)) :
    (⟨S64x513x1024, .bf16⟩ : BufTy).Contents (Elt F) :=
  Host.scatter scatter_S64x513x1024_S16384x2_S16384x1024_1_01_01_1 (fun _ b => b) (broadcastInDim S64x513x1024 ![] bcast_S_S64x513x1024 (constant S_ .bf16 0x0000#16)) (scatIdxK a1) (xpairK a0)

/-- The host operations before the region, in order. -/
abbrev pre : List (HloOp τ sig (Elt F)) := List.flatten [hostOps0, hostOps0_1, hostOps0_2, hostOps0_3, hostOps0_4, hostOps0_5, hostOps0_6]

/-! ## The fold, window by window

The 69 operations are read in 12 consecutive windows, cut where a stage's buffer is complete (the concatenation
alone in its window). `valK W` is the contents after the first K windows from contents `W`; for every buffer written
by then and read later, `valK_‹buffer›` states its contents as the stages' term of the arguments' contents: a buffer
the window writes by unfolding the window's operations at it and rewriting the buffers it reads by the previous
window's lemmas, any other by the window's frame (`valK_keep`: a reference outside the window's written list keeps
its contents). -/

-- while the windows are read, a stage is opened only where its own buffer is written (`unfold`), and the folds and
-- searches inside the gather, the scatter, the reduction and the windowed sum are never opened: the equations are
-- between the same operations applied to the same operands
attribute [local irreducible] flatEK onehotK csumK takeIdxK takeVK posVK validK slotK scatIdxK xpairK bufK
attribute [local irreducible] Host.reduce Host.gather Host.scatter Host.reduceWindow concatenate

/-- The fold over a concatenation is the folds in turn. -/
theorem after_append' : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_append' l₁ l₂]

/-- Operations 1 … 1 of the 69. -/
abbrev ops1 : List (HloOp τ sig (Elt F)) :=
  [ StableHlo.reshape main_arg1 main_v0 rfl shapeCasts_S4096x4_S16384 ]

/-- Operations 2 … 8 of the 69. -/
abbrev ops2 : List (HloOp τ sig (Elt F)) :=
  [ StableHlo.unary main_v0 main_v1 (broadcastInDim S16384x1 ![0] bcast_S16384_S16384x1_0 : (⟨S16384, .i32⟩ : BufTy).Contents (Elt F) → (⟨S16384x1, .i32⟩ : BufTy).Contents (Elt F)),
    StableHlo.nullary main_v2 (iotaInDim S64 32 0),
    StableHlo.unary main_v2 main_v3 (broadcastInDim S1x64 ![1] bcast_S64_S1x64_1 : (⟨S64, .i32⟩ : BufTy).Contents (Elt F) → (⟨S1x64, .i32⟩ : BufTy).Contents (Elt F)),
    StableHlo.unary main_v1 main_v4 (broadcastInDim S16384x64 ![0, 1] bcast_S16384x1_S16384x64_0_1 : (⟨S16384x1, .i32⟩ : BufTy).Contents (Elt F) → (⟨S16384x64, .i32⟩ : BufTy).Contents (Elt F)),
    StableHlo.unary main_v3 main_v5 (broadcastInDim S16384x64 ![0, 1] bcast_S1x64_S16384x64_0_1 : (⟨S1x64, .i32⟩ : BufTy).Contents (Elt F) → (⟨S16384x64, .i32⟩ : BufTy).Contents (Elt F)),
    StableHlo.binary main_v4 main_v5 main_v6 (cmpi .eq : (⟨S16384x64, .i32⟩ : BufTy).Contents (Elt F) → (⟨S16384x64, .i32⟩ : BufTy).Contents (Elt F) → (⟨S16384x64, .i1⟩ : BufTy).Contents (Elt F)),
    StableHlo.unary main_v6 main_v7 ((extui 32 · natLt_1_32) : (⟨S16384x64, .i1⟩ : BufTy).Contents (Elt F) → (⟨S16384x64, .i32⟩ : BufTy).Contents (Elt F)) ]

/-- Operations 9 … 11 of the 69. -/
abbrev ops3 : List (HloOp τ sig (Elt F)) :=
  [ StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_v7 : StableHlo.TRef sig ⟨S16384x64, .i32⟩) (.of main_call0_call0_v0 : StableHlo.TRef sig ⟨S_, .i32⟩) (.of main_v8 : StableHlo.TRef sig ⟨S16384x64, .i32⟩) (fun x v => Host.reduceWindow IntOp.addi ![16384, 1] ![1, 1] ![16383, 0] ![0, 0] x v reduceWindows_S16384x64_S16384x64_w16384s1p16383_0_w1s1p0_0 h_S_) ]

/-- Operations 12 … 20 of the 69. -/
abbrev ops4 : List (HloOp τ sig (Elt F)) :=
  [ StableHlo.unary main_v0 main_v9 (broadcastInDim S16384x1 ![0] bcast_S16384_S16384x1_0 : (⟨S16384, .i32⟩ : BufTy).Contents (Elt F) → (⟨S16384x1, .i32⟩ : BufTy).Contents (Elt F)),
    StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S16384x1, .i32⟩) (broadcastInDim S16384x1 ![] bcast_S_S16384x1),
    StableHlo.TRef.binary (.of main_v9 : StableHlo.TRef sig ⟨S16384x1, .i32⟩) (.of main_call1_v0 : StableHlo.TRef sig ⟨S16384x1, .i32⟩) (.of main_call1_v1 : StableHlo.TRef sig ⟨S16384x1, .i1⟩) (cmpi .slt),
    StableHlo.TRef.nullary (.of main_call1_c_0 : StableHlo.TRef sig ⟨S_, .i32⟩) (constantI S_ 32 64#32),
    StableHlo.TRef.unary (.of main_call1_c_0 : StableHlo.TRef sig ⟨S_, .i32⟩) (.of main_call1_v2 : StableHlo.TRef sig ⟨S16384x1, .i32⟩) (broadcastInDim S16384x1 ![] bcast_S_S16384x1),
    StableHlo.TRef.binary (.of main_v9 : StableHlo.TRef sig ⟨S16384x1, .i32⟩) (.of main_call1_v2 : StableHlo.TRef sig ⟨S16384x1, .i32⟩) (.of main_call1_v3 : StableHlo.TRef sig ⟨S16384x1, .i32⟩) addi,
    StableHlo.TRef.ternary (.of main_call1_v1 : StableHlo.TRef sig ⟨S16384x1, .i1⟩) (.of main_call1_v3 : StableHlo.TRef sig ⟨S16384x1, .i32⟩) (.of main_v9 : StableHlo.TRef sig ⟨S16384x1, .i32⟩) (.of main_call1_v4 : StableHlo.TRef sig ⟨S16384x1, .i32⟩) select,
    StableHlo.TRef.reshape (.of main_call1_v4 : StableHlo.TRef sig ⟨S16384x1, .i32⟩) (.of main_call1_v5 : StableHlo.TRef sig ⟨S16384x1x1, .i32⟩) rfl shapeCasts_S16384x1_S16384x1x1 ]

/-- Operations 21 … 34 of the 69. -/
abbrev ops5 : List (HloOp τ sig (Elt F)) :=
  [ StableHlo.TRef.nullary (.of main_call1_c_1 : StableHlo.TRef sig ⟨S1, .i32⟩) (constantI S1 32 63#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S16384x1x1, .i32⟩) (broadcastInDim S16384x1x1 ![] bcast_S_S16384x1x1),
    StableHlo.TRef.binary (.of main_call1_v5 : StableHlo.TRef sig ⟨S16384x1x1, .i32⟩) (.of main_call1_v6 : StableHlo.TRef sig ⟨S16384x1x1, .i32⟩) (.of main_call1_v7 : StableHlo.TRef sig ⟨S16384x1x1, .i1⟩) (cmpi .sge),
    StableHlo.TRef.unary (.of main_call1_c_1 : StableHlo.TRef sig ⟨S1, .i32⟩) (.of main_call1_v8 : StableHlo.TRef sig ⟨S1x1x1, .i32⟩) (broadcastInDim S1x1x1 ![2] bcast_S1_S1x1x1_2),
    StableHlo.TRef.unary (.of main_call1_v8 : StableHlo.TRef sig ⟨S1x1x1, .i32⟩) (.of main_call1_v9 : StableHlo.TRef sig ⟨S16384x1x1, .i32⟩) (broadcastInDim S16384x1x1 ![0, 1, 2] bcast_S1x1x1_S16384x1x1_0_1_2),
    StableHlo.TRef.binary (.of main_call1_v5 : StableHlo.TRef sig ⟨S16384x1x1, .i32⟩) (.of main_call1_v9 : StableHlo.TRef sig ⟨S16384x1x1, .i32⟩) (.of main_call1_v10 : StableHlo.TRef sig ⟨S16384x1x1, .i1⟩) (cmpi .sle),
    StableHlo.TRef.binary (.of main_call1_v7 : StableHlo.TRef sig ⟨S16384x1x1, .i1⟩) (.of main_call1_v10 : StableHlo.TRef sig ⟨S16384x1x1, .i1⟩) (.of main_call1_v11 : StableHlo.TRef sig ⟨S16384x1x1, .i1⟩) andi,
    StableHlo.TRef.nullary (.of main_call1_c_3 : StableHlo.TRef sig ⟨S_, .i1⟩) (constantI S_ 1 1#1),
    StableHlo.TRef.binary (.of main_call1_v11 : StableHlo.TRef sig ⟨S16384x1x1, .i1⟩) (.of main_call1_c_3 : StableHlo.TRef sig ⟨S_, .i1⟩) (.of main_call1_v12 : StableHlo.TRef sig ⟨S16384x1, .i1⟩) (fun x v => Host.reduce IntOp.andi x v reducesTo_S16384x1x1_S16384x1_d2 h_S_),
    StableHlo.TRef.binary (.of main_v8 : StableHlo.TRef sig ⟨S16384x64, .i32⟩) (.of main_call1_v5 : StableHlo.TRef sig ⟨S16384x1x1, .i32⟩) (.of main_call1_v13 : StableHlo.TRef sig ⟨S16384x1, .i32⟩) (fun x i => Host.gather gather_S16384x64_S16384x1x1_S16384x1_n_1_0_0_1_2_11 x i),
    StableHlo.TRef.nullary (.of main_call1_c_4 : StableHlo.TRef sig ⟨S_, .i32⟩) (constantI S_ 32 2147483648#32),
    StableHlo.TRef.unary (.of main_call1_c_4 : StableHlo.TRef sig ⟨S_, .i32⟩) (.of main_call1_v14 : StableHlo.TRef sig ⟨S16384x1, .i32⟩) (broadcastInDim S16384x1 ![] bcast_S_S16384x1),
    StableHlo.TRef.ternary (.of main_call1_v12 : StableHlo.TRef sig ⟨S16384x1, .i1⟩) (.of main_call1_v13 : StableHlo.TRef sig ⟨S16384x1, .i32⟩) (.of main_call1_v14 : StableHlo.TRef sig ⟨S16384x1, .i32⟩) (.of main_v10 : StableHlo.TRef sig ⟨S16384x1, .i32⟩) select ]

/-- Operations 35 … 38 of the 69. -/
abbrev ops6 : List (HloOp τ sig (Elt F)) :=
  [ StableHlo.reshape main_v10 main_v11 rfl shapeCasts_S16384x1_S16384,
    StableHlo.nullary main_c (constantI S_ 32 1#32),
    StableHlo.unary main_c main_v12 (broadcastInDim S16384 ![] bcast_S_S16384 : (⟨S_, .i32⟩ : BufTy).Contents (Elt F) → (⟨S16384, .i32⟩ : BufTy).Contents (Elt F)),
    StableHlo.binary main_v11 main_v12 main_v13 (subi : (⟨S16384, .i32⟩ : BufTy).Contents (Elt F) → (⟨S16384, .i32⟩ : BufTy).Contents (Elt F) → (⟨S16384, .i32⟩ : BufTy).Contents (Elt F)) ]

/-- Operations 39 … 41 of the 69. -/
abbrev ops7 : List (HloOp τ sig (Elt F)) :=
  [ StableHlo.nullary main_c_0 (constantI S_ 32 512#32),
    StableHlo.unary main_c_0 main_v14 (broadcastInDim S16384 ![] bcast_S_S16384 : (⟨S_, .i32⟩ : BufTy).Contents (Elt F) → (⟨S16384, .i32⟩ : BufTy).Contents (Elt F)),
    StableHlo.binary main_v13 main_v14 main_v15 (cmpi .slt : (⟨S16384, .i32⟩ : BufTy).Contents (Elt F) → (⟨S16384, .i32⟩ : BufTy).Contents (Elt F) → (⟨S16384, .i1⟩ : BufTy).Contents (Elt F)) ]

/-- Operations 42 … 45 of the 69. -/
abbrev ops8 : List (HloOp τ sig (Elt F)) :=
  [ StableHlo.nullary main_c_1 (constantI S_ 32 512#32),
    StableHlo.TRef.unary (.of main_c_1 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S16384, .i32⟩) (broadcastInDim S16384 ![] bcast_S_S16384),
    StableHlo.TRef.ternary (.of main_v15 : StableHlo.TRef sig ⟨S16384, .i1⟩) (.of main_v13 : StableHlo.TRef sig ⟨S16384, .i32⟩) (.of main_call2_v1 : StableHlo.TRef sig ⟨S16384, .i32⟩) (.of main_v16 : StableHlo.TRef sig ⟨S16384, .i32⟩) select ]

/-- Operations 46 … 49 of the 69. -/
abbrev ops9 : List (HloOp τ sig (Elt F)) :=
  [ StableHlo.unary main_arg0 main_v17 (broadcastInDim S4096x1x1024 ![0, 2] bcast_S4096x1024_S4096x1x1024_0_2 : (⟨S4096x1024, .f32⟩ : BufTy).Contents (Elt F) → (⟨S4096x1x1024, .f32⟩ : BufTy).Contents (Elt F)),
    StableHlo.unary main_v17 main_v18 (broadcastInDim S4096x4x1024 ![0, 1, 2] bcast_S4096x1x1024_S4096x4x1024_0_1_2 : (⟨S4096x1x1024, .f32⟩ : BufTy).Contents (Elt F) → (⟨S4096x4x1024, .f32⟩ : BufTy).Contents (Elt F)),
    StableHlo.reshape main_v18 main_v19 rfl shapeCasts_S4096x4x1024_S16384x1024,
    StableHlo.unary main_v19 main_v20 ((truncf .bf16 · bitsLt_bf16_f32) : (⟨S16384x1024, .f32⟩ : BufTy).Contents (Elt F) → (⟨S16384x1024, .bf16⟩ : BufTy).Contents (Elt F)) ]

/-- Operations 50 … 67 of the 69. -/
abbrev ops10 : List (HloOp τ sig (Elt F)) :=
  [ StableHlo.nullary main_cst (constant S_ .bf16 0x0000#16),
    StableHlo.unary main_cst main_v21 (broadcastInDim S64x513x1024 ![] bcast_S_S64x513x1024 : (⟨S_, .bf16⟩ : BufTy).Contents (Elt F) → (⟨S64x513x1024, .bf16⟩ : BufTy).Contents (Elt F)),
    StableHlo.nullary main_c_2 (constantI S_ 32 0#32),
    StableHlo.unary main_c_2 main_v22 (broadcastInDim S16384 ![] bcast_S_S16384 : (⟨S_, .i32⟩ : BufTy).Contents (Elt F) → (⟨S16384, .i32⟩ : BufTy).Contents (Elt F)),
    StableHlo.binary main_v0 main_v22 main_v23 (cmpi .slt : (⟨S16384, .i32⟩ : BufTy).Contents (Elt F) → (⟨S16384, .i32⟩ : BufTy).Contents (Elt F) → (⟨S16384, .i1⟩ : BufTy).Contents (Elt F)),
    StableHlo.nullary main_c_3 (constantI S_ 32 64#32),
    StableHlo.unary main_c_3 main_v24 (broadcastInDim S16384 ![] bcast_S_S16384 : (⟨S_, .i32⟩ : BufTy).Contents (Elt F) → (⟨S16384, .i32⟩ : BufTy).Contents (Elt F)),
    StableHlo.binary main_v0 main_v24 main_v25 (addi : (⟨S16384, .i32⟩ : BufTy).Contents (Elt F) → (⟨S16384, .i32⟩ : BufTy).Contents (Elt F) → (⟨S16384, .i32⟩ : BufTy).Contents (Elt F)),
    StableHlo.ternary main_v23 main_v25 main_v0 main_v26 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_4 (constantI S_ 32 0#32),
    StableHlo.unary main_c_4 main_v27 (broadcastInDim S16384 ![] bcast_S_S16384 : (⟨S_, .i32⟩ : BufTy).Contents (Elt F) → (⟨S16384, .i32⟩ : BufTy).Contents (Elt F)),
    StableHlo.binary main_v16 main_v27 main_v28 (cmpi .slt : (⟨S16384, .i32⟩ : BufTy).Contents (Elt F) → (⟨S16384, .i32⟩ : BufTy).Contents (Elt F) → (⟨S16384, .i1⟩ : BufTy).Contents (Elt F)),
    StableHlo.nullary main_c_5 (constantI S_ 32 513#32),
    StableHlo.unary main_c_5 main_v29 (broadcastInDim S16384 ![] bcast_S_S16384 : (⟨S_, .i32⟩ : BufTy).Contents (Elt F) → (⟨S16384, .i32⟩ : BufTy).Contents (Elt F)),
    StableHlo.binary main_v16 main_v29 main_v30 (addi : (⟨S16384, .i32⟩ : BufTy).Contents (Elt F) → (⟨S16384, .i32⟩ : BufTy).Contents (Elt F) → (⟨S16384, .i32⟩ : BufTy).Contents (Elt F)),
    StableHlo.ternary main_v28 main_v30 main_v16 main_v31 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v26 main_v32 (broadcastInDim S16384x1 ![0] bcast_S16384_S16384x1_0 : (⟨S16384, .i32⟩ : BufTy).Contents (Elt F) → (⟨S16384x1, .i32⟩ : BufTy).Contents (Elt F)),
    StableHlo.unary main_v31 main_v33 (broadcastInDim S16384x1 ![0] bcast_S16384_S16384x1_0 : (⟨S16384, .i32⟩ : BufTy).Contents (Elt F) → (⟨S16384x1, .i32⟩ : BufTy).Contents (Elt F)) ]

/-- Operations 68 … 68 of the 69. -/
abbrev ops11 : List (HloOp τ sig (Elt F)) :=
  [ StableHlo.binary main_v32 main_v33 main_v34 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)) ]

/-- Operations 69 … 69 of the 69. -/
abbrev ops12 : List (HloOp τ sig (Elt F)) :=
  [ StableHlo.ternary main_v21 main_v34 main_v20 main_v35 ((fun x i u => Host.scatter scatter_S64x513x1024_S16384x2_S16384x1024_1_01_01_1 (fun _ b => b) x i u) : (⟨S64x513x1024, .bf16⟩ : BufTy).Contents (Elt F) → (⟨S16384x2, .i32⟩ : BufTy).Contents (Elt F) → (⟨S16384x1024, .bf16⟩ : BufTy).Contents (Elt F) → (⟨S64x513x1024, .bf16⟩ : BufTy).Contents (Elt F)) ]

/-- The operations are the windows in order. -/
theorem ops_windows : (pre : List (HloOp τ sig (Elt F))) = ops1 ++ (ops2 ++ (ops3 ++ (ops4 ++ (ops5 ++ (ops6 ++ (ops7 ++ (ops8 ++ (ops9 ++ (ops10 ++ (ops11 ++ (ops12))))))))))) := rfl

/-- The device's buffer contents before the first window. -/
def val0 (W : Valuation τ sig (Elt F)) : Valuation τ sig (Elt F) := W
theorem val0_main_arg0 (W : Valuation τ sig (Elt F)) : val0 W (no_index (Proc.devRef .tc main_arg0)) = W (Proc.devRef .tc main_arg0) := rfl
theorem val0_main_arg1 (W : Valuation τ sig (Elt F)) : val0 W (no_index (Proc.devRef .tc main_arg1)) = W (Proc.devRef .tc main_arg1) := rfl
theorem val0_main_arg2 (W : Valuation τ sig (Elt F)) : val0 W (no_index (Proc.devRef .tc main_arg2)) = W (Proc.devRef .tc main_arg2) := rfl

/-- The device's buffer contents after the first 1 window. -/
def val1 (W : Valuation τ sig (Elt F)) : Valuation τ sig (Elt F) := after ops1 (val0 W)
/-- The buffers window 1 writes. -/
abbrev ops1_W : List (Ref sig .tc) := [main_v0]
theorem ops1_writes : (ops1 : List (HloOp τ sig (Elt F))).Forall fun op => op.writes ⊆ (ops1_W.map (Proc.devRef (τ := τ) .tc)).toFinset :=
  Finset.singleton_subset_iff.mpr (List.mem_toFinset.mpr (List.mem_map_of_mem (by decide)))
/-- A buffer window 1 does not write keeps its contents through it. -/
theorem val1_keep (W : Valuation τ sig (Elt F)) (r : Ref sig .tc) (h : r ∉ ops1_W) :
    val1 W (Proc.devRef .tc r) = val0 W (Proc.devRef .tc r) :=
  after_of_writes_sub ops1 _ ops1_writes h
theorem val1_main_arg0 (W : Valuation τ sig (Elt F)) : val1 W (no_index (Proc.devRef .tc main_arg0)) = W (Proc.devRef .tc main_arg0) :=
  (val1_keep W main_arg0 (by decide)).trans (val0_main_arg0 W)
theorem val1_main_arg2 (W : Valuation τ sig (Elt F)) : val1 W (no_index (Proc.devRef .tc main_arg2)) = W (Proc.devRef .tc main_arg2) :=
  (val1_keep W main_arg2 (by decide)).trans (val0_main_arg2 W)
set_option maxRecDepth 8192 in
set_option maxHeartbeats 2000000 in
theorem val1_main_v0 (W : Valuation τ sig (Elt F)) : val1 W (no_index (Proc.devRef .tc main_v0)) = flatEK ((W (Proc.devRef .tc main_arg1))) := by
  unfold val1
  after_results_simp
  all_goals (try simp only [val0_main_arg1])
  all_goals (try unfold flatEK)
  all_goals rfl

/-- The device's buffer contents after the first 2 windows. -/
def val2 (W : Valuation τ sig (Elt F)) : Valuation τ sig (Elt F) := after ops2 (val1 W)
/-- The buffers window 2 writes. -/
abbrev ops2_W : List (Ref sig .tc) := [main_v1, main_v2, main_v3, main_v4, main_v5, main_v6, main_v7]
theorem ops2_writes : (ops2 : List (HloOp τ sig (Elt F))).Forall fun op => op.writes ⊆ (ops2_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 2 does not write keeps its contents through it. -/
theorem val2_keep (W : Valuation τ sig (Elt F)) (r : Ref sig .tc) (h : r ∉ ops2_W) :
    val2 W (Proc.devRef .tc r) = val1 W (Proc.devRef .tc r) :=
  after_of_writes_sub ops2 _ ops2_writes h
theorem val2_main_arg0 (W : Valuation τ sig (Elt F)) : val2 W (no_index (Proc.devRef .tc main_arg0)) = W (Proc.devRef .tc main_arg0) :=
  (val2_keep W main_arg0 (by decide)).trans (val1_main_arg0 W)
theorem val2_main_arg2 (W : Valuation τ sig (Elt F)) : val2 W (no_index (Proc.devRef .tc main_arg2)) = W (Proc.devRef .tc main_arg2) :=
  (val2_keep W main_arg2 (by decide)).trans (val1_main_arg2 W)
theorem val2_main_v0 (W : Valuation τ sig (Elt F)) : val2 W (no_index (Proc.devRef .tc main_v0)) = flatEK ((W (Proc.devRef .tc main_arg1))) :=
  (val2_keep W main_v0 (by decide)).trans (val1_main_v0 W)
set_option maxRecDepth 8192 in
set_option maxHeartbeats 2000000 in
theorem val2_main_v7 (W : Valuation τ sig (Elt F)) : val2 W (no_index (Proc.devRef .tc main_v7)) = onehotK ((W (Proc.devRef .tc main_arg1))) := by
  unfold val2
  after_results_simp
  all_goals (try simp only [val1_main_v0])
  all_goals (try unfold onehotK)
  all_goals rfl

/-- The device's buffer contents after the first 3 windows. -/
def val3 (W : Valuation τ sig (Elt F)) : Valuation τ sig (Elt F) := after ops3 (val2 W)
/-- The buffers window 3 writes. -/
abbrev ops3_W : List (Ref sig .tc) := [main_call0_call0_c, main_call0_call0_v0, main_v8]
theorem ops3_writes : (ops3 : List (HloOp τ sig (Elt F))).Forall fun op => op.writes ⊆ (ops3_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 3 does not write keeps its contents through it. -/
theorem val3_keep (W : Valuation τ sig (Elt F)) (r : Ref sig .tc) (h : r ∉ ops3_W) :
    val3 W (Proc.devRef .tc r) = val2 W (Proc.devRef .tc r) :=
  after_of_writes_sub ops3 _ ops3_writes h
theorem val3_main_arg0 (W : Valuation τ sig (Elt F)) : val3 W (no_index (Proc.devRef .tc main_arg0)) = W (Proc.devRef .tc main_arg0) :=
  (val3_keep W main_arg0 (by decide)).trans (val2_main_arg0 W)
theorem val3_main_arg2 (W : Valuation τ sig (Elt F)) : val3 W (no_index (Proc.devRef .tc main_arg2)) = W (Proc.devRef .tc main_arg2) :=
  (val3_keep W main_arg2 (by decide)).trans (val2_main_arg2 W)
theorem val3_main_v0 (W : Valuation τ sig (Elt F)) : val3 W (no_index (Proc.devRef .tc main_v0)) = flatEK ((W (Proc.devRef .tc main_arg1))) :=
  (val3_keep W main_v0 (by decide)).trans (val2_main_v0 W)
set_option maxRecDepth 8192 in
set_option maxHeartbeats 2000000 in
theorem val3_main_v8 (W : Valuation τ sig (Elt F)) : val3 W (no_index (Proc.devRef .tc main_v8)) = csumK ((W (Proc.devRef .tc main_arg1))) := by
  unfold val3
  after_results_simp
  all_goals (try simp only [val2_main_v7])
  all_goals (try unfold csumK)
  all_goals rfl

/-- The device's buffer contents after the first 4 windows. -/
def val4 (W : Valuation τ sig (Elt F)) : Valuation τ sig (Elt F) := after ops4 (val3 W)
/-- The buffers window 4 writes. -/
abbrev ops4_W : List (Ref sig .tc) := [main_v9, main_call1_c, main_call1_v0, main_call1_v1, main_call1_c_0, main_call1_v2, main_call1_v3, main_call1_v4, main_call1_v5]
theorem ops4_writes : (ops4 : List (HloOp τ sig (Elt F))).Forall fun op => op.writes ⊆ (ops4_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 4 does not write keeps its contents through it. -/
theorem val4_keep (W : Valuation τ sig (Elt F)) (r : Ref sig .tc) (h : r ∉ ops4_W) :
    val4 W (Proc.devRef .tc r) = val3 W (Proc.devRef .tc r) :=
  after_of_writes_sub ops4 _ ops4_writes h
theorem val4_main_arg0 (W : Valuation τ sig (Elt F)) : val4 W (no_index (Proc.devRef .tc main_arg0)) = W (Proc.devRef .tc main_arg0) :=
  (val4_keep W main_arg0 (by decide)).trans (val3_main_arg0 W)
theorem val4_main_arg2 (W : Valuation τ sig (Elt F)) : val4 W (no_index (Proc.devRef .tc main_arg2)) = W (Proc.devRef .tc main_arg2) :=
  (val4_keep W main_arg2 (by decide)).trans (val3_main_arg2 W)
theorem val4_main_v0 (W : Valuation τ sig (Elt F)) : val4 W (no_index (Proc.devRef .tc main_v0)) = flatEK ((W (Proc.devRef .tc main_arg1))) :=
  (val4_keep W main_v0 (by decide)).trans (val3_main_v0 W)
theorem val4_main_v8 (W : Valuation τ sig (Elt F)) : val4 W (no_index (Proc.devRef .tc main_v8)) = csumK ((W (Proc.devRef .tc main_arg1))) :=
  (val4_keep W main_v8 (by decide)).trans (val3_main_v8 W)
set_option maxRecDepth 8192 in
set_option maxHeartbeats 2000000 in
theorem val4_main_call1_v5 (W : Valuation τ sig (Elt F)) : val4 W (no_index (Proc.devRef .tc main_call1_v5)) = takeIdxK ((W (Proc.devRef .tc main_arg1))) := by
  unfold val4
  after_results_simp
  all_goals (try simp only [val3_main_v0])
  all_goals (try unfold takeIdxK)
  all_goals rfl

/-- The device's buffer contents after the first 5 windows. -/
def val5 (W : Valuation τ sig (Elt F)) : Valuation τ sig (Elt F) := after ops5 (val4 W)
/-- The buffers window 5 writes. -/
abbrev ops5_W : List (Ref sig .tc) := [main_call1_c_1, main_call1_c_2, main_call1_v6, main_call1_v7, main_call1_v8, main_call1_v9, main_call1_v10, main_call1_v11, main_call1_c_3, main_call1_v12, main_call1_v13, main_call1_c_4, main_call1_v14, main_v10]
theorem ops5_writes : (ops5 : List (HloOp τ sig (Elt F))).Forall fun op => op.writes ⊆ (ops5_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 5 does not write keeps its contents through it. -/
theorem val5_keep (W : Valuation τ sig (Elt F)) (r : Ref sig .tc) (h : r ∉ ops5_W) :
    val5 W (Proc.devRef .tc r) = val4 W (Proc.devRef .tc r) :=
  after_of_writes_sub ops5 _ ops5_writes h
theorem val5_main_arg0 (W : Valuation τ sig (Elt F)) : val5 W (no_index (Proc.devRef .tc main_arg0)) = W (Proc.devRef .tc main_arg0) :=
  (val5_keep W main_arg0 (by decide)).trans (val4_main_arg0 W)
theorem val5_main_arg2 (W : Valuation τ sig (Elt F)) : val5 W (no_index (Proc.devRef .tc main_arg2)) = W (Proc.devRef .tc main_arg2) :=
  (val5_keep W main_arg2 (by decide)).trans (val4_main_arg2 W)
theorem val5_main_v0 (W : Valuation τ sig (Elt F)) : val5 W (no_index (Proc.devRef .tc main_v0)) = flatEK ((W (Proc.devRef .tc main_arg1))) :=
  (val5_keep W main_v0 (by decide)).trans (val4_main_v0 W)
set_option maxRecDepth 8192 in
set_option maxHeartbeats 2000000 in
theorem val5_main_v10 (W : Valuation τ sig (Elt F)) : val5 W (no_index (Proc.devRef .tc main_v10)) = takeVK ((W (Proc.devRef .tc main_arg1))) := by
  unfold val5
  after_results_simp
  all_goals (try simp only [val4_main_call1_v5, val4_main_v8])
  all_goals (try unfold takeVK)
  all_goals rfl

/-- The device's buffer contents after the first 6 windows. -/
def val6 (W : Valuation τ sig (Elt F)) : Valuation τ sig (Elt F) := after ops6 (val5 W)
/-- The buffers window 6 writes. -/
abbrev ops6_W : List (Ref sig .tc) := [main_v11, main_c, main_v12, main_v13]
theorem ops6_writes : (ops6 : List (HloOp τ sig (Elt F))).Forall fun op => op.writes ⊆ (ops6_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 6 does not write keeps its contents through it. -/
theorem val6_keep (W : Valuation τ sig (Elt F)) (r : Ref sig .tc) (h : r ∉ ops6_W) :
    val6 W (Proc.devRef .tc r) = val5 W (Proc.devRef .tc r) :=
  after_of_writes_sub ops6 _ ops6_writes h
theorem val6_main_arg0 (W : Valuation τ sig (Elt F)) : val6 W (no_index (Proc.devRef .tc main_arg0)) = W (Proc.devRef .tc main_arg0) :=
  (val6_keep W main_arg0 (by decide)).trans (val5_main_arg0 W)
theorem val6_main_arg2 (W : Valuation τ sig (Elt F)) : val6 W (no_index (Proc.devRef .tc main_arg2)) = W (Proc.devRef .tc main_arg2) :=
  (val6_keep W main_arg2 (by decide)).trans (val5_main_arg2 W)
theorem val6_main_v0 (W : Valuation τ sig (Elt F)) : val6 W (no_index (Proc.devRef .tc main_v0)) = flatEK ((W (Proc.devRef .tc main_arg1))) :=
  (val6_keep W main_v0 (by decide)).trans (val5_main_v0 W)
set_option maxRecDepth 8192 in
set_option maxHeartbeats 2000000 in
theorem val6_main_v13 (W : Valuation τ sig (Elt F)) : val6 W (no_index (Proc.devRef .tc main_v13)) = posVK ((W (Proc.devRef .tc main_arg1))) := by
  unfold val6
  after_results_simp
  all_goals (try simp only [val5_main_v10])
  all_goals (try unfold posVK)
  all_goals rfl

/-- The device's buffer contents after the first 7 windows. -/
def val7 (W : Valuation τ sig (Elt F)) : Valuation τ sig (Elt F) := after ops7 (val6 W)
/-- The buffers window 7 writes. -/
abbrev ops7_W : List (Ref sig .tc) := [main_c_0, main_v14, main_v15]
theorem ops7_writes : (ops7 : List (HloOp τ sig (Elt F))).Forall fun op => op.writes ⊆ (ops7_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 7 does not write keeps its contents through it. -/
theorem val7_keep (W : Valuation τ sig (Elt F)) (r : Ref sig .tc) (h : r ∉ ops7_W) :
    val7 W (Proc.devRef .tc r) = val6 W (Proc.devRef .tc r) :=
  after_of_writes_sub ops7 _ ops7_writes h
theorem val7_main_arg0 (W : Valuation τ sig (Elt F)) : val7 W (no_index (Proc.devRef .tc main_arg0)) = W (Proc.devRef .tc main_arg0) :=
  (val7_keep W main_arg0 (by decide)).trans (val6_main_arg0 W)
theorem val7_main_arg2 (W : Valuation τ sig (Elt F)) : val7 W (no_index (Proc.devRef .tc main_arg2)) = W (Proc.devRef .tc main_arg2) :=
  (val7_keep W main_arg2 (by decide)).trans (val6_main_arg2 W)
theorem val7_main_v0 (W : Valuation τ sig (Elt F)) : val7 W (no_index (Proc.devRef .tc main_v0)) = flatEK ((W (Proc.devRef .tc main_arg1))) :=
  (val7_keep W main_v0 (by decide)).trans (val6_main_v0 W)
theorem val7_main_v13 (W : Valuation τ sig (Elt F)) : val7 W (no_index (Proc.devRef .tc main_v13)) = posVK ((W (Proc.devRef .tc main_arg1))) :=
  (val7_keep W main_v13 (by decide)).trans (val6_main_v13 W)
set_option maxRecDepth 8192 in
set_option maxHeartbeats 2000000 in
theorem val7_main_v15 (W : Valuation τ sig (Elt F)) : val7 W (no_index (Proc.devRef .tc main_v15)) = validK ((W (Proc.devRef .tc main_arg1))) := by
  unfold val7
  after_results_simp
  all_goals (try simp only [val6_main_v13])
  all_goals (try unfold validK)
  all_goals rfl

/-- The device's buffer contents after the first 8 windows. -/
def val8 (W : Valuation τ sig (Elt F)) : Valuation τ sig (Elt F) := after ops8 (val7 W)
/-- The buffers window 8 writes. -/
abbrev ops8_W : List (Ref sig .tc) := [main_c_1, main_call2_v0, main_call2_v1, main_v16]
theorem ops8_writes : (ops8 : List (HloOp τ sig (Elt F))).Forall fun op => op.writes ⊆ (ops8_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 8 does not write keeps its contents through it. -/
theorem val8_keep (W : Valuation τ sig (Elt F)) (r : Ref sig .tc) (h : r ∉ ops8_W) :
    val8 W (Proc.devRef .tc r) = val7 W (Proc.devRef .tc r) :=
  after_of_writes_sub ops8 _ ops8_writes h
theorem val8_main_arg0 (W : Valuation τ sig (Elt F)) : val8 W (no_index (Proc.devRef .tc main_arg0)) = W (Proc.devRef .tc main_arg0) :=
  (val8_keep W main_arg0 (by decide)).trans (val7_main_arg0 W)
theorem val8_main_arg2 (W : Valuation τ sig (Elt F)) : val8 W (no_index (Proc.devRef .tc main_arg2)) = W (Proc.devRef .tc main_arg2) :=
  (val8_keep W main_arg2 (by decide)).trans (val7_main_arg2 W)
theorem val8_main_v0 (W : Valuation τ sig (Elt F)) : val8 W (no_index (Proc.devRef .tc main_v0)) = flatEK ((W (Proc.devRef .tc main_arg1))) :=
  (val8_keep W main_v0 (by decide)).trans (val7_main_v0 W)
theorem val8_main_v15 (W : Valuation τ sig (Elt F)) : val8 W (no_index (Proc.devRef .tc main_v15)) = validK ((W (Proc.devRef .tc main_arg1))) :=
  (val8_keep W main_v15 (by decide)).trans (val7_main_v15 W)
set_option maxRecDepth 8192 in
set_option maxHeartbeats 2000000 in
theorem val8_main_v16 (W : Valuation τ sig (Elt F)) : val8 W (no_index (Proc.devRef .tc main_v16)) = slotK ((W (Proc.devRef .tc main_arg1))) := by
  unfold val8
  after_results_simp
  all_goals (try simp only [val7_main_v13, val7_main_v15])
  all_goals (try unfold slotK)
  all_goals rfl

/-- The device's buffer contents after the first 9 windows. -/
def val9 (W : Valuation τ sig (Elt F)) : Valuation τ sig (Elt F) := after ops9 (val8 W)
/-- The buffers window 9 writes. -/
abbrev ops9_W : List (Ref sig .tc) := [main_v17, main_v18, main_v19, main_v20]
theorem ops9_writes : (ops9 : List (HloOp τ sig (Elt F))).Forall fun op => op.writes ⊆ (ops9_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 9 does not write keeps its contents through it. -/
theorem val9_keep (W : Valuation τ sig (Elt F)) (r : Ref sig .tc) (h : r ∉ ops9_W) :
    val9 W (Proc.devRef .tc r) = val8 W (Proc.devRef .tc r) :=
  after_of_writes_sub ops9 _ ops9_writes h
theorem val9_main_arg2 (W : Valuation τ sig (Elt F)) : val9 W (no_index (Proc.devRef .tc main_arg2)) = W (Proc.devRef .tc main_arg2) :=
  (val9_keep W main_arg2 (by decide)).trans (val8_main_arg2 W)
theorem val9_main_v0 (W : Valuation τ sig (Elt F)) : val9 W (no_index (Proc.devRef .tc main_v0)) = flatEK ((W (Proc.devRef .tc main_arg1))) :=
  (val9_keep W main_v0 (by decide)).trans (val8_main_v0 W)
theorem val9_main_v15 (W : Valuation τ sig (Elt F)) : val9 W (no_index (Proc.devRef .tc main_v15)) = validK ((W (Proc.devRef .tc main_arg1))) :=
  (val9_keep W main_v15 (by decide)).trans (val8_main_v15 W)
theorem val9_main_v16 (W : Valuation τ sig (Elt F)) : val9 W (no_index (Proc.devRef .tc main_v16)) = slotK ((W (Proc.devRef .tc main_arg1))) :=
  (val9_keep W main_v16 (by decide)).trans (val8_main_v16 W)
set_option maxRecDepth 8192 in
set_option maxHeartbeats 2000000 in
theorem val9_main_v20 (W : Valuation τ sig (Elt F)) : val9 W (no_index (Proc.devRef .tc main_v20)) = xpairK ((W (Proc.devRef .tc main_arg0))) := by
  unfold val9
  after_results_simp
  all_goals (try simp only [val8_main_arg0])
  all_goals (try unfold xpairK)
  all_goals rfl

/-- The device's buffer contents after the first 10 windows. -/
def val10 (W : Valuation τ sig (Elt F)) : Valuation τ sig (Elt F) := after ops10 (val9 W)
/-- The buffers window 10 writes. -/
abbrev ops10_W : List (Ref sig .tc) := [main_cst, main_v21, main_c_2, main_v22, main_v23, main_c_3, main_v24, main_v25, main_v26, main_c_4, main_v27, main_v28, main_c_5, main_v29, main_v30, main_v31, main_v32, main_v33]
theorem ops10_writes : (ops10 : List (HloOp τ sig (Elt F))).Forall fun op => op.writes ⊆ (ops10_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer window 10 does not write keeps its contents through it. -/
theorem val10_keep (W : Valuation τ sig (Elt F)) (r : Ref sig .tc) (h : r ∉ ops10_W) :
    val10 W (Proc.devRef .tc r) = val9 W (Proc.devRef .tc r) :=
  after_of_writes_sub ops10 _ ops10_writes h
theorem val10_main_arg2 (W : Valuation τ sig (Elt F)) : val10 W (no_index (Proc.devRef .tc main_arg2)) = W (Proc.devRef .tc main_arg2) :=
  (val10_keep W main_arg2 (by decide)).trans (val9_main_arg2 W)
theorem val10_main_v0 (W : Valuation τ sig (Elt F)) : val10 W (no_index (Proc.devRef .tc main_v0)) = flatEK ((W (Proc.devRef .tc main_arg1))) :=
  (val10_keep W main_v0 (by decide)).trans (val9_main_v0 W)
theorem val10_main_v15 (W : Valuation τ sig (Elt F)) : val10 W (no_index (Proc.devRef .tc main_v15)) = validK ((W (Proc.devRef .tc main_arg1))) :=
  (val10_keep W main_v15 (by decide)).trans (val9_main_v15 W)
theorem val10_main_v16 (W : Valuation τ sig (Elt F)) : val10 W (no_index (Proc.devRef .tc main_v16)) = slotK ((W (Proc.devRef .tc main_arg1))) :=
  (val10_keep W main_v16 (by decide)).trans (val9_main_v16 W)
theorem val10_main_v20 (W : Valuation τ sig (Elt F)) : val10 W (no_index (Proc.devRef .tc main_v20)) = xpairK ((W (Proc.devRef .tc main_arg0))) :=
  (val10_keep W main_v20 (by decide)).trans (val9_main_v20 W)
set_option maxRecDepth 8192 in
set_option maxHeartbeats 2000000 in
theorem val10_main_v21 (W : Valuation τ sig (Elt F)) : val10 W (no_index (Proc.devRef .tc main_v21)) = broadcastInDim S64x513x1024 ![] bcast_S_S64x513x1024 (constant S_ .bf16 0x0000#16) := by
  unfold val10
  after_results_simp
  all_goals rfl
set_option maxRecDepth 8192 in
set_option maxHeartbeats 2000000 in
theorem val10_main_v32 (W : Valuation τ sig (Elt F)) : val10 W (no_index (Proc.devRef .tc main_v32)) = broadcastInDim S16384x1 ![0] bcast_S16384_S16384x1_0 (select (cmpi .slt (flatEK ((W (Proc.devRef .tc main_arg1)))) (broadcastInDim S16384 ![] bcast_S_S16384 (constantI S_ 32 0#32))) (addi (flatEK ((W (Proc.devRef .tc main_arg1)))) (broadcastInDim S16384 ![] bcast_S_S16384 (constantI S_ 32 64#32))) (flatEK ((W (Proc.devRef .tc main_arg1))))) := by
  unfold val10
  after_results_simp
  all_goals (try simp only [val9_main_v0])
  all_goals rfl
set_option maxRecDepth 8192 in
set_option maxHeartbeats 2000000 in
theorem val10_main_v33 (W : Valuation τ sig (Elt F)) : val10 W (no_index (Proc.devRef .tc main_v33)) = broadcastInDim S16384x1 ![0] bcast_S16384_S16384x1_0 (select (cmpi .slt (slotK ((W (Proc.devRef .tc main_arg1)))) (broadcastInDim S16384 ![] bcast_S_S16384 (constantI S_ 32 0#32))) (addi (slotK ((W (Proc.devRef .tc main_arg1)))) (broadcastInDim S16384 ![] bcast_S_S16384 (constantI S_ 32 513#32))) (slotK ((W (Proc.devRef .tc main_arg1))))) := by
  unfold val10
  after_results_simp
  all_goals (try simp only [val9_main_v16])
  all_goals rfl

/-- The device's buffer contents after the first 11 windows. -/
def val11 (W : Valuation τ sig (Elt F)) : Valuation τ sig (Elt F) := after ops11 (val10 W)
/-- The buffers window 11 writes. -/
abbrev ops11_W : List (Ref sig .tc) := [main_v34]
theorem ops11_writes : (ops11 : List (HloOp τ sig (Elt F))).Forall fun op => op.writes ⊆ (ops11_W.map (Proc.devRef (τ := τ) .tc)).toFinset :=
  Finset.singleton_subset_iff.mpr (List.mem_toFinset.mpr (List.mem_map_of_mem (by decide)))
/-- A buffer window 11 does not write keeps its contents through it. -/
theorem val11_keep (W : Valuation τ sig (Elt F)) (r : Ref sig .tc) (h : r ∉ ops11_W) :
    val11 W (Proc.devRef .tc r) = val10 W (Proc.devRef .tc r) :=
  after_of_writes_sub ops11 _ ops11_writes h
theorem val11_main_arg2 (W : Valuation τ sig (Elt F)) : val11 W (no_index (Proc.devRef .tc main_arg2)) = W (Proc.devRef .tc main_arg2) :=
  (val11_keep W main_arg2 (by decide)).trans (val10_main_arg2 W)
theorem val11_main_v0 (W : Valuation τ sig (Elt F)) : val11 W (no_index (Proc.devRef .tc main_v0)) = flatEK ((W (Proc.devRef .tc main_arg1))) :=
  (val11_keep W main_v0 (by decide)).trans (val10_main_v0 W)
theorem val11_main_v15 (W : Valuation τ sig (Elt F)) : val11 W (no_index (Proc.devRef .tc main_v15)) = validK ((W (Proc.devRef .tc main_arg1))) :=
  (val11_keep W main_v15 (by decide)).trans (val10_main_v15 W)
theorem val11_main_v16 (W : Valuation τ sig (Elt F)) : val11 W (no_index (Proc.devRef .tc main_v16)) = slotK ((W (Proc.devRef .tc main_arg1))) :=
  (val11_keep W main_v16 (by decide)).trans (val10_main_v16 W)
theorem val11_main_v20 (W : Valuation τ sig (Elt F)) : val11 W (no_index (Proc.devRef .tc main_v20)) = xpairK ((W (Proc.devRef .tc main_arg0))) :=
  (val11_keep W main_v20 (by decide)).trans (val10_main_v20 W)
theorem val11_main_v21 (W : Valuation τ sig (Elt F)) : val11 W (no_index (Proc.devRef .tc main_v21)) = broadcastInDim S64x513x1024 ![] bcast_S_S64x513x1024 (constant S_ .bf16 0x0000#16) :=
  (val11_keep W main_v21 (by decide)).trans (val10_main_v21 W)
theorem val11_main_v34 (W : Valuation τ sig (Elt F)) : val11 W (no_index (Proc.devRef .tc main_v34)) = scatIdxK ((W (Proc.devRef .tc main_arg1))) := by
  unfold val11
  simp only [after_cons, after_nil]
  rw [binary_result]
  rw [val10_main_v33 W, val10_main_v32 W]
  unfold scatIdxK
  rfl

/-- The device's buffer contents after the first 12 windows. -/
def val12 (W : Valuation τ sig (Elt F)) : Valuation τ sig (Elt F) := after ops12 (val11 W)
/-- The buffers window 12 writes. -/
abbrev ops12_W : List (Ref sig .tc) := [main_v35]
theorem ops12_writes : (ops12 : List (HloOp τ sig (Elt F))).Forall fun op => op.writes ⊆ (ops12_W.map (Proc.devRef (τ := τ) .tc)).toFinset :=
  Finset.singleton_subset_iff.mpr (List.mem_toFinset.mpr (List.mem_map_of_mem (by decide)))
/-- A buffer window 12 does not write keeps its contents through it. -/
theorem val12_keep (W : Valuation τ sig (Elt F)) (r : Ref sig .tc) (h : r ∉ ops12_W) :
    val12 W (Proc.devRef .tc r) = val11 W (Proc.devRef .tc r) :=
  after_of_writes_sub ops12 _ ops12_writes h
theorem val12_main_arg2 (W : Valuation τ sig (Elt F)) : val12 W (no_index (Proc.devRef .tc main_arg2)) = W (Proc.devRef .tc main_arg2) :=
  (val12_keep W main_arg2 (by decide)).trans (val11_main_arg2 W)
theorem val12_main_v0 (W : Valuation τ sig (Elt F)) : val12 W (no_index (Proc.devRef .tc main_v0)) = flatEK ((W (Proc.devRef .tc main_arg1))) :=
  (val12_keep W main_v0 (by decide)).trans (val11_main_v0 W)
theorem val12_main_v15 (W : Valuation τ sig (Elt F)) : val12 W (no_index (Proc.devRef .tc main_v15)) = validK ((W (Proc.devRef .tc main_arg1))) :=
  (val12_keep W main_v15 (by decide)).trans (val11_main_v15 W)
theorem val12_main_v16 (W : Valuation τ sig (Elt F)) : val12 W (no_index (Proc.devRef .tc main_v16)) = slotK ((W (Proc.devRef .tc main_arg1))) :=
  (val12_keep W main_v16 (by decide)).trans (val11_main_v16 W)
set_option maxRecDepth 8192 in
set_option maxHeartbeats 2000000 in
theorem val12_main_v35 (W : Valuation τ sig (Elt F)) : val12 W (no_index (Proc.devRef .tc main_v35)) = bufK ((W (Proc.devRef .tc main_arg0))) ((W (Proc.devRef .tc main_arg1))) := by
  unfold val12
  after_results_simp
  all_goals (try simp only [val11_main_v20, val11_main_v34, val11_main_v21])
  all_goals (try unfold bufK)
  all_goals rfl

/-! ## The fold at the dispatch buffer, the routing buffers and the third argument -/

theorem pre_v35 (W : Valuation τ sig (Elt F)) :
    after pre W (Proc.devRef .tc main_v35) = bufK (W (Proc.devRef .tc main_arg0)) (W (Proc.devRef .tc main_arg1)) := by
  have hfold : after pre W = val12 W := by
    rw [ops_windows]
    simp only [after_append']
    rfl
  rw [hfold]
  exact val12_main_v35 W

theorem pre_v0 (W : Valuation τ sig (Elt F)) :
    after pre W (Proc.devRef .tc main_v0) = flatEK (W (Proc.devRef .tc main_arg1)) := by
  have hfold : after pre W = val12 W := by
    rw [ops_windows]
    simp only [after_append']
    rfl
  rw [hfold]
  exact val12_main_v0 W

theorem pre_v15 (W : Valuation τ sig (Elt F)) :
    after pre W (Proc.devRef .tc main_v15) = validK (W (Proc.devRef .tc main_arg1)) := by
  have hfold : after pre W = val12 W := by
    rw [ops_windows]
    simp only [after_append']
    rfl
  rw [hfold]
  exact val12_main_v15 W

theorem pre_v16 (W : Valuation τ sig (Elt F)) :
    after pre W (Proc.devRef .tc main_v16) = slotK (W (Proc.devRef .tc main_arg1)) := by
  have hfold : after pre W = val12 W := by
    rw [ops_windows]
    simp only [after_append']
    rfl
  rw [hfold]
  exact val12_main_v16 W

theorem pre_arg2 (W : Valuation τ sig (Elt F)) :
    after pre W (Proc.devRef .tc main_arg2) = W (Proc.devRef .tc main_arg2) := by
  have hfold : after pre W = val12 W := by
    rw [ops_windows]
    simp only [after_append']
    rfl
  rw [hfold]
  exact (val12_keep W main_arg2 (by decide)).trans ((val11_keep W main_arg2 (by decide)).trans ((val10_keep W main_arg2 (by decide)).trans ((val9_keep W main_arg2 (by decide)).trans ((val8_keep W main_arg2 (by decide)).trans ((val7_keep W main_arg2 (by decide)).trans ((val6_keep W main_arg2 (by decide)).trans ((val5_keep W main_arg2 (by decide)).trans ((val4_keep W main_arg2 (by decide)).trans ((val3_keep W main_arg2 (by decide)).trans ((val2_keep W main_arg2 (by decide)).trans ((val1_keep W main_arg2 (by decide)))))))))))))

/-! ## The routing stages are the reference's

The two programs state the same integer chain over their own constants: the shapes are the same literals, the
dimension records the same fields, the side conditions propositions. Each equation unfolds the two definitions one
level; what is under them is equal by the earlier equations and by unfolding the constants. -/

theorem flatEK_eq (a1 : (⟨S4096x4, .i32⟩ : BufTy).Contents (Elt F)) : flatEK a1 = Cert.ReferenceIdeal.RefTerm.flatE a1 := by
  unfold flatEK Cert.ReferenceIdeal.RefTerm.flatE; rfl
theorem onehotK_eq (a1 : (⟨S4096x4, .i32⟩ : BufTy).Contents (Elt F)) : onehotK a1 = Cert.ReferenceIdeal.RefTerm.onehot a1 := by
  unfold onehotK Cert.ReferenceIdeal.RefTerm.onehot; rw [flatEK_eq] <;> rfl
theorem csumK_eq (a1 : (⟨S4096x4, .i32⟩ : BufTy).Contents (Elt F)) : csumK a1 = Cert.ReferenceIdeal.RefTerm.csum a1 := by
  unfold csumK Cert.ReferenceIdeal.RefTerm.csum; rw [onehotK_eq] <;> rfl
theorem takeIdxK_eq (a1 : (⟨S4096x4, .i32⟩ : BufTy).Contents (Elt F)) : takeIdxK a1 = Cert.ReferenceIdeal.RefTerm.takeIdx a1 := by
  unfold takeIdxK Cert.ReferenceIdeal.RefTerm.takeIdx; rw [flatEK_eq] <;> rfl
theorem takeVK_eq (a1 : (⟨S4096x4, .i32⟩ : BufTy).Contents (Elt F)) : takeVK a1 = Cert.ReferenceIdeal.RefTerm.takeV a1 := by
  unfold takeVK Cert.ReferenceIdeal.RefTerm.takeV; rw [takeIdxK_eq, csumK_eq] <;> rfl
theorem posVK_eq (a1 : (⟨S4096x4, .i32⟩ : BufTy).Contents (Elt F)) : posVK a1 = Cert.ReferenceIdeal.RefTerm.posV a1 := by
  unfold posVK Cert.ReferenceIdeal.RefTerm.posV; rw [takeVK_eq] <;> rfl
theorem validK_eq (a1 : (⟨S4096x4, .i32⟩ : BufTy).Contents (Elt F)) : validK a1 = Cert.ReferenceIdeal.RefTerm.validV a1 := by
  unfold validK Cert.ReferenceIdeal.RefTerm.validV; rw [posVK_eq] <;> rfl
theorem slotK_eq (a1 : (⟨S4096x4, .i32⟩ : BufTy).Contents (Elt F)) : slotK a1 = Cert.ReferenceIdeal.RefTerm.slotV a1 := by
  unfold slotK Cert.ReferenceIdeal.RefTerm.slotV; rw [validK_eq, posVK_eq] <;> rfl
theorem scatIdxK_eq (a1 : (⟨S4096x4, .i32⟩ : BufTy).Contents (Elt F)) : scatIdxK a1 = Cert.ReferenceIdeal.RefTerm.scatIdx a1 := by
  unfold scatIdxK Cert.ReferenceIdeal.RefTerm.scatIdx; rw [flatEK_eq, slotK_eq] <;> rfl

end Cert.KernelIdeal.KerPre

end
-- ==== Proof.KerTail.lean ====
/-
  The kernel program's host operations after its region, read back as one function.

  After the region the program computes, on the host: the per-pair coefficient (the routing weight of the pair, zeroed
  where the pair was dropped), the pair's position `(expert, slot)` in the region's output array (each coordinate
  wrapped if negative), the rows of that array gathered at those positions, widened and scaled by the coefficients, and
  finally the sum of each token's four rows. `tailK` is that composition as a function of the five arrays it reads,
  built from three named stages (`gidxK`: the positions; `coefK`: the coefficients; `updK`: the scaled rows), and
  `tail_v59` says the program's last buffer holds it after the 28 operations have run.
-/
import proofs.«174603_j78443282694942_2_alg».proof.Proof.Gen.KernelIdeal.Launch
import Idealize.ShloMosaic.Lib.StableHlo.Run

noncomputable section

namespace Cert.KernelIdeal.KerTail

open Idealize.ShloMosaic Idealize.ShloMosaic.StableHlo Idealize.ShloMosaic.TcCoe
open Cert.KernelIdeal Cert.KernelIdeal.Gen

variable {F : FTy → Type} [FloatOps F]

/-- The positions `[16384, 2]`: column 0 the expert of each pair, column 1 its slot, each wrapped if negative. -/
noncomputable def gidxK (fe sl : (⟨S16384, .i32⟩ : BufTy).Contents (Elt F)) : (⟨S16384x2, .i32⟩ : BufTy).Contents (Elt F) :=
  concatenate S16384x2 1
    [⟨S16384x1, broadcastInDim S16384x1 ![0] bcast_S16384_S16384x1_0
        (select (cmpi .slt fe (broadcastInDim S16384 ![] bcast_S_S16384 (constantI S_ 32 0#32)))
          (addi fe (broadcastInDim S16384 ![] bcast_S_S16384 (constantI S_ 32 64#32))) fe)⟩,
     ⟨S16384x1, broadcastInDim S16384x1 ![0] bcast_S16384_S16384x1_0
        (select (cmpi .slt sl (broadcastInDim S16384 ![] bcast_S_S16384 (constantI S_ 32 0#32)))
          (addi sl (broadcastInDim S16384 ![] bcast_S_S16384 (constantI S_ 32 513#32))) sl)⟩]
    concatenates_S16384x1_S16384x1_S16384x2_d1

/-- The coefficient of each pair: its routing weight, times one where the pair is kept and zero where it is dropped. -/
noncomputable def coefK (a2 : (⟨S4096x4, .f32⟩ : BufTy).Contents (Elt F)) (va : (⟨S16384, .i1⟩ : BufTy).Contents (Elt F)) :
    (⟨S16384, .f32⟩ : BufTy).Contents (Elt F) :=
  mulf (shapeCast S16384 a2 shapeCasts_S4096x4_S16384) (uitofp .f32 va)

/-- The rows of the region's output at the pairs' positions, widened and scaled by the coefficients. -/
noncomputable def updK (y : (⟨S64x513x1024, .bf16⟩ : BufTy).Contents (Elt F)) (fe : (⟨S16384, .i32⟩ : BufTy).Contents (Elt F))
    (va : (⟨S16384, .i1⟩ : BufTy).Contents (Elt F)) (sl : (⟨S16384, .i32⟩ : BufTy).Contents (Elt F))
    (a2 : (⟨S4096x4, .f32⟩ : BufTy).Contents (Elt F)) : (⟨S16384x1024, .f32⟩ : BufTy).Contents (Elt F) :=
  mulf (extf .f32 (Host.gather gather_S64x513x1024_S16384x2_S16384x1024_1_01_n_n_01_1_111024 y (gidxK fe sl)) bitsLt_bf16_f32)
    (broadcastInDim S16384x1024 ![0, 1] bcast_S16384x1_S16384x1024_0_1
      (broadcastInDim S16384x1 ![0] bcast_S16384_S16384x1_0 (coefK a2 va)))

/-- The sum over each token's four pairs of the scaled rows. -/
noncomputable def tailK (y : (⟨S64x513x1024, .bf16⟩ : BufTy).Contents (Elt F)) (fe : (⟨S16384, .i32⟩ : BufTy).Contents (Elt F))
    (va : (⟨S16384, .i1⟩ : BufTy).Contents (Elt F)) (sl : (⟨S16384, .i32⟩ : BufTy).Contents (Elt F))
    (a2 : (⟨S4096x4, .f32⟩ : BufTy).Contents (Elt F)) : (⟨S4096x1024, .f32⟩ : BufTy).Contents (Elt F) :=
  Host.reduceAdd (shapeCast S4096x4x1024 (updK y fe va sl a2) shapeCasts_S16384x1024_S4096x4x1024)
    (constant S_ .f32 0x00000000#32) reducesTo_S4096x4x1024_S4096x1024_d1 h_S_

attribute [local irreducible] Host.gather Host.reduceAdd concatenate in
set_option maxRecDepth 8192 in
/-- After the 28 operations the last buffer holds `tailK` of what the five buffers they read held before: the fold
    unrolled, each operation's result at the buffer it writes its function's value and at any other what was there. -/
theorem tail_v59 (W : Valuation τ sig (Elt F)) :
    after hostOps1 W (Proc.devRef .tc main_v59)
      = tailK (W (Proc.devRef .tc main_v36)) (W (Proc.devRef .tc main_v0)) (W (Proc.devRef .tc main_v15))
          (W (Proc.devRef .tc main_v16)) (W (Proc.devRef .tc main_arg2)) := by
  simp only [after_cons, after_nil]
  rfl

end Cert.KernelIdeal.KerTail

end
-- ==== Proof.KerRun.lean ====
/-
  The kernel program's run, with its result named.

  Before the region the host computes the routing (expert, slot and validity of every pair) and scatters the repeated
  token rows into the per-expert buffers; the region turns the buffers into every expert's output rows (the expert MLP);
  after it the host gathers each pair's output row, weights it and sums the four pairs of every token. The result
  buffer therefore ends at the tail's term of the expert MLP of the scattered buffers, and the arguments end unchanged.
-/
import proofs.«174603_j78443282694942_2_alg».proof.Proof.Gen.KernelIdeal.Frame
import proofs.«174603_j78443282694942_2_alg».proof.Proof.KerBlocks
import proofs.«174603_j78443282694942_2_alg».proof.Proof.KerPre
import proofs.«174603_j78443282694942_2_alg».proof.Proof.KerTail

noncomputable section

namespace Cert.KernelIdeal.KerRun

open Cert.KernelIdeal Cert.KernelIdeal.Gen Cert.KernelIdeal.Blocks Cert.KernelIdeal.KerPre Cert.KernelIdeal.KerTail
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The buffer array the region finds is the scatter of the repeated token rows. -/
theorem A0_eq (c : Dev nD) :
    A0 m c = bufK (F := Ideal) (m ((c : Thread nD τ).loc main_arg0)) (m ((c : Thread nD τ).loc main_arg1)) :=
  pre_v35 (fun b => m (c, b))

/-- The weight arrays the region finds are the arguments. -/
theorem A1_eq (c : Dev nD) : A1 m c = m ((c : Thread nD τ).loc main_arg3) := V_main_arg3 m c
theorem A2_eq (c : Dev nD) : A2 m c = m ((c : Thread nD τ).loc main_arg4) := V_main_arg4 m c

/-- The region's output array after the run: the expert MLP of the scattered buffers and the weight arguments. -/
theorem y_final (c : Dev nD) :
    (dats m 0 c).arrAt 3 cfg0.N
      = MoE.expertOut (bufK (F := Ideal) (m ((c : Thread nD τ).loc main_arg0)) (m ((c : Thread nD τ).loc main_arg1)))
          (m ((c : Thread nD τ).loc main_arg3)) (m ((c : Thread nD τ).loc main_arg4)) := by
  rw [final3, A0_eq, A1_eq, A2_eq]

/-- The tail's term depends on its five operands only. -/
theorem tailK_congr {y y' : (⟨S64x513x1024, .bf16⟩ : BufTy).Contents (Elt Ideal)} {fe fe' : (⟨S16384, .i32⟩ : BufTy).Contents (Elt Ideal)}
    {va va' : (⟨S16384, .i1⟩ : BufTy).Contents (Elt Ideal)} {sl sl' : (⟨S16384, .i32⟩ : BufTy).Contents (Elt Ideal)}
    {a2 a2' : (⟨S4096x4, .f32⟩ : BufTy).Contents (Elt Ideal)}
    (hy : y = y') (hfe : fe = fe') (hva : va = va') (hsl : sl = sl') (ha : a2 = a2') :
    tailK (F := Ideal) y fe va sl a2 = tailK (F := Ideal) y' fe' va' sl' a2' := by
  subst hy hfe hva hsl ha; rfl

/-- What the host operations after the region leave in the result buffer. -/
theorem tail_eq (c : Dev nD) :
    Pipeline.afterTail₀ cfgs (dats m) 0 (V0 m) [hostOps1] c main_v59
      = tailK (F := Ideal) ((dats m 0 c).arrAt 3 cfg0.N)
          (flatEK (F := Ideal) (m ((c : Thread nD τ).loc main_arg1))) (validK (F := Ideal) (m ((c : Thread nD τ).loc main_arg1)))
          (slotK (F := Ideal) (m ((c : Thread nD τ).loc main_arg1))) (m ((c : Thread nD τ).loc main_arg2)) := by
  unfold Pipeline.afterTail₀
  simp only [List.flatten_cons, List.flatten_nil, List.append_nil]
  refine (tail_v59 _).trans ?_
  refine tailK_congr ?_ ?_ ?_ ?_ ?_
  · exact Pipeline.withArrays_arr spec0 launch0.win.arr_inj c (V0 m c) _ 3
  · exact (Pipeline.withArrays_of_ne _ c (V0 m c) _ main_v0 (by exact (by decide : ∀ w, Pipeline.arrRef spec0 w ≠ main_v0))).trans (pre_v0 _)
  · exact (Pipeline.withArrays_of_ne _ c (V0 m c) _ main_v15 (by exact (by decide : ∀ w, Pipeline.arrRef spec0 w ≠ main_v15))).trans (pre_v15 _)
  · exact (Pipeline.withArrays_of_ne _ c (V0 m c) _ main_v16 (by exact (by decide : ∀ w, Pipeline.arrRef spec0 w ≠ main_v16))).trans (pre_v16 _)
  · exact (Pipeline.withArrays_of_ne _ c (V0 m c) _ main_arg2 (by exact (by decide : ∀ w, Pipeline.arrRef spec0 w ≠ main_arg2))).trans (pre_arg2 _)

/-- Every weakly fair execution of the kernel program terminates with the result buffer at the tail's term of the
    expert MLP of the scattered buffers, and the arguments unchanged. -/
theorem run : θ_run defs (onTc (τ := τ) (main (F := Ideal))) ⟨m, fun _ => 0, ρ⟩ fun r => ∀ c : Dev nD,
      r.2.mem ((c.tc : Thread nD τ).loc main_v59)
        = tailK (F := Ideal)
            (MoE.expertOut (bufK (F := Ideal) (m ((c : Thread nD τ).loc main_arg0)) (m ((c : Thread nD τ).loc main_arg1)))
              (m ((c : Thread nD τ).loc main_arg3)) (m ((c : Thread nD τ).loc main_arg4)))
            (flatEK (F := Ideal) (m ((c : Thread nD τ).loc main_arg1))) (validK (F := Ideal) (m ((c : Thread nD τ).loc main_arg1)))
            (slotK (F := Ideal) (m ((c : Thread nD τ).loc main_arg1))) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v59 (Pipeline.mem_restRefs_of main_v59 (by decide) (by decide))).trans
        ((tail_eq m c).trans (tailK_congr (y_final m c) rfl rfl rfl rfl)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c)))⟩)
    (run_main m ρ)

end Cert.KernelIdeal.KerRun

end
-- ==== Proof.LibBatchDot.lean ====
/-
  A batched matrix product with the right operand contracted on its last axis, read at an entry.

  For the dimension numbers of a `B×M×K` by `B×N×K` product (axis 0 of both operands is the batch axis, axis 2 of
  both is contracted, axis 1 of each is free), the contraction sum at the entry `(b, p, q)`, on the extended reals,
  is `∑ k, lhs (b, p, k) · rhs (b, q, k)`: within batch `b`, a row of the left operand against a row of the right
  one. A printed record with these six lists is `batchDims B M K N wf` for its own well-formedness field `wf` (a
  proposition), so it is rewritten to it by `rfl`.
-/
import Idealize.ShloMosaic.PureOps.Ideal.Laws
import Idealize.ShloMosaic.Lib.ValueIdx

noncomputable section

namespace Cert.BatchDot

open Idealize.ShloMosaic Idealize.ShloMosaic.ValueIdx
open scoped BigOperators

/-- The dimension numbers of the batched product: batch axis 0, free axis 1, contracted axis 2, on both operands. -/
abbrev batchDims (B M K N : Nat)
    (wf : DotDims.WF (⟨3, ![B, M, K]⟩ : Shape) (⟨3, ![B, N, K]⟩ : Shape) (⟨3, ![B, M, N]⟩ : Shape) [2] [2] [1] [1] [0] [0]) :
    DotDims ⟨3, ![B, M, K]⟩ ⟨3, ![B, N, K]⟩ ⟨3, ![B, M, N]⟩ where
  lhsContracting := [2]
  rhsContracting := [2]
  lhsNonContracting := [1]
  rhsNonContracting := [1]
  lhsBatch := [0]
  rhsBatch := [0]
  wf := wf

variable {B M K N : Nat}
variable (wf : DotDims.WF (⟨3, ![B, M, K]⟩ : Shape) (⟨3, ![B, N, K]⟩ : Shape) (⟨3, ![B, M, N]⟩ : Shape) [2] [2] [1] [1] [0] [0])

/-- The left operand's index at result entry `j` and contraction position `k` is `(j 0, j 1, k)`. -/
theorem lhsIdx_eq (j : (⟨3, ![B, M, N]⟩ : Shape).Idx) (k : Fin K) :
    (batchDims B M K N wf).lhsIdx j ((contrEquiv1 (batchDims B M K N wf) K rfl rfl).symm k) = ix3 (j 0) (j 1) k := by
  have hk := contrEquiv1_symm_val (batchDims B M K N wf) K rfl rfl k
  funext a
  apply Fin.ext
  match a with
  | ⟨0, _⟩ =>
    show ((batchDims B M K N wf).lhsIdx j _ 0).val = (j 0).val
    unfold DotDims.lhsIdx
    rw [dif_pos (show (0 : Fin 3) ∈ (batchDims B M K N wf).lhsBatch from List.mem_singleton.mpr rfl)]
    rfl
  | ⟨1, _⟩ =>
    show ((batchDims B M K N wf).lhsIdx j _ 1).val = (j 1).val
    unfold DotDims.lhsIdx
    rw [dif_neg (show ¬(1 : Fin 3) ∈ (batchDims B M K N wf).lhsBatch from fun h => absurd (List.mem_singleton.mp h) (by decide : ¬((1 : Fin 3) = 0))),
      dif_pos (show (1 : Fin 3) ∈ (batchDims B M K N wf).lhsNonContracting from List.mem_singleton.mpr rfl)]
    rfl
  | ⟨2, _⟩ => exact ((batchDims B M K N wf).lhsIdx_val_of_single rfl j _).trans hk

/-- The right operand's index at result entry `j` and contraction position `k` is `(j 0, j 2, k)`. -/
theorem rhsIdx_eq (j : (⟨3, ![B, M, N]⟩ : Shape).Idx) (k : Fin K) :
    (batchDims B M K N wf).rhsIdx j ((contrEquiv1 (batchDims B M K N wf) K rfl rfl).symm k) = ix3 (j 0) (j 2) k := by
  have hk := contrEquiv1_symm_val (batchDims B M K N wf) K rfl rfl k
  funext a
  apply Fin.ext
  match a with
  | ⟨0, _⟩ =>
    show ((batchDims B M K N wf).rhsIdx j _ 0).val = (j 0).val
    unfold DotDims.rhsIdx
    rw [dif_pos (show (0 : Fin 3) ∈ (batchDims B M K N wf).rhsBatch from List.mem_singleton.mpr rfl)]
    rfl
  | ⟨1, _⟩ =>
    show ((batchDims B M K N wf).rhsIdx j _ 1).val = (j 2).val
    unfold DotDims.rhsIdx
    rw [dif_neg (show ¬(1 : Fin 3) ∈ (batchDims B M K N wf).rhsBatch from fun h => absurd (List.mem_singleton.mp h) (by decide : ¬((1 : Fin 3) = 0))),
      dif_pos (show (1 : Fin 3) ∈ (batchDims B M K N wf).rhsNonContracting from List.mem_singleton.mpr rfl)]
    rfl
  | ⟨2, _⟩ => exact ((batchDims B M K N wf).rhsIdx_val_of_single rfl j _).trans hk

/-- The contraction sum at `(b, p, q)` is the sum over `k` of `lhs (b, p, k) · rhs (b, q, k)`. -/
theorem contraction_eq (lhs : (⟨3, ![B, M, K]⟩ : Shape).Idx → EReal) (rhs : (⟨3, ![B, N, K]⟩ : Shape).Idx → EReal)
    (b : Fin B) (p : Fin M) (q : Fin N) :
    (∑ k : (batchDims B M K N wf).contr.Idx,
        lhs ((batchDims B M K N wf).lhsIdx (ix3 b p q) k) * rhs ((batchDims B M K N wf).rhsIdx (ix3 b p q) k))
      = ∑ k : Fin K, lhs (ix3 b p k) * rhs (ix3 b q k) := by
  rw [← Equiv.sum_comp (contrEquiv1 (batchDims B M K N wf) K rfl rfl).symm]
  refine Finset.sum_congr rfl fun k _ => ?_
  rw [lhsIdx_eq, rhsIdx_eq]
  rfl

/-- The host's batched product, read at the entry `(b, p, q)`: the sum over `k` of `lhs (b, p, k) · rhs (b, q, k)`. -/
theorem dotGeneral_batch_apply {φ₁ φ₂ : FTy} (prec : Option ContractPrecision) (sched : HostSchedule)
    (lhs : FVec Ideal (⟨3, ![B, M, K]⟩ : Shape) φ₁) (rhs : FVec Ideal (⟨3, ![B, N, K]⟩ : Shape) φ₂)
    (b : Fin B) (p : Fin M) (q : Fin N) :
    FloatOps.dotGeneral (F := Ideal) (batchDims B M K N wf) prec sched lhs rhs (ix3 b p q)
      = ∑ k : Fin K, lhs (ix3 b p k) * rhs (ix3 b q k) :=
  (Ideal.dotGeneral_apply (batchDims B M K N wf) prec sched lhs rhs (ix3 b p q)).trans (contraction_eq wf lhs rhs b p q)

end Cert.BatchDot

end
-- ==== Proof.RefMlp.lean ====
/-
  The reference's expert MLP is the expert MLP of the specification.

  The reference contracts the whole buffer against the gate/up weights with one batched product (batch axis the
  expert, the last axes contracted), cuts the result's last axis into the gate half and the up half, applies SiLU to the
  gate — spelled x · (1 / (1 + e⁻ˣ)), which is x · σ(x) — multiplies by the up half, and contracts against the down weights with
  a second batched product. Read at an index (e, c, h) that is the specification's sum.
-/
import proofs.«174603_j78443282694942_2_alg».proof.Proof.Gen.ReferenceIdeal
import proofs.«174603_j78443282694942_2_alg».proof.Proof.Spec
import proofs.«174603_j78443282694942_2_alg».proof.Proof.LibBatchDot
import Idealize.ShloMosaic.Lib.ValueLayout
import Idealize.ShloMosaic.PureOps.Ideal.Laws
import Idealize.ShloMosaic.PureOps.IdealRules

noncomputable section

namespace Cert.ReferenceIdeal.Mlp

open Cert.ReferenceIdeal Idealize.ShloMosaic Idealize.ShloMosaic.ValueIdx Cert.MoE
open scoped BigOperators

/-- A rank-3 array cut along its last axis from `o` reads, at (a, b, j), the source at (a, b, k) with k = o + j. -/
theorem slice3_last_apply {α : Type} {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- The f32 word of 1.0 is the real 1. -/
theorem one_word : Ideal.ofBits .f32 0x3F800000#32 = 1 := IdealRules.sign_bit.ideal_onePat .f32

/-- The batched gate/up projection, as an array. -/
abbrev guArr (buf : FVec Ideal S64x513x1024 .f32) (a3 : FVec Ideal S64x1024x1024 .f32) : FVec Ideal S64x513x1024 .f32 :=
  Host.dotGeneral dot_S64x513x1024_S64x1024x1024_S64x513x1024_2_2_1_1_0_0 none buf a3

theorem gu_apply (buf : FVec Ideal S64x513x1024 .f32) (a3 : FVec Ideal S64x1024x1024 .f32) (e : Fin 64) (c : Fin 513) (o : Fin 1024) :
    guArr buf a3 (ix3 e c o) = gu buf a3 e c o :=
  BatchDot.dotGeneral_batch_apply (B := 64) (M := 513) (K := 1024) (N := 1024)
    Facts₀.dot_S64x513x1024_S64x1024x1024_S64x513x1024_2_2_1_1_0_0_wf none .single buf a3 e c o

/-- SiLU as the reference spells it, at an element. -/
theorem silu_apply (g : FVec Ideal S64x513x512 .f32) (j : S64x513x512.Idx) :
    mulf g (Host.divf (broadcastInDim S64x513x512 ![] Facts₀.bcast_S_S64x513x512 (constant (F := Ideal) S_ .f32 0x3F800000#32))
        (addf (broadcastInDim S64x513x512 ![] Facts₀.bcast_S_S64x513x512 (constant (F := Ideal) S_ .f32 0x3F800000#32))
          (Host.exp (Host.negf g)))) j
      = g j * Ideal.logistic (g j) := by
  show g j * Ideal.div (Ideal.ofBits .f32 0x3F800000#32) (Ideal.ofBits .f32 0x3F800000#32 + Ideal.exp (-(g j))) = _
  rw [one_word]
  rfl

/-- SiLU as the reference spells it, as an array operation. -/
abbrev siluArr (g : FVec Ideal S64x513x512 .f32) : FVec Ideal S64x513x512 .f32 :=
  mulf g (Host.divf (broadcastInDim S64x513x512 ![] Facts₀.bcast_S_S64x513x512 (constant (F := Ideal) S_ .f32 0x3F800000#32))
    (addf (broadcastInDim S64x513x512 ![] Facts₀.bcast_S_S64x513x512 (constant (F := Ideal) S_ .f32 0x3F800000#32))
      (Host.exp (Host.negf g))))

/-- The gate half of the projection. -/
abbrev gateArr (buf : FVec Ideal S64x513x1024 .f32) (a3 : FVec Ideal S64x1024x1024 .f32) : FVec Ideal S64x513x512 .f32 :=
  extractStridedSlice S64x513x512 ![0, 0, 0] (guArr buf a3) Facts₀.slices_S64x513x1024_S64x513x512_0_0_0
/-- The up half of the projection. -/
abbrev upArr (buf : FVec Ideal S64x513x1024 .f32) (a3 : FVec Ideal S64x1024x1024 .f32) : FVec Ideal S64x513x512 .f32 :=
  extractStridedSlice S64x513x512 ![0, 0, 512] (guArr buf a3) Facts₀.slices_S64x513x1024_S64x513x512_0_0_512

theorem gate_apply (buf : FVec Ideal S64x513x1024 .f32) (a3 : FVec Ideal S64x1024x1024 .f32) (e : Fin 64) (c : Fin 513) (i : Fin 512) :
    gateArr buf a3 (ix3 e c i) = gu buf a3 e c (lo i) :=
  (slice3_last_apply 0 (guArr buf a3) Facts₀.slices_S64x513x1024_S64x513x512_0_0_0 e c i (lo i) (Nat.zero_add _).symm).trans
    (gu_apply buf a3 e c (lo i))

theorem up_apply (buf : FVec Ideal S64x513x1024 .f32) (a3 : FVec Ideal S64x1024x1024 .f32) (e : Fin 64) (c : Fin 513) (i : Fin 512) :
    upArr buf a3 (ix3 e c i) = gu buf a3 e c (hi i) :=
  (slice3_last_apply 512 (guArr buf a3) Facts₀.slices_S64x513x1024_S64x513x512_0_0_512 e c i (hi i) rfl).trans
    (gu_apply buf a3 e c (hi i))

/-- The hidden activation array: SiLU of the gate half times the up half. -/
abbrev hidArr (buf : FVec Ideal S64x513x1024 .f32) (a3 : FVec Ideal S64x1024x1024 .f32) : FVec Ideal S64x513x512 .f32 :=
  mulf (siluArr (gateArr buf a3)) (upArr buf a3)

theorem hid_apply (buf : FVec Ideal S64x513x1024 .f32) (a3 : FVec Ideal S64x1024x1024 .f32) (e : Fin 64) (c : Fin 513) (i : Fin 512) :
    hidArr buf a3 (ix3 e c i) = hid buf a3 e c i := by
  refine (mulf_apply _ _ _).trans ?_
  unfold hid
  refine congrArg₂ (· * ·) ?_ (up_apply buf a3 e c i)
  refine (silu_apply (gateArr buf a3) (ix3 e c i)).trans ?_
  rw [gate_apply]

/-- The reference's per-expert output array. -/
abbrev yArr (buf : FVec Ideal S64x513x1024 .f32) (a3 : FVec Ideal S64x1024x1024 .f32) (a4 : FVec Ideal S64x1024x512 .f32) :
    FVec Ideal S64x513x1024 .f32 :=
  Host.dotGeneral dot_S64x513x512_S64x1024x512_S64x513x1024_2_2_1_1_0_0 none (hidArr buf a3) a4

/-- It is the expert MLP of the specification. -/
theorem y_eq (buf : FVec Ideal S64x513x1024 .f32) (a3 : FVec Ideal S64x1024x1024 .f32) (a4 : FVec Ideal S64x1024x512 .f32) :
    yArr buf a3 a4 = expertOut buf a3 a4 := by
  funext j
  obtain ⟨e, c, h, rfl⟩ : ∃ (e : Fin 64) (c : Fin 513) (h : Fin 1024), j = ix3 e c h := ⟨j 0, j 1, j 2, eq_ix3 j⟩
  rw [expertOut_ix3]
  unfold expertAt
  refine (BatchDot.dotGeneral_batch_apply (B := 64) (M := 513) (K := 512) (N := 1024)
    Facts₀.dot_S64x513x512_S64x1024x512_S64x513x1024_2_2_1_1_0_0_wf none .single (hidArr buf a3) a4 e c h).trans ?_
  exact Finset.sum_congr rfl fun i _ => by rw [hid_apply]

end Cert.ReferenceIdeal.Mlp

end
-- ==== Proof.LibScatterRows.lean ====
/-
  A row scatter that accumulates, read at an index, and the sum it equals when each row goes to the row numbered by
  its own number divided by K.

  What `x.at[idx].add(U)` of an array `x : [N, C]`, an integer vector `idx : [R]` and updates `U : [R, C]` lowers to is a
  scatter with an add body, update window axis 1, inserted window axis 0, scatter-dims-to-operand-dims [0] and index vector
  axis 1 over the indices as `[R, 1]`: row `p` of `U` is added to the row of `x` whose number is `idx[p, 0]` read as a
  signed integer, and a row whose index lies outside `[0, N)` is dropped. On the extended reals:

  (A) the result at (t, c) is `x (t, c)` plus the sum of `U (p, c)` over the rows `p` with `idx[p, 0] = t`
      (`scatterAdd_rows_apply`; `resultIdx?_rows_iff` says which update element lands where, from the general
      `resultIdx?_eq_some_iff`: an update lands on `i` exactly when start plus window coordinate is `i`'s coordinate on
      every axis);
  (B) when `idx[p, 0] = p / K` for every row (K positive, `N * K ≤ R`), the rows landing on row `t` are
      `K * t + k` for `k < K`, so the result at (t, c) is `x (t, c) + ∑ k < K, U (K * t + k, c)` (`scatterAdd_rows_div`);
  (C) the sum over the MIDDLE axis of `U` read row-major as `[N, K, C]` — position (t, k, c) is row `K * t + k`, column
      `c` — from an initial value `init` is at (t, c) `init + ∑ k < K, U (K * t + k, c)` (`reshape_midsum_apply`);
  (D) so with `x` zero everywhere and `init` zero the two arrays are equal (`combine_law`; `combine_law_zero_f32` with
      the zeros written as the f32 constant `0.0`, broadcast on the scatter's side).

  The extents N, K, C, R are arbitrary.
-/
import Idealize.ShloMosaic.Lib.ValueIdx
import Idealize.ShloMosaic.Lib.Pipeline.Value
import Idealize.ShloMosaic.PureOps.Ideal.Laws

namespace ScatterRows

open Idealize.ShloMosaic Idealize.ShloMosaic.ValueIdx

/-- An update lands on operand element `i` exactly when, on every axis, start plus window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h
    split at h
    · next hc =>
      intro a
      have e := congrFun (Option.some.inj h) a
      have e' : (d.start j idx a + (d.window j a : ℤ)).toNat = (i a).val := congrArg Fin.val e
      have := (hc a).1
      omega
    · exact absurd h (by simp)
  · intro h
    have hc : ∀ a, 0 ≤ d.start j idx a + (d.window j a : ℤ) ∧ d.start j idx a + (d.window j a : ℤ) < s.size a := by
      intro a
      have := h a
      have := (i a).isLt
      omega
    rw [dif_pos hc]
    refine congrArg some (funext fun a => Fin.ext ?_)
    show (d.start j idx a + (d.window j a : ℤ)).toNat = (i a).val
    have := h a
    omega

/-- The dimension numbers of a row scatter into an operand `[N, C]` at scatter indices `[R, 1]` with updates `[R, C]`. -/
abbrev rowDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section
variable {N C R w : Nat} (wf : ScatterDims.WF ⟨2, ![N, C]⟩ ⟨2, ![R, 1]⟩ ⟨2, ![R, C]⟩ [1] [0] [0] 1)

/-- On the operand's row axis the window of update element (p, c) starts at row p's index, read signed. -/
theorem start_zero (idx : IVec ⟨2, ![R, 1]⟩ w) (p : Fin R) (c : Fin C) :
    (rowDims N C R wf).start (ix2 p c) idx (0 : Fin 2) = (idx (ix2 p (0 : Fin 1))).toInt := by
  unfold ScatterDims.start
  rw [dif_pos (show (0 : Fin 2) ∈ (rowDims N C R wf).scatterDimsToOperandDims from List.mem_singleton.mpr rfl)]
  have hsi : (rowDims N C R wf).siIdx (ix2 p c) ⟨List.idxOf (0 : Fin 2) (rowDims N C R wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- On the operand's column axis every window starts at 0. -/
theorem start_one (idx : IVec ⟨2, ![R, 1]⟩ w) (j : (⟨2, ![R, C]⟩ : Shape).Idx) :
    (rowDims N C R wf).start j idx (1 : Fin 2) = 0 := by
  unfold ScatterDims.start
  exact dif_neg (by decide : (1 : Fin 2) ∉ ([0] : List (Fin 2)))

/-- The window coordinate on the operand's row axis, an inserted axis, is 0. -/
theorem window_zero (j : (⟨2, ![R, C]⟩ : Shape).Idx) : (rowDims N C R wf).window j (0 : Fin 2) = 0 := by
  unfold ScatterDims.window
  exact dif_neg (show (0 : Fin 2) ∉ (List.finRange 2).filter (· ∉ [(0 : Fin 2)]) by decide)

/-- The window coordinate on the operand's column axis is the update element's column. -/
theorem window_one (j : (⟨2, ![R, C]⟩ : Shape).Idx) : (rowDims N C R wf).window j (1 : Fin 2) = (j 1).val := by
  unfold ScatterDims.window
  have h1 : (1 : Fin 2) ∈ (rowDims N C R wf).sKept :=
    show (1 : Fin 2) ∈ (List.finRange 2).filter (· ∉ [(0 : Fin 2)]) by decide
  rw [dif_pos h1]
  rfl

end

section
variable {N C R w : Nat} (wf : ScatterDims.WF ⟨2, ![N, C]⟩ ⟨2, ![R, 1]⟩ ⟨2, ![R, C]⟩ [1] [0] [0] 1)

/-- Update element (p, c') lands on operand element (t, c) exactly when row p's index, read signed, is t and c' = c. -/
theorem resultIdx?_rows_iff (idx : IVec ⟨2, ![R, 1]⟩ w) (p : Fin R) (c' : Fin C) (t : Fin N) (c : Fin C) :
    (rowDims N C R wf).resultIdx? (ix2 p c') idx = some (ix2 t c)
      ↔ (idx (ix2 p (0 : Fin 1))).toInt = (t.val : ℤ) ∧ c' = c := by
  rw [resultIdx?_eq_some_iff, Fin.forall_fin_two, start_zero, start_one, window_zero, window_one]
  show (idx (ix2 p (0 : Fin 1))).toInt + ((0 : ℕ) : ℤ) = (t.val : ℤ) ∧ (0 : ℤ) + (c'.val : ℤ) = (c.val : ℤ) ↔ _
  constructor
  · rintro ⟨h0, h1⟩
    exact ⟨by omega, Fin.ext (by omega)⟩
  · rintro ⟨h0, rfl⟩
    exact ⟨by omega, by omega⟩

/-- The accumulating row scatter at (t, c): the operand there plus the sum of column c of the update rows whose index is t. -/
theorem scatterAdd_rows_apply (x : (⟨2, ![N, C]⟩ : Shape).Idx → EReal) (idx : IVec ⟨2, ![R, 1]⟩ w)
    (upd : (⟨2, ![R, C]⟩ : Shape).Idx → EReal) (t : Fin N) (c : Fin C) :
    Ideal.hostScatterAdd (rowDims N C R wf) x idx upd (ix2 t c)
      = x (ix2 t c) + ∑ p ∈ Finset.univ.filter (fun p : Fin R => (idx (ix2 p (0 : Fin 1))).toInt = (t.val : ℤ)), upd (ix2 p c) := by
  unfold Ideal.hostScatterAdd
  congr 1
  symm
  refine Finset.sum_bij (fun p _ => ix2 p c) ?_ ?_ ?_ ?_
  · intro p hp
    rw [Finset.mem_filter] at hp ⊢
    exact ⟨Finset.mem_univ _, (resultIdx?_rows_iff wf idx p c t c).mpr ⟨hp.2, rfl⟩⟩
  · intro p₁ _ p₂ _ h
    exact congrFun h (0 : Fin 2)
  · intro j hj
    rw [Finset.mem_filter] at hj
    have hj2 := hj.2
    rw [eq_ix2 j] at hj2
    obtain ⟨h0, h1⟩ := (resultIdx?_rows_iff wf idx (j 0) (j 1) t c).mp hj2
    refine ⟨j 0, Finset.mem_filter.mpr ⟨Finset.mem_univ _, h0⟩, ?_⟩
    rw [← h1]
    exact (eq_ix2 j).symm
  · intro p _
    rfl

end

/-- Row `K * t + k` of an array of at least `N * K` rows, for `t < N` and `k < K`. -/
theorem row_lt {N K R : Nat} (hR : N * K ≤ R) (t : Fin N) (k : Fin K) : K * t.val + k.val < R := by
  have h1 : K * t.val + K ≤ K * N := by
    have := Nat.mul_le_mul_left K (Nat.succ_le_of_lt t.isLt)
    rw [Nat.mul_succ] at this
    exact this
  have h2 : K * N = N * K := Nat.mul_comm K N
  have := k.isLt
  omega

section
variable {N C R w : Nat} (wf : ScatterDims.WF ⟨2, ![N, C]⟩ ⟨2, ![R, 1]⟩ ⟨2, ![R, C]⟩ [1] [0] [0] 1)

/-- When row p's index is `p / K`, the rows landing on row t are `K * t + k` for `k < K`. -/
theorem scatterAdd_rows_div {K : Nat} (hK : 0 < K) (hR : N * K ≤ R) (x : (⟨2, ![N, C]⟩ : Shape).Idx → EReal)
    (idx : IVec ⟨2, ![R, 1]⟩ w) (upd : (⟨2, ![R, C]⟩ : Shape).Idx → EReal)
    (hidx : ∀ p : Fin R, (idx (ix2 p (0 : Fin 1))).toInt = ((p.val / K : ℕ) : ℤ)) (t : Fin N) (c : Fin C) :
    Ideal.hostScatterAdd (rowDims N C R wf) x idx upd (ix2 t c)
      = x (ix2 t c) + ∑ k : Fin K, upd (ix2 (⟨K * t.val + k.val, row_lt hR t k⟩ : Fin R) c) := by
  rw [scatterAdd_rows_apply]
  congr 1
  symm
  refine Finset.sum_bij (fun k _ => (⟨K * t.val + k.val, row_lt hR t k⟩ : Fin R)) ?_ ?_ ?_ ?_
  · intro k _
    rw [Finset.mem_filter]
    refine ⟨Finset.mem_univ _, ?_⟩
    rw [hidx]
    show (((K * t.val + k.val) / K : ℕ) : ℤ) = (t.val : ℤ)
    rw [Nat.mul_add_div hK, Nat.div_eq_of_lt k.isLt, Nat.add_zero]
  · intro k₁ _ k₂ _ h
    have := congrArg Fin.val h
    exact Fin.ext (by simp only at this; omega)
  · intro p hp
    rw [Finset.mem_filter, hidx] at hp
    have hp2 : p.val / K = t.val := by exact_mod_cast hp.2
    refine ⟨⟨p.val % K, Nat.mod_lt _ hK⟩, Finset.mem_univ _, Fin.ext ?_⟩
    show K * t.val + p.val % K = p.val
    rw [← hp2]
    exact Nat.div_add_mod p.val K
  · intro k _
    rfl

end

/-- The sum over the middle axis of an array `[R, C]` read row-major as `[N, K, C]`, at (t, c): the initial value plus the
    sum over `k < K` of the array at (K * t + k, c). -/
theorem reshape_midsum_apply {N K C R : Nat} (hR : N * K ≤ R) (U : (⟨2, ![R, C]⟩ : Shape).Idx → EReal)
    (hc : (⟨2, ![R, C]⟩ : Shape).ShapeCasts ⟨3, ![N, K, C]⟩)
    (hr : (⟨3, ![N, K, C]⟩ : Shape).ReducesTo [1] ⟨2, ![N, C]⟩) (init : EReal) (t : Fin N) (c : Fin C) :
    Ideal.hostReduceAdd hr (shapeCast ⟨3, ![N, K, C]⟩ U hc) init (ix2 t c)
      = init + ∑ k : Fin K, U (ix2 (⟨K * t.val + k.val, row_lt hR t k⟩ : Fin R) c) := by
  have h : (⟨3, ![N, K, C]⟩ : Shape).Reduces [1] ⟨2, ![N, C]⟩ := ⟨hr.1, Nat.zero_lt_two, hr.2⟩
  rw [Ideal.hostReduceAdd_single hr h]
  congr 1
  refine Finset.sum_congr rfl fun k _ => ?_
  refine shapeCast_apply U hc _ _ ?_
  rw [Shape.rowMajor_val_two, Shape.rowMajor_val_three]
  show (K * t.val + k.val) * C + c.val = (t.val * K + k.val) * C + c.val
  rw [Nat.mul_comm K]

section
variable {N C R w : Nat} (wf : ScatterDims.WF ⟨2, ![N, C]⟩ ⟨2, ![R, 1]⟩ ⟨2, ![R, C]⟩ [1] [0] [0] 1)

/-- Scattering the rows of `U : [R, C]` into a zero array `[N, C]` at row indices `p / K`, accumulating, is summing the
    middle axis of `U` read row-major as `[N, K, C]` from a zero initial value. -/
theorem combine_law {φ : FTy} {K : Nat} (hK : 0 < K) (hR : N * K ≤ R) {u : Shape} (hu : 0 < u.numel)
    (x : FVec Ideal ⟨2, ![N, C]⟩ φ) (init : u.Idx → Ideal φ) (hx : ∀ i, x i = (0 : EReal)) (hinit : ∀ i, init i = (0 : EReal))
    (idx : IVec ⟨2, ![R, 1]⟩ w) (hidx : ∀ p : Fin R, (idx (ix2 p (0 : Fin 1))).toInt = ((p.val / K : ℕ) : ℤ))
    (U : FVec Ideal ⟨2, ![R, C]⟩ φ)
    (hc : (⟨2, ![R, C]⟩ : Shape).ShapeCasts ⟨3, ![N, K, C]⟩)
    (hr : (⟨3, ![N, K, C]⟩ : Shape).ReducesTo [1] ⟨2, ![N, C]⟩) :
    Host.scatterAdd (F := Ideal) (rowDims N C R wf) x idx U
      = Host.reduceAdd (F := Ideal) (shapeCast ⟨3, ![N, K, C]⟩ U hc) init hr hu := by
  funext j
  obtain ⟨t, c, rfl⟩ : ∃ t c, j = ix2 t c := ⟨j 0, j 1, eq_ix2 j⟩
  show Ideal.hostScatterAdd (rowDims N C R wf) x idx U (ix2 t c)
    = Ideal.hostReduceAdd hr (shapeCast ⟨3, ![N, K, C]⟩ U hc) (init (Shape.Idx.first hu)) (ix2 t c)
  rw [scatterAdd_rows_div wf hK hR x idx U hidx, reshape_midsum_apply hR, hx, hinit]

/-- The same with the two zeros as a program writes them: the f32 constant `0.0` as a scalar, broadcast to `[N, C]` on the
    scatter's side and the initial value on the sum's side. -/
theorem combine_law_zero_f32 {K : Nat} (hK : 0 < K) (hR : N * K ≤ R)
    (hb : (⟨0, ![]⟩ : Shape).BroadcastsInDim ⟨2, ![N, C]⟩ (![] : Fin 0 → Fin 2))
    (hu : 0 < (⟨0, ![]⟩ : Shape).numel)
    (idx : IVec ⟨2, ![R, 1]⟩ w) (hidx : ∀ p : Fin R, (idx (ix2 p (0 : Fin 1))).toInt = ((p.val / K : ℕ) : ℤ))
    (U : FVec Ideal ⟨2, ![R, C]⟩ .f32)
    (hc : (⟨2, ![R, C]⟩ : Shape).ShapeCasts ⟨3, ![N, K, C]⟩)
    (hr : (⟨3, ![N, K, C]⟩ : Shape).ReducesTo [1] ⟨2, ![N, C]⟩) :
    Host.scatterAdd (F := Ideal) (rowDims N C R wf)
        (broadcastInDim ⟨2, ![N, C]⟩ ![] hb (constant (F := Ideal) ⟨0, ![]⟩ .f32 0x00000000#32)) idx U
      = Host.reduceAdd (F := Ideal) (shapeCast ⟨3, ![N, K, C]⟩ U hc) (constant (F := Ideal) ⟨0, ![]⟩ .f32 0x00000000#32) hr hu :=
  combine_law wf hK hR hu _ _ (fun _ => Ideal.ofBits_zero_f32) (fun _ => Ideal.ofBits_zero_f32) idx hidx U hc hr

end

end ScatterRows
-- ==== Proof.LibRowGather.lean ====
/-
  A row gather read at an index. What `x[idx]` of a table `x : [N, C]` at an integer vector `idx : [R]` lowers to is a
  gather with offset axis 1, collapsed slice axis 0, start index map [0], slice sizes [1, C] and index vector axis 1
  over the indices as `[R, 1]`: row `r` of the result is the table's row whose number is `idx[r, 0]` read as a signed
  integer and clamped into `[0, N - 1]`; column `c` of the result is column `c` of that row. The extents N, C, R are
  arbitrary (N positive).
-/
import Idealize.ShloMosaic.Lib.ValueIdx

namespace RowGather

open Idealize.ShloMosaic Idealize.ShloMosaic.ValueIdx

variable {α : Type}

/-- The dimension numbers of a row gather for a table `[N, C]`, start indices `[R, 1]` and result `[R, C]`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gathered array at (r, c) is the table at (clamp (idx (r, 0)), c). -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N C R wf).start (ix2 r c) idx (0 : Fin 2) + (rowDims N C R wf).batchCoord (ix2 r c) (0 : Fin 2)
        + (rowDims N C R wf).offCoord (ix2 r c) (0 : Fin 2) = min (idx (ix2 r (0 : Fin 1))).toInt.toNat (N - 1)
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r c) ⟨List.idxOf (0 : Fin 2) (rowDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    have hs : (rowDims N C R wf).start (ix2 r c) idx (1 : Fin 2) = 0 := by
      unfold GatherDims.start
      exact dif_neg (by decide : (1 : Fin 2) ∉ ([0] : List (Fin 2)))
    have ho : (rowDims N C R wf).offCoord (ix2 r c) (1 : Fin 2) = c.val := by
      unfold GatherDims.offCoord
      rw [dif_pos ((GatherDims.mem_sKept _ _).mpr
        ⟨(by decide : (1 : Fin 2) ∉ ([0] : List (Fin 2))), List.not_mem_nil⟩)]
      rfl
    show (rowDims N C R wf).start (ix2 r c) idx (1 : Fin 2) + (rowDims N C R wf).batchCoord (ix2 r c) (1 : Fin 2)
        + (rowDims N C R wf).offCoord (ix2 r c) (1 : Fin 2) = c.val
    rw [GatherDims.batchCoord_eq_zero _ _ _ List.not_mem_nil, hs, ho]
    omega

end RowGather
-- ==== Proof.LibTokenRows.lean ====
/-
  The token of a pair, and the two ways of repeating each token's row.

  There are 4096 tokens with 4 pairs each, 16384 pairs in row-major order: pair `p` belongs to token `p / 4`.

  * `tokChain` is the integer column `[16384, 1]` of start indices that `x[arange(4096).repeat(4)]` lowers to: the
    iota over the tokens, stretched along a new axis of four and flattened (`tokFlat`), then the wrap of negative
    indices `i < 0 ? i + 4096 : i` (`tokWrap`), then a trailing unit axis. Read as a signed integer, its entry at
    pair `p` is `p / 4` (`tokChain_toInt`): the flattening is row-major, `p = 4 · (p / 4) + p % 4`, and a word below
    `4096` is not negative, so the wrap does nothing.
  * `dispatch_src_eq`: for a table `x : [4096, 1024]` of token rows on the extended reals, stretching a unit axis
    to four and flattening it with the token axis (then a narrowing of the float format, the identity on the extended
    reals) is the row gather of `x` at `tokChain`. Both are `(p, h) ↦ x (p / 4, h)`.

  Every side condition (the broadcasts', the reshapes', the gather's well-formedness, the formats' widths) is an
  argument, so the statements apply to terms that carry any proofs of them.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal
import proofs.«174603_j78443282694942_2_alg».proof.Proof.LibRowGather

namespace Cert.TokenRows

open Idealize.ShloMosaic Idealize.ShloMosaic.ValueIdx

/-- The token number of every pair, as a flat vector: pair `p` of token `t` (`p = 4 t + k`) holds `t`. -/
def tokFlat (hb1 : (⟨1, ![4096]⟩ : Shape).BroadcastsInDim ⟨2, ![4096, 4]⟩ ![0])
    (hc1 : (⟨2, ![4096, 4]⟩ : Shape).ShapeCasts ⟨1, ![16384]⟩) : IVec ⟨1, ![16384]⟩ 32 :=
  shapeCast ⟨1, ![16384]⟩ (broadcastInDim ⟨2, ![4096, 4]⟩ ![0] hb1 (iotaInDim ⟨1, ![4096]⟩ 32 0)) hc1

/-- The same vector after the wrap of negative indices (`i < 0 ? i + 4096 : i`). -/
def tokWrap (hb1 : (⟨1, ![4096]⟩ : Shape).BroadcastsInDim ⟨2, ![4096, 4]⟩ ![0])
    (hc1 : (⟨2, ![4096, 4]⟩ : Shape).ShapeCasts ⟨1, ![16384]⟩)
    (hb0 : (⟨0, ![]⟩ : Shape).BroadcastsInDim ⟨1, ![16384]⟩ ![]) : IVec ⟨1, ![16384]⟩ 32 :=
  select (cmpi .slt (tokFlat hb1 hc1) (broadcastInDim ⟨1, ![16384]⟩ ![] hb0 (constantI ⟨0, ![]⟩ 32 0#32)))
    (addi (tokFlat hb1 hc1) (broadcastInDim ⟨1, ![16384]⟩ ![] hb0 (constantI ⟨0, ![]⟩ 32 4096#32))) (tokFlat hb1 hc1)

/-- The wrapped vector as a column: the start indices of the row gather. -/
def tokChain (hb1 : (⟨1, ![4096]⟩ : Shape).BroadcastsInDim ⟨2, ![4096, 4]⟩ ![0])
    (hc1 : (⟨2, ![4096, 4]⟩ : Shape).ShapeCasts ⟨1, ![16384]⟩)
    (hb0 : (⟨0, ![]⟩ : Shape).BroadcastsInDim ⟨1, ![16384]⟩ ![])
    (hb2 : (⟨1, ![16384]⟩ : Shape).BroadcastsInDim ⟨2, ![16384, 1]⟩ ![0]) : IVec ⟨2, ![16384, 1]⟩ 32 :=
  broadcastInDim ⟨2, ![16384, 1]⟩ ![0] hb2 (tokWrap hb1 hc1 hb0)

variable (hb1 : (⟨1, ![4096]⟩ : Shape).BroadcastsInDim ⟨2, ![4096, 4]⟩ ![0])
  (hc1 : (⟨2, ![4096, 4]⟩ : Shape).ShapeCasts ⟨1, ![16384]⟩)
  (hb0 : (⟨0, ![]⟩ : Shape).BroadcastsInDim ⟨1, ![16384]⟩ ![])
  (hb2 : (⟨1, ![16384]⟩ : Shape).BroadcastsInDim ⟨2, ![16384, 1]⟩ ![0])

/-- The flat vector at pair `p` is the word of `p / 4`. -/
theorem tokFlat_apply (p : Fin 16384) : tokFlat hb1 hc1 (ix1 p) = BitVec.ofNat 32 (p.val / 4) := by
  have hp := p.isLt
  unfold tokFlat
  rw [shapeCast_apply _ hc1 (ix1 p) (ix2 (⟨p.val / 4, by omega⟩ : Fin 4096) (⟨p.val % 4, by omega⟩ : Fin 4)) (by
    rw [Shape.rowMajor_val_two, Shape.rowMajor_val_one]
    show p.val / 4 * 4 + p.val % 4 = p.val
    omega)]
  rw [broadcastInDim_apply _ hb1 _ _ (ix1 (⟨p.val / 4, by omega⟩ : Fin 4096)) (by
    intro a
    match a with
    | ⟨0, _⟩ => rfl)]
  rfl

/-- A word below `4096` reads back, as a signed integer, as itself. -/
theorem word_toInt (n : Nat) (hn : n < 4096) : (BitVec.ofNat 32 n).toInt = (n : ℤ) := by
  have h1 : (BitVec.ofNat 32 n).toNat = n := by rw [BitVec.toNat_ofNat]; omega
  rw [BitVec.toInt_eq_toNat_of_lt (by rw [h1]; omega), h1]

/-- A word below `4096` is not negative as a signed integer. -/
theorem word_not_slt_zero (n : Nat) (hn : n < 4096) : IntOp.cmpi .slt (BitVec.ofNat 32 n) 0#32 = 0#1 := by
  have h : (BitVec.ofNat 32 n).slt 0#32 = false := by
    unfold BitVec.slt
    rw [word_toInt n hn, BitVec.toInt_zero]
    exact decide_eq_false (by omega)
  show BitVec.ofBool ((BitVec.ofNat 32 n).slt 0#32) = 0#1
  rw [h]
  rfl

/-- The wrap leaves the flat vector as it is: at pair `p` it is still the word of `p / 4`. -/
theorem tokWrap_apply (p : Fin 16384) : tokWrap hb1 hc1 hb0 (ix1 p) = BitVec.ofNat 32 (p.val / 4) := by
  have hp := p.isLt
  unfold tokWrap
  rw [select_apply]
  show Scalar.select (IntOp.cmpi .slt (tokFlat hb1 hc1 (ix1 p)) (broadcastInDim ⟨1, ![16384]⟩ ![] hb0 (constantI ⟨0, ![]⟩ 32 0#32) (ix1 p))) _ (tokFlat hb1 hc1 (ix1 p)) = _
  rw [broadcastInDim_scalar_apply, constantI_apply, tokFlat_apply, word_not_slt_zero _ (by omega)]
  rfl

/-- The start index of pair `p`, read as a signed integer, is its token `p / 4`. -/
theorem tokChain_toInt (p : Fin 16384) : (tokChain hb1 hc1 hb0 hb2 (ix2 p (0 : Fin 1))).toInt = ((p.val / 4 : ℕ) : ℤ) := by
  have hp := p.isLt
  unfold tokChain
  rw [broadcastInDim_apply _ hb2 _ _ (ix1 p) (by
    intro a
    match a with
    | ⟨0, _⟩ => rfl)]
  rw [tokWrap_apply, word_toInt _ (by omega)]

/-- Repeating each token's row four times (a unit axis stretched to four, then flattened with the token axis) is the
    row gather at the pairs' token numbers: both read, at pair `p` and column `h`, the table at `(p / 4, h)`. -/
theorem dispatch_src_eq
    (hbA : (⟨2, ![4096, 1024]⟩ : Shape).BroadcastsInDim ⟨3, ![4096, 1, 1024]⟩ ![0, 2])
    (hbB : (⟨3, ![4096, 1, 1024]⟩ : Shape).BroadcastsInDim ⟨3, ![4096, 4, 1024]⟩ ![0, 1, 2])
    (hcB : (⟨3, ![4096, 4, 1024]⟩ : Shape).ShapeCasts ⟨2, ![16384, 1024]⟩)
    (hlt : FTy.bits .bf16 < FTy.bits .f32)
    (wf : GatherDims.WF ⟨2, ![4096, 1024]⟩ ⟨2, ![16384, 1]⟩ ⟨2, ![16384, 1024]⟩ [1] [0] [] [0] [] 1 ![1, 1024])
    (x : FVec Ideal ⟨2, ![4096, 1024]⟩ .f32) :
    ((truncf .bf16 (shapeCast ⟨2, ![16384, 1024]⟩ (broadcastInDim ⟨3, ![4096, 4, 1024]⟩ ![0, 1, 2] hbB
        (broadcastInDim ⟨3, ![4096, 1, 1024]⟩ ![0, 2] hbA x)) hcB) hlt : FVec Ideal ⟨2, ![16384, 1024]⟩ .bf16)
        : (⟨2, ![16384, 1024]⟩ : Shape).Idx → EReal)
      = Host.gather (RowGather.rowDims 4096 1024 16384 wf) x (tokChain hb1 hc1 hb0 hb2) := by
  funext j
  obtain ⟨p, h, rfl⟩ : ∃ (p : Fin 16384) (h : Fin 1024), j = ix2 p h := ⟨j 0, j 1, eq_ix2 j⟩
  have hp := p.isLt
  have hh := h.isLt
  rw [RowGather.gather_row_apply (by omega) wf x (tokChain hb1 hc1 hb0 hb2) p h, truncf_apply]
  rw [shapeCast_apply _ hcB (ix2 p h) (ix3 (⟨p.val / 4, by omega⟩ : Fin 4096) (⟨p.val % 4, by omega⟩ : Fin 4) h) (by
    rw [Shape.rowMajor_val_three, Shape.rowMajor_val_two]
    show (p.val / 4 * 4 + p.val % 4) * 1024 + h.val = p.val * 1024 + h.val
    omega)]
  rw [broadcastInDim_apply _ hbB _ _ (ix3 (⟨p.val / 4, by omega⟩ : Fin 4096) (0 : Fin 1) h) (by
    intro a
    match a with
    | ⟨0, _⟩ => rfl
    | ⟨1, _⟩ => rfl
    | ⟨2, _⟩ => rfl)]
  rw [broadcastInDim_apply _ hbA _ _ (ix2 (⟨p.val / 4, by omega⟩ : Fin 4096) h) (by
    intro a
    match a with
    | ⟨0, _⟩ => rfl
    | ⟨1, _⟩ => rfl)]
  refine congrArg x ?_
  funext a
  refine Fin.ext ?_
  match a with
  | ⟨0, _⟩ =>
    show p.val / 4 = min (tokChain hb1 hc1 hb0 hb2 (ix2 p (0 : Fin 1))).toInt.toNat (4096 - 1)
    rw [tokChain_toInt]
    show p.val / 4 = min (p.val / 4) (4096 - 1)
    omega
  | ⟨1, _⟩ => rfl

end Cert.TokenRows
-- ==== Proof.BridgeRef.lean ====
/-
  The reference's result, rearranged toward the kernel's.

  (1) The reference's per-expert output array is the expert MLP of the specification.
  (2) The reference adds each weighted pair row into its token's row with an accumulating scatter whose row index
      is pair p ↦ p / 4 (four consecutive pairs per token); on the extended reals that is the sum over the middle axis of the
      pair rows reshaped to [token, 4, column] — the form the kernel computes.
-/
import proofs.«174603_j78443282694942_2_alg».proof.Proof.RefTerm
import proofs.«174603_j78443282694942_2_alg».proof.Proof.RefMlp
import proofs.«174603_j78443282694942_2_alg».proof.Proof.LibScatterRows
import proofs.«174603_j78443282694942_2_alg».proof.Proof.LibTokenRows
import proofs.«174603_j78443282694942_2_alg».proof.Proof.Gen.KernelIdeal

noncomputable section

namespace Cert.Bridge

open Idealize.ShloMosaic Idealize.ShloMosaic.ValueIdx

/-- The reference's per-expert output stage is the expert MLP. -/
theorem yR_eq (buf : FVec Ideal ReferenceIdeal.S64x513x1024 .f32) (a3 : FVec Ideal ReferenceIdeal.S64x1024x1024 .f32)
    (a4 : FVec Ideal ReferenceIdeal.S64x1024x512 .f32) :
    ReferenceIdeal.RefTerm.yR (F := Ideal) buf a3 a4 = MoE.expertOut buf a3 a4 :=
  ReferenceIdeal.Mlp.y_eq buf a3 a4

/-- The row index of the reference's accumulating scatter at pair `p` is its token `p / 4`. -/
theorem tok_idx (p : Fin 16384) :
    ((broadcastInDim ReferenceIdeal.S16384x1 ![0] ReferenceIdeal.Gen.bcast_S16384_S16384x1_0
        (ReferenceIdeal.RefTerm.tokV (F := Ideal)) : IVec ReferenceIdeal.S16384x1 32) (ix2 p (0 : Fin 1))).toInt
      = ((p.val / 4 : ℕ) : ℤ) :=
  TokenRows.tokChain_toInt ReferenceIdeal.Gen.bcast_S4096_S4096x4_0 ReferenceIdeal.Gen.shapeCasts_S4096x4_S16384
    ReferenceIdeal.Gen.bcast_S_S16384 ReferenceIdeal.Gen.bcast_S16384_S16384x1_0 p

/-- The reference's result is the middle-axis sum of its weighted pair rows reshaped to [token, 4, column]. -/
theorem outR_eq (a0 : FVec Ideal ReferenceIdeal.S4096x1024 .f32) (a1 : IVec ReferenceIdeal.S4096x4 32)
    (a2 : FVec Ideal ReferenceIdeal.S4096x4 .f32) (a3 : FVec Ideal ReferenceIdeal.S64x1024x1024 .f32)
    (a4 : FVec Ideal ReferenceIdeal.S64x1024x512 .f32) :
    ReferenceIdeal.RefTerm.outR (F := Ideal) a0 a1 a2 a3 a4
      = Host.reduceAdd (F := Ideal)
          (shapeCast KernelIdeal.S4096x4x1024
            (ReferenceIdeal.RefTerm.updR (F := Ideal)
              (ReferenceIdeal.RefTerm.yR (F := Ideal) (ReferenceIdeal.RefTerm.bufR (F := Ideal) a0 a1) a3 a4) a1 a2)
            KernelIdeal.Gen.shapeCasts_S16384x1024_S4096x4x1024)
          (constant (F := Ideal) KernelIdeal.S_ .f32 0x00000000#32)
          KernelIdeal.Gen.reducesTo_S4096x4x1024_S4096x1024_d1 KernelIdeal.Gen.h_S_ := by
  unfold ReferenceIdeal.RefTerm.outR
  exact ScatterRows.combine_law_zero_f32 _ (by decide) (by decide) _ _ _ tok_idx _ _ _

end Cert.Bridge

end
-- ==== Proof.BridgeKer.lean ====
/-
  The kernel's result term is the reference's.

  Stage by stage at the extended reals: the routing stages are the same integer operations in both programs; the
  kernel's dispatch source (each token's row repeated four times) is the reference's row gather at pair p ↦ p / 4; the zero
  the buffers start from is the same number in either float format; so the scattered buffers agree, hence the expert MLP
  of them; and the kernel's tail is the reshape-and-sum form of the reference's accumulating scatter.
-/
import proofs.«174603_j78443282694942_2_alg».proof.Proof.BridgeRef
import proofs.«174603_j78443282694942_2_alg».proof.Proof.KerPre
import proofs.«174603_j78443282694942_2_alg».proof.Proof.KerTail
import Idealize.ShloMosaic.PureOps.IdealRules

noncomputable section

namespace Cert.Bridge

open Idealize.ShloMosaic Idealize.ShloMosaic.ValueIdx

/-- The buffers start from zero in either format. -/
theorem zero_eq :
    ((broadcastInDim KernelIdeal.S64x513x1024 ![] KernelIdeal.Gen.bcast_S_S64x513x1024
        (constant (F := Ideal) KernelIdeal.S_ .bf16 0x0000#16) : FVec Ideal KernelIdeal.S64x513x1024 .bf16)
        : KernelIdeal.S64x513x1024.Idx → EReal)
      = (broadcastInDim ReferenceIdeal.S64x513x1024 ![] ReferenceIdeal.Gen.bcast_S_S64x513x1024
        (constant (F := Ideal) ReferenceIdeal.S_ .f32 0x00000000#32) : FVec Ideal ReferenceIdeal.S64x513x1024 .f32) := by
  funext i
  show Ideal.ofBits .bf16 0x0000#16 = Ideal.ofBits .f32 0x00000000#32
  rw [show Ideal.ofBits .bf16 0x0000#16 = 0 from IdealRules.sign_bit.ideal_zero .bf16,
    show Ideal.ofBits .f32 0x00000000#32 = 0 from IdealRules.sign_bit.ideal_zero .f32]

/-- The kernel's repeated token rows are the reference's gathered rows. -/
theorem xpair_eq (a0 : FVec Ideal KernelIdeal.S4096x1024 .f32) :
    (KernelIdeal.KerPre.xpairK (F := Ideal) a0 : KernelIdeal.S16384x1024.Idx → EReal)
      = ReferenceIdeal.RefTerm.xpair (F := Ideal) a0 :=
  TokenRows.dispatch_src_eq ReferenceIdeal.Gen.bcast_S4096_S4096x4_0 ReferenceIdeal.Gen.shapeCasts_S4096x4_S16384
    ReferenceIdeal.Gen.bcast_S_S16384 ReferenceIdeal.Gen.bcast_S16384_S16384x1_0
    KernelIdeal.Gen.bcast_S4096x1024_S4096x1x1024_0_2 KernelIdeal.Gen.bcast_S4096x1x1024_S4096x4x1024_0_1_2
    KernelIdeal.Gen.shapeCasts_S4096x4x1024_S16384x1024 KernelIdeal.Gen.bitsLt_bf16_f32
    ReferenceIdeal.Gen.gather_S4096x1024_S16384x1_S16384x1024_1_0_n_n_0_1_11024_wf a0

/-- So the scattered buffers are one array. -/
theorem buf_eq (a0 : FVec Ideal KernelIdeal.S4096x1024 .f32) (a1 : IVec KernelIdeal.S4096x4 32) :
    (KernelIdeal.KerPre.bufK (F := Ideal) a0 a1 : KernelIdeal.S64x513x1024.Idx → EReal)
      = ReferenceIdeal.RefTerm.bufR (F := Ideal) a0 a1 := by
  unfold KernelIdeal.KerPre.bufK ReferenceIdeal.RefTerm.bufR
  rw [KernelIdeal.KerPre.scatIdxK_eq, zero_eq, xpair_eq]
  rfl

/-- The kernel's tail at the reference's routing stages is the reshape-and-sum of the reference's weighted pair rows. -/
theorem tail_eq (y : KernelIdeal.S64x513x1024.Idx → EReal) (a1 : IVec KernelIdeal.S4096x4 32) (a2 : FVec Ideal KernelIdeal.S4096x4 .f32) :
    KernelIdeal.KerTail.tailK (F := Ideal) y (ReferenceIdeal.RefTerm.flatE (F := Ideal) a1)
        (ReferenceIdeal.RefTerm.validV (F := Ideal) a1) (ReferenceIdeal.RefTerm.slotV (F := Ideal) a1) a2
      = Host.reduceAdd (F := Ideal)
          (shapeCast KernelIdeal.S4096x4x1024 (ReferenceIdeal.RefTerm.updR (F := Ideal) y a1 a2)
            KernelIdeal.Gen.shapeCasts_S16384x1024_S4096x4x1024)
          (constant (F := Ideal) KernelIdeal.S_ .f32 0x00000000#32)
          KernelIdeal.Gen.reducesTo_S4096x4x1024_S4096x1024_d1 KernelIdeal.Gen.h_S_ := rfl

/-- THE TWO RESULTS ARE EQUAL: the kernel's tail of the expert MLP of its scattered buffers is the reference's result. -/
theorem result_eq (a0 : FVec Ideal KernelIdeal.S4096x1024 .f32) (a1 : IVec KernelIdeal.S4096x4 32)
    (a2 : FVec Ideal KernelIdeal.S4096x4 .f32) (a3 : FVec Ideal KernelIdeal.S64x1024x1024 .f32)
    (a4 : FVec Ideal KernelIdeal.S64x1024x512 .f32) :
    KernelIdeal.KerTail.tailK (F := Ideal)
        (MoE.expertOut (KernelIdeal.KerPre.bufK (F := Ideal) a0 a1) a3 a4)
        (KernelIdeal.KerPre.flatEK (F := Ideal) a1) (KernelIdeal.KerPre.validK (F := Ideal) a1)
        (KernelIdeal.KerPre.slotK (F := Ideal) a1) a2
      = ReferenceIdeal.RefTerm.outR (F := Ideal) a0 a1 a2 a3 a4 := by
  rw [outR_eq, yR_eq, KernelIdeal.KerPre.flatEK_eq, KernelIdeal.KerPre.validK_eq, KernelIdeal.KerPre.slotK_eq, buf_eq]
  exact tail_eq _ a1 a2

end Cert.Bridge

end
-- ==== Proof.lean ====
/-
  A mixture-of-experts layer: the capacity-based dispatch / per-expert gated MLP / combine, as a Pallas kernel with
  host glue, against the same computation in plain array operations.

  Both programs route every (token, choice) pair to a slot of its expert's buffer with the same integer operations,
  scatter the token rows there, run each expert's gated MLP on its buffer rows
      out(e, c, h) = ∑ᵢ (g(e,c,i) · σ(g(e,c,i)) · g(e,c,512+i)) · wdn(e,h,i),   g(e,c,o) = ∑ₖ buf(e,c,k) · wgu(e,o,k),
  gather each pair's output row, weight it, and add the four pairs of every token. They differ in how they repeat a
  token's row for its four pairs (a broadcast against a row gather at p ↦ p / 4), in the float format of the buffers
  (immaterial on the extended reals), in computing the MLP one expert per grid point against two batched contractions,
  in writing SiLU with the logistic operation against x · (1 / (1 + e⁻ˣ)), and in summing the four pairs by a
  reshape-and-sum against an accumulating scatter. Each is an equality on the extended reals that holds at every
  input (no finiteness is used: only commutativity and associativity of the sums are involved, and 0 + x = x).
-/
import proofs.«174603_j78443282694942_2_alg».proof.Defs
import proofs.«174603_j78443282694942_2_alg».proof.Proof.Gen.Kernel
import proofs.«174603_j78443282694942_2_alg».proof.Proof.Gen.Kernel.Frame
import proofs.«174603_j78443282694942_2_alg».proof.Proof.Gen.KernelIdeal
import proofs.«174603_j78443282694942_2_alg».proof.Proof.Gen.KernelIdeal.Frame
import proofs.«174603_j78443282694942_2_alg».proof.Proof.Gen.ReferenceIdeal
import proofs.«174603_j78443282694942_2_alg».proof.Proof.Gen.Pre_finite_inputs
import proofs.«174603_j78443282694942_2_alg».proof.Proof.KerRun
import proofs.«174603_j78443282694942_2_alg».proof.Proof.RefTerm
import proofs.«174603_j78443282694942_2_alg».proof.Proof.BridgeKer
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.RefTerm.run (F := Ideal) m ρ)

/-- The ideal pass rewrote nothing. -/
theorem preserves : Cert.preserves_Kernel_KernelIdeal := trivial

/-- Both idealized programs end with the same result: the kernel's run names its result as the tail of the expert MLP
    of its scattered buffers, the reference's as its composed term, and the two terms are equal at arguments that agree. -/
theorem algebraic : Cert.algebraic_KernelIdeal_ReferenceIdeal := by
  intro m ρ m' ρ' _ hagree
  refine ⟨_, Cert.KernelIdeal.KerRun.run m ρ, ?_⟩
  refine (θ_run Cert.ReferenceIdeal.defs _ _).mono (fun _ h c => ⟨(h c).1.trans ?_, (h c).2⟩)
    (Cert.ReferenceIdeal.RefTerm.run (F := Ideal) m' ρ')
  rw [(hagree c).1, (hagree c).2.1, (hagree c).2.2.1, (hagree c).2.2.2.1, (hagree c).2.2.2.2]
  exact (Cert.Bridge.result_eq _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
